-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x512 : Shape := ⟨2, ![100000, 512]⟩
abbrev S1x512 : Shape := ⟨2, ![1, 512]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg0 : IVec S4096x50 32) (main_v13 : IVec S_ 1) (main_v15 : IVec S4096x50 1) (main_c_5 : IVec S_ 32) : IVec S_ 1 :=
  let main_v16 : IVec S4096x50 32 := broadcastInDim S4096x50 ![] bcast_S_S4096x50 main_c_5
  let main_v17 : IVec S4096x50 1 := cmpi .sle main_arg0 main_v16
  let main_v18 : IVec S4096x50 1 := andi main_v15 main_v17
  let main_c_6 : IVec S_ 1 := constantI S_ 1 1#1
  let main_v19 : IVec S_ 1 := (fun x v => Host.reduce IntOp.andi x v reducesTo_S4096x50_S_d0_1 h_S_) main_v18 main_c_6
  let main_v20 : IVec S_ 1 := andi main_v13 main_v19
  main_v20

def fn {F : FTy → Type} [FloatOps F] (main_arg0 : IVec S4096x50 32) (main_arg1 : FVec F S100000x512 .f32) (main_arg2 : FVec F S1x512 .f32) (main_arg3 : FVec F S1 .f32) : IVec S_ 1 :=
  let main_v0 : FVec F S100000x512 .f32 := Host.absf main_arg1
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x50 32 := broadcastInDim S4096x50 ![] bcast_S_S4096x50 main_c_4
  let main_v15 : IVec S4096x50 1 := cmpi .sge main_arg0 main_v14
  let main_c_5 : IVec S_ 32 := constantI S_ 32 99999#32
  fn_part1 (F := F) main_arg0 main_v13 main_v15 main_c_5
-- ==== Kernel.lean ====
abbrev S4096x50 : Shape := ⟨2, ![4096, 50]⟩
abbrev S100000x512 : Shape := ⟨2, ![100000, 512]⟩
abbrev S1x512 : Shape := ⟨2, ![1, 512]⟩
abbrev S1 : Shape := ⟨1, ![1]⟩
abbrev S1x1 : Shape := ⟨2, ![1, 1]⟩
abbrev S23x34x128 : Shape := ⟨3, ![23, 34, 128]⟩
abbrev S4352x512 : Shape := ⟨2, ![4352, 512]⟩
abbrev S1x34x128 : Shape := ⟨3, ![1, 34, 128]⟩
abbrev S4352 : Shape := ⟨1, ![4352]⟩
abbrev S34x128 : Shape := ⟨2, ![34, 128]⟩
abbrev S100096 : Shape := ⟨1, ![100096]⟩
abbrev S204800 : Shape := ⟨1, ![204800]⟩
abbrev S100000 : Shape := ⟨1, ![100000]⟩
abbrev S6400 : Shape := ⟨1, ![6400]⟩
abbrev S_ : Shape := ⟨0, ![]⟩
abbrev S16 : Shape := ⟨1, ![16]⟩
abbrev S4096x50x1 : Shape := ⟨3, ![4096, 50, 1]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S4096x50, .i32⟩
  | .hbm, ⟨1, _⟩ => ⟨S100000x512, .f32⟩
  | .hbm, ⟨2, _⟩ => ⟨S1x512, .f32⟩
  | .hbm, ⟨3, _⟩ => ⟨S1, .f32⟩
  | .hbm, ⟨4, _⟩ => ⟨S1x1, .f32⟩
  | .hbm, ⟨5, _⟩ => ⟨S23x34x128, .f32⟩
  | .hbm, ⟨6, _⟩ => ⟨S100096, .f32⟩
  | .hbm, ⟨7, _⟩ => ⟨S204800, .i32⟩
  | .hbm, ⟨8, _⟩ => ⟨S204800, .f32⟩
  | .hbm, ⟨9, _⟩ => ⟨S4096x50x1, .f32⟩
  | .local .tc .vmem, ⟨0, _⟩ => ⟨S4352x512, .f32⟩
  | .local .tc .vmem, ⟨1, _⟩ => ⟨S4352x512, .f32⟩
  | .local .tc .vmem, ⟨2, _⟩ => ⟨S1x512, .f32⟩
  | .local .tc .vmem, ⟨3, _⟩ => ⟨S1x1, .f32⟩
  | .local .tc .vmem, ⟨4, _⟩ => ⟨S1x34x128, .f32⟩
  | .local .tc .vmem, ⟨5, _⟩ => ⟨S1x34x128, .f32⟩
  | .local .scVector .vmem, ⟨0, _⟩ => ⟨S100000, .f32⟩
  | .local .scVector .vmem, ⟨1, _⟩ => ⟨S6400, .i32⟩
  | .local .scVector .vmem, ⟨2, _⟩ => ⟨S6400, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x34x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k1_t1_loop : Scf.Loop 32 :=
  let c0_i32_0 : BitVec 32 := 0#32
  let c400_i32 : BitVec 32 := 400#32
  let v3 : BitVec 32 := Scalar.addi c0_i32_0 c400_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v5 : Index := Scalar.indexCast v4
  ![v5.toNat]

def k1_chk1 (v6 : IVec S16 32) : Prop :=
  (∀ a x, ((![v6] : Fin 1 → IVec S16 32) a x).toNat < S100000.size a)
instance k1_chk1.dec : ∀ (v6 : IVec S16 32), Decidable (k1_chk1 v6) := fun v6 => decidable_of_iff' _ (Iff.of_eq (k1_chk1.eq_1 v6))
theorem k1_idx1_inb : ∀ (v6 : IVec S16 32) (k1_hw1 : k1_chk1 v6), ∀ a x, ((![v6] : Fin 1 → IVec S16 32) a x).toNat < S100000.size a := fun v6 k1_hw1 => k1_hw1
def k1_off3 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v9 : Index := Scalar.indexCast v4
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1_S1x1 : S1.ShapeCasts S1x1
  inb_S4352x512_S4352x512_0_0 : ∀ a, (![0, 0] : Fin 2 → Nat) a + S4352x512.size a ≤ S4352x512.size a
  h_S4352x512 : 0 < S4352x512.numel
  inb_S1x512_S1x512_0_0 : ∀ a, (![0, 0] : Fin 2 → Nat) a + S1x512.size a ≤ S1x512.size a
  h_S1x512 : 0 < S1x512.numel
  broadcasts_S1x512_S4352x512 : S1x512.Broadcasts S4352x512
  reduces_S4352x512_S4352 : S4352x512.Reduces [1] S4352
  shapeCasts_S4352_S34x128 : S4352.ShapeCasts S34x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S34x128 : S1x1.Broadcasts S34x128
  shapeCasts_S34x128_S1x34x128 : S34x128.ShapeCasts S1x34x128
  inb_S1x34x128_S1x34x128_0_0_0 : ∀ a, (![0, 0, 0] : Fin 3 → Nat) a + S1x34x128.size a ≤ S1x34x128.size a
  h_S1x34x128 : 0 < S1x34x128.numel
  shapeCasts_S23x34x128_S100096 : S23x34x128.ShapeCasts S100096
  shapeCasts_S4096x50_S204800 : S4096x50.ShapeCasts S204800
  inb_S100096_S100000_0 : ∀ a, (![0] : Fin 1 → Nat) a + S100000.size a ≤ S100096.size a
  h_S16 : 0 < S16.numel
  h_S100000 : 0 < S100000.numel
  shapeCasts_S204800_S4096x50x1 : S204800.ShapeCasts S4096x50x1
  hcc1_scoped0 : 6 + S_.numel ≤ 9
  hcc1_scoped1 : 7 + S_.numel ≤ 9
  hcc1_scoped2 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4352x512.size a < S100000x512.size a
  hwx0_0 : ∀ i : grid0.Coords, EltTy.bits .f32 = 32 ∨ (Rect.unit (s := S100000x512) (fun a => cc0_transform_0 i a * S4352x512.size a) (fun a => (Pipeline.Clip.of (cc0_transform_0 i a) (S4352x512.size a) (S100000x512.size a)).extent (S4352x512.size a)) fun a => Pipeline.Clip.inb (Pipeline.Clip.ok_of (hstart0_0 i a))).WholeWords (EltTy.packing .f32)
  hwxs0_0 : ∀ i : grid0.Coords, EltTy.bits .f32 = 32 ∨ (Rect.unit (s := S4352x512) (fun _ => 0) (fun a => (Pipeline.Clip.of (cc0_transform_0 i a) (S4352x512.size a) (S100000x512.size a)).extent (S4352x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x34x128.size a ≤ S23x34x128.size a
  hwx0_3 : ∀ i : grid0.Coords, EltTy.bits .f32 = 32 ∨ (Rect.block (s := S23x34x128) S1x34x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S6400.size a ≤ S204800.size a
  k1_t1_ok : k1_t1_loop.OK
  k1_off2_inb : ∀ k1_t1 : Fin k1_t1_loop.trips, ∀ a, (k1_off2 k1_t1) a + S16.size a ≤ S6400.size a
  k1_off3_inb : ∀ k1_t1 : Fin k1_t1_loop.trips, ∀ a, (k1_off3 k1_t1) a + S16.size a ≤ S6400.size a

variable [Facts₀]

abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2

abbrev win0_0 : Pipeline.Window sig grid0 :=
  Pipeline.Window.ofSpecClip (Memref.whole main_arg1) S4352x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x34x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50 : Shape := ⟨2, ![4096, 50]⟩
abbrev S100000x512 : Shape := ⟨2, ![100000, 512]⟩
abbrev S1x512 : Shape := ⟨2, ![1, 512]⟩
abbrev S1 : Shape := ⟨1, ![1]⟩
abbrev S_ : Shape := ⟨0, ![]⟩
abbrev S4096x50x1 : Shape := ⟨3, ![4096, 50, 1]⟩
abbrev S1x1x1 : Shape := ⟨3, ![1, 1, 1]⟩
abbrev S4096x50x512 : Shape := ⟨3, ![4096, 50, 512]⟩
abbrev S512x1 : Shape := ⟨2, ![512, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x512, .f32⟩
  | .hbm, ⟨2, _⟩ => ⟨S1x512, .f32⟩
  | .hbm, ⟨3, _⟩ => ⟨S1, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x512, .f32⟩
  | .hbm, ⟨23, _⟩ => ⟨S4096x50x512, .i1⟩
  | .hbm, ⟨24, _⟩ => ⟨S_, .f32⟩
  | .hbm, ⟨25, _⟩ => ⟨S4096x50x512, .f32⟩
  | .hbm, ⟨26, _⟩ => ⟨S4096x50x512, .f32⟩
  | .hbm, ⟨27, _⟩ => ⟨S512x1, .f32⟩
  | .hbm, ⟨28, _⟩ => ⟨S4096x50x1, .f32⟩
  | .hbm, ⟨29, _⟩ => ⟨S1x1x1, .f32⟩
  | .hbm, ⟨30, _⟩ => ⟨S4096x50x1, .f32⟩
  | .hbm, ⟨31, _⟩ => ⟨S4096x50x1, .f32⟩
  | .hbm, ⟨32, _⟩ => ⟨S_, .f32⟩
  | .hbm, ⟨33, _⟩ => ⟨S4096x50, .f32⟩
  | .hbm, ⟨34, _⟩ => ⟨S_, .f32⟩
  | .hbm, ⟨35, _⟩ => ⟨S4096x50, .f32⟩
  | .hbm, ⟨36, _⟩ => ⟨S4096x50, .f32⟩
  | .hbm, ⟨37, _⟩ => ⟨S4096x50x1, .f32⟩
  | .hbm, ⟨38, _⟩ => ⟨S4096x50x1, .f32⟩
  | .hbm, ⟨39, _⟩ => ⟨S4096x50x1, .f32⟩
  | .hbm, ⟨40, _⟩ => ⟨S_, .f32⟩
  | .hbm, ⟨41, _⟩ => ⟨S4096x50, .f32⟩
  | .hbm, ⟨42, _⟩ => ⟨S4096x50x1, .f32⟩
  | .hbm, ⟨43, _⟩ => ⟨S4096x50x1, .f32⟩
  | .hbm, ⟨44, _⟩ => ⟨S4096x50x1, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_cst_1 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_v6 : Ref sig .tc := ⟨.hbm, 44, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x512_0_1 : S4096x50.BroadcastsInDim S4096x50x512 (![0, 1] : Fin 2 → Fin S4096x50x512.rank)
  bcast_S_S4096x50x512 : S_.BroadcastsInDim S4096x50x512 (![] : Fin 0 → Fin S4096x50x512.rank)
  transposes_S1x512_S512x1_1_0 : S1x512.Transposes [1, 0] S512x1
  gather_S100000x512_S4096x50x1_S4096x50x512_2_0_n_n_0_2_1512_wf : GatherDims.WF S100000x512 S4096x50x1 S4096x50x512 [2] [0] [] [0] [] 2 ![1, 512]
  dot_S4096x50x512_S512x1_S4096x50x1_2_0_01_1_n_n_wf : DotDims.WF S4096x50x512 S512x1 S4096x50x1 [2] [0] [0, 1] [1] [] []

variable [Facts₀]

def gather_S100000x512_S4096x50x1_S4096x50x512_2_0_n_n_0_2_1512 : GatherDims S100000x512 S4096x50x1 S4096x50x512 where
  offsetDims := [2]
  collapsedSliceDims := [0]
  operandBatchingDims := []
  startIndicesBatchingDims := []
  startIndexMap := [0]
  indexVectorDim := 2
  sliceSizes := ![1, 512]
  wf := gather_S100000x512_S4096x50x1_S4096x50x512_2_0_n_n_0_2_1512_wf
def dot_S4096x50x512_S512x1_S4096x50x1_2_0_01_1_n_n : DotDims S4096x50x512 S512x1 S4096x50x1 where
  lhsContracting := [2]
  rhsContracting := [0]
  lhsNonContracting := [0, 1]
  rhsNonContracting := [1]
  lhsBatch := []
  rhsBatch := []
  wf := dot_S4096x50x512_S512x1_S4096x50x1_2_0_01_1_n_n_wf

class Facts : Prop extends Facts₀ where

variable [Facts]
-- ==== Proof.CommonKI.lean ====
/-
  The idealized kernel's program as the SparseCore launch theorem sees it: the label signature, the SparseCore
  configuration, the body table, the variants, and the ghost state — the launch handshakes' rounds beside the
  TensorCore pipeline's staging cells' rounds and the counters of the tiles' local copies.
-/
import proofs.«206204_g77489799954452_cont_sun_c4_640_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«206204_g77489799954452_cont_sun_c4_640_31_alg».proof.Proof.Gen.KernelIdeal
import proofs.«206204_g77489799954452_cont_sun_c4_640_31_alg».proof.Proof.Gen.KernelIdeal.Skeleton
import proofs.«206204_g77489799954452_cont_sun_c4_640_31_alg».proof.Proof.Gen.KernelIdeal.Launch
import proofs.«206204_g77489799954452_cont_sun_c4_640_31_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the local copies' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The one admissible table set of the one pipeline (no prefetched tables). -/
abbrev adm : (p : Fin 1) → (pcfgs (F := F) p).Adm := fun p => (cfgs p).toPCfg_adm

end Cert.Proof.KI

end
-- ==== Proof.TileKI.lean ====
/-
  One vector subcore's task of the gather kernel, at a symbolic place: the projected table's first 100000 entries copied
  into the tile's first scratch, the tile's 6400 indices into its second, then 400 trips each loading sixteen indices,
  gathering the sixteen projected entries they name and storing the difference of each with itself into the third scratch,
  and the third scratch copied out to the tile's 6400 entries of the result. What the task leaves in the result's entries
  is, entry by entry, the difference with itself of SOME entry of the projected table among its first 100000.
-/
import proofs.«206204_g77489799954452_cont_sun_c4_640_31_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the scratch -/

abbrev sLoc (d : Dev nD) : Loc nD τ sig := (SparseCore.T d).loc main_v2
abbrev xLoc (d : Dev nD) : Loc nD τ sig := (SparseCore.T d).loc main_v3
abbrev oLoc (d : Dev nD) : Loc nD τ sig := (SparseCore.T d).loc main_v4

local notation "sW" => (Memref.whole Cert.KernelIdeal.main_v2_scv : Memref Cert.KernelIdeal.sig Kind.scVector Space.hbm Cert.KernelIdeal.S100096 EltTy.f32)
local notation "xW" => (Memref.whole Cert.KernelIdeal.main_v3_scv : Memref Cert.KernelIdeal.sig Kind.scVector Space.hbm Cert.KernelIdeal.S204800 EltTy.i32)
local notation "oW" => (Memref.whole Cert.KernelIdeal.main_v4_scv : Memref Cert.KernelIdeal.sig Kind.scVector Space.hbm Cert.KernelIdeal.S204800 EltTy.f32)
local notation "sS" => (Memref.whole Cert.KernelIdeal.cc1_scratch0 : Memref Cert.KernelIdeal.sig Kind.scVector Space.vmem Cert.KernelIdeal.S100000 EltTy.f32)
local notation "sI" => (Memref.whole Cert.KernelIdeal.cc1_scratch1 : Memref Cert.KernelIdeal.sig Kind.scVector Space.vmem Cert.KernelIdeal.S6400 EltTy.i32)
local notation "sO" => (Memref.whole Cert.KernelIdeal.cc1_scratch2 : Memref Cert.KernelIdeal.sig Kind.scVector Space.vmem Cert.KernelIdeal.S6400 EltTy.f32)

variable [FloatOps F]

/-- The place's thread. -/
abbrev cV (L : grid1.Coords) : Fin τ.nSC := (L 0).castLE hcore1
abbrev jV (L : grid1.Coords) : Fin τ.nSub := (L 1).castLE hsub1

/-- The tile's 6400 entries of the index array and of the result, as the kernel slices them. -/
abbrev xChunk (L : grid1.Coords) : Memref sig .scVector .hbm S6400 .i32 :=
  (xW).slice (Rect.unit (s := S204800) (k1_off1 L) S6400.size (k1_off1_inb L)) (fun _ => rfl)
abbrev oChunk (L : grid1.Coords) : Memref sig .scVector .hbm S6400 .f32 :=
  (oW).slice (Rect.unit (s := S204800) (k1_off1 L) S6400.size (k1_off1_inb L)) (fun _ => rfl)
/-- The first 100000 entries of the projected table, as the kernel slices them. -/
abbrev sHead : Memref sig .scVector .hbm S100000 .f32 :=
  (sW).slice (Rect.unit (s := S100096) ![0] S100000.size inb_S100096_S100000_0) (fun _ => rfl)

/-- The index set of the tile's entries (the same in the index array and in the result). -/
abbrev chunkSet (L : grid1.Coords) : Finset S204800.Idx := (xChunk L).view.set

/-- An entry that is the difference with itself of some one of the first 100000 entries of `sv`. -/
def SelfDiff (sv : S100096.Idx → Elt F .f32) (v : Elt F .f32) : Prop :=
  ∃ r : S100096.Idx, (r 0).val < 100000 ∧ v = FloatOps.subf (sv r) (sv r)

/-! ## The tile's own semaphores and scratch, out of what its scope holds -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

section Tile

variable (d : Dev nD) (L : grid1.Coords)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem pts_s (q : PosShare TreeShare) (f : Buf (Elt F) (sLoc d)) :
    ((sW).view.loc (V d (cV L) (jV L)) ↦{q} f : sProp 𝕄) = sLoc d ↦{q} f := by
  simp only [Memref.view_whole, View.set_whole]
omit [FloatOps F] in
theorem pts_x (f : Buf (Elt F) (xLoc d)) :
    ((xChunk L).view.loc (V d (cV L) (jV L)) ↦[(xChunk L).view.set]{fullShare} f : sProp 𝕄) = xLoc d ↦[chunkSet L]{fullShare} f := rfl
omit [FloatOps F] in
theorem pts_o (f : Buf (Elt F) (oLoc d)) :
    ((oChunk L).view.loc (V d (cV L) (jV L)) ↦[(oChunk L).view.set]{fullShare} f : sProp 𝕄) = oLoc d ↦[chunkSet L]{fullShare} f := rfl
omit [FloatOps F] in
theorem pts_sS (f : Buf (Elt F) ((V d (cV L) (jV L)).loc cc1_scratch0)) :
    ((sS).view.loc (V d (cV L) (jV L)) ↦{fullShare} f : sProp 𝕄) = (V d (cV L) (jV L)).loc cc1_scratch0 ↦{fullShare} f := rfl
omit [FloatOps F] in
theorem pts_sI (f : Buf (Elt F) ((V d (cV L) (jV L)).loc cc1_scratch1)) :
    ((sI).view.loc (V d (cV L) (jV L)) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl

/-- What the tile is handed: a read share `q` of the projected table, its entries of the index array, its entries of the result. -/
abbrev tileIn (q : PosShare TreeShare) (sv : Buf (Elt F) (sLoc d)) (xv : Buf (Elt F) (xLoc d)) : sProp 𝕄 :=
  iprop((sLoc d ↦{q} sv) ∗ (xLoc d ↦[chunkSet L]{fullShare} xv) ∗ ∃ f, oLoc d ↦[chunkSet L]{fullShare} f)
/-- What it hands back: the share, the indices, and its entries of the result each a self-difference of a projected entry. -/
abbrev tileOut (q : PosShare TreeShare) (sv : Buf (Elt F) (sLoc d)) (xv : Buf (Elt F) (xLoc d)) : sProp 𝕄 :=
  iprop((sLoc d ↦{q} sv) ∗ (xLoc d ↦[chunkSet L]{fullShare} xv) ∗ ∃ f, ⌜∀ j ∈ chunkSet L, SelfDiff sv (f j)⌝ ∗ oLoc d ↦[chunkSet L]{fullShare} f)

/-- The loop's invariant before trip `k`: the first two scratches as the copies left them, and the third holding a
    self-difference of a projected entry at every position below `16 k`. -/
def inv (sv : Buf (Elt F) (sLoc d)) (FS : Buf (Elt F) ((sS).view.loc (V d (cV L) (jV L)))) (FI : Buf (Elt F) ((sI).view.loc (V d (cV L) (jV L))))
    (k : Nat) (_ : Unit) : sProp 𝕄 :=
  iprop(((sS).view.loc (V d (cV L) (jV L)) ↦{fullShare} FS) ∗ ((sI).view.loc (V d (cV L) (jV L)) ↦{fullShare} FI)
    ∗ ∃ fo : Buf (Elt F) ((sO).view.loc (V d (cV L) (jV L))), ⌜∀ p : S6400.Idx, (p 0).val < 16 * k → SelfDiff sv (fo p)⌝ ∗ (sO).view.loc (V d (cV L) (jV L)) ↦{fullShare} fo)

omit [FloatOps F] in
theorem trips_eq : k1_t1_loop.trips = 400 := by decide

omit [FloatOps F] in
/-- A gathered entry is an entry of the scratch it is gathered from. -/
theorem loadIdx_mem (FS : ((sS).view).ty.Contents (Elt F)) (idxs : Fin S100000.rank → IVec S16 32) (h : ∀ a x, (idxs a x).toNat < S100000.size a) (x : S16.Idx) :
    ∃ r : S100000.Idx, loadIdx (View.read (Elt F) ((sS).access (Rect.whole cc1_scratch0.ty.shape)) FS) idxs h x = FS r := by
  refine ⟨((sS).access (Rect.whole cc1_scratch0.ty.shape)).emb (idxAt idxs h x), ?_⟩
  show View.read (Elt F) ((sS).access (Rect.whole cc1_scratch0.ty.shape)) FS (idxAt idxs h x) = _
  rw [View.read_apply]
  exact cast_eq _ _

/-- One trip's store: the sixteen positions it writes hold self-differences of gathered entries, each gathered entry an
    entry of the first scratch and so of the projected table; the positions below keep theirs. -/
theorem selfDiff_step (sv : S100096.Idx → Elt F .f32) (FS : S100000.Idx → Elt F .f32)
    (hFS : ∀ r, ∃ r' : S100096.Idx, (r' 0).val < 100000 ∧ FS r = sv r')
    (fo : ((sO).view).ty.Contents (Elt F)) (k : Nat) (off : Fin 1 → Nat) (hoff : off = ![16 * k]) (inb : ∀ a, off a + S16.size a ≤ S6400.size a)
    (li : S16.Idx → Elt F .f32) (hli : ∀ x, ∃ r, li x = FS r)
    (hfo : ∀ p : S6400.Idx, (p 0).val < 16 * k → SelfDiff sv (fo p)) :
    ∀ p : S6400.Idx, (p 0).val < 16 * (k + 1) →
      SelfDiff sv (((sO).view).writes (Elt F) fo [⟨Rect.unit (s := S6400) off S16.size inb, k1_pay1 li⟩] p) := by
  intro p hp
  by_cases hmem : p ∈ (Rect.unit (s := S6400) off S16.size inb).set
  · rw [← Rect.map_emb_univ] at hmem
    obtain ⟨x, -, rfl⟩ := Finset.mem_map.mp hmem
    have e := View.read_writes_cons_emb ((sO).view) fo (Rect.unit (s := S6400) off S16.size inb) (k1_pay1 li) [] x
    obtain ⟨r, hr⟩ := hli x
    obtain ⟨r', hlt, hr'⟩ := hFS r
    refine ⟨r', hlt, ?_⟩
    refine Eq.trans (show _ = k1_pay1 li x from e) ?_
    show FloatOps.subf (li x) (li x) = _
    rw [hr, hr']
  · have e := View.read_writes_apply_of_forall_not_mem ((sO).view) fo p [⟨Rect.unit (s := S6400) off S16.size inb, k1_pay1 li⟩]
      (by intro q hq; rw [List.mem_singleton.mp hq]; exact hmem)
    change SelfDiff sv (View.read (Elt F) ((sO).view) (((sO).view).writes (Elt F) fo [⟨Rect.unit (s := S6400) off S16.size inb, k1_pay1 li⟩]) p)
    rw [e]
    refine hfo p ?_
    by_contra hge
    refine hmem (Rect.mem_set_unit.mpr fun a => ?_)
    obtain rfl : a = 0 := Subsingleton.elim _ _
    subst hoff
    show 16 * k ≤ (p 0).val ∧ (p 0).val < 16 * k + 16
    omega

theorem tile_body (hF : (K (F := F)).Facts) (q : PosShare TreeShare) (sv : Buf (Elt F) (sLoc d)) (xv : Buf (Elt F) (xLoc d))
    (hx : ∀ j, (xv j).toNat < 100000)
    (O : CellTallies nD τ sig (HIx 1)) (W : Waits sig (HIx 1)) (hO : ∀ g, O g none = 0) :
    iprop(levAts (K (F := F)).L (K (F := F)).lev ∗ emp ∗ tileIn d L q sv xv
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_logsoftmax L sW (Memref.isWhole_whole _) xW (Memref.isWhole_whole _) oW (Memref.isWhole_whole _)
            sS (Memref.isWhole_whole _) sI (Memref.isWhole_whole _) sO (Memref.isWhole_whole _) cc1_scoped0 cc1_scoped1 cc1_scoped2)
          fun _ => iprop(tileOut d L q sv xv ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_logsoftmax_eq_skeleton]; unfold cc1_gather_logsoftmax_skel
  rw [(K (F := F)).scopedBufs_V hF d (cV L) (jV L), SparseCore.Cfg.scopedSems0_V (Val := Elt F) d (cV L) (jV L), ownSems0_V, ownBufs_V]
  iintro ⟨#Hlv, -, ⟨Hs, Hx, ⟨%fo0, Ho⟩⟩, ⟨⟨%fs0, Hss⟩, ⟨%fi0, Hsi⟩, ⟨%fc0, Hso⟩, Hbufs⟩, ⟨HsemA, HsemB, HsemC, Hsems⟩, HO⟩
  ihave Hmw := ((K (F := F)).mayWaits_none (thr := V d (cV L) (jV L)) hO) $$ Hlv
  ihave Hs' := (Entails.of_eq (pts_s (F := F) d L q sv).symm) $$ Hs
  ihave Hx' := (Entails.of_eq (pts_x (F := F) d L xv).symm) $$ Hx
  ihave Ho' := (Entails.of_eq (pts_o (F := F) d L fo0).symm) $$ Ho
  ihave Hss' := (Entails.of_eq (pts_sS (F := F) d L fs0).symm) $$ Hss
  ihave Hsi' := (Entails.of_eq (pts_sI (F := F) d L fi0).symm) $$ Hsi
  ihave Hso' := (Entails.of_eq (pts_sO (F := F) d L fc0).symm) $$ Hso
  sl_exec
  have hFS : ∀ r : S100000.Idx, ∃ r' : S100096.Idx, (r' 0).val < 100000 ∧
      (View.write (Elt F) (sS).view fs0 (tile_body.sl.dma0 d sv) Finset.univ) r = sv r' := by
    intro r
    refine ⟨(sHead).view.emb r, ?_, ?_⟩
    · have : (r 0).val < 100000 := (r 0).isLt
      show (0 + 1 * (r 0).val) < 100000
      omega
    · change View.write (Elt F) (View.whole cc1_scratch0) fs0 (tile_body.sl.dma0 d sv) Finset.univ r = _
      rw [View.write_whole_univ]
      unfold tile_body.sl.dma0
      exact (View.read_apply _ _).trans (cast_eq _ _)
  have hFI : ∀ p : S6400.Idx, ((View.write (Elt F) (sI).view fi0 (tile_body.sl.dma0_1 d L xv) Finset.univ) p).toNat < 100000 := by
    intro p
    change (View.write (Elt F) (View.whole cc1_scratch1) fi0 (tile_body.sl.dma0_1 d L xv) Finset.univ p).toNat < 100000
    rw [View.write_whole_univ]
    unfold tile_body.sl.dma0_1
    refine (congrArg BitVec.toNat ((View.read_apply _ _).trans (cast_eq _ _))).trans_lt (hx _)
  generalize View.write (Elt F) (sS).view fs0 (tile_body.sl.dma0 d sv) Finset.univ = FS at hFS ⊢
  generalize View.write (Elt F) (sI).view fi0 (tile_body.sl.dma0_1 d L xv) Finset.univ = FI at hFI ⊢
  sl_for (inv d L sv FS FI) $$ [Hss' Hsi' Hso']
  case region =>
    intro k _
    unfold inv
    iintro ⟨Hss, Hsi, %fo, %hfo, Hso⟩
    sl_exec
    have hchk : k1_chk1 (View.readAt (Elt F) (sI).view (Rect.unit (s := S6400) (k1_off2 k) S16.size (k1_off2_inb k)).toLoadRect FI) := by
      intro a x
      obtain rfl : a = 0 := Subsingleton.elim _ _
      show (View.readAt (Elt F) (sI).view (Rect.unit (s := S6400) (k1_off2 k) S16.size (k1_off2_inb k)).toLoadRect FI x).toNat < 100000
      simp only [View.readAt_apply, Memref.view_whole, View.read_whole]
      exact hFI _
    rw [wp_assume_of _ _ _ _ hchk]
    ihave Hss' := (Entails.of_eq (show ((sS).view.loc (V d (cV L) (jV L)) ↦{fullShare} FS : sProp 𝕄)
        = (((sS).access (.whole S100000)).loc (V d (cV L) (jV L)) ↦{fullShare} FS) from rfl)) $$ Hss
    iapply (SparseCore.wp_vectorLoadIdx 𝒱₀ (V d (cV L) (jV L)) none Set.univ (base := (sS)) (S := Finset.univ) (q := fullShare) (Finset.subset_univ _)) $$ Hss'
    iintro Hss'
    sl_exec
    sl_step
    ihave Hss := (Entails.of_eq (show ((sS).view.loc (V d (cV L) (jV L)) ↦{fullShare} FS : sProp 𝕄)
        = (((sS).access (.whole S100000)).loc (V d (cV L) (jV L)) ↦{fullShare} FS) from rfl).symm) $$ Hss'
    isplitl [Hss]; · iexact Hss
    isplitl [Hsi]; · iexact Hsi
    iexists _; isplitr
    swap; · iexact Hso
    ipureintro
    exact selfDiff_step sv FS hFS fo k.val (k1_off3 k) (k1_off3_eq k) (k1_off3_inb k) _
      (fun x => loadIdx_mem FS _ _ x) hfo
  · unfold inv
    isplitl [Hss']; · iexact Hss'
    isplitl [Hsi']; · iexact Hsi'
    iexists fc0; isplitr
    · ipureintro; intro p hp; exact absurd hp (by omega)
    · iexact Hso'
  iintro %_ HI
  unfold inv
  icases HI with ⟨Hss, Hsi, %fo, %hfo, Hso⟩
  sl_exec
  sl_step
  have ht : Scf.trips k1_t1_loop.lb k1_t1_loop.ub k1_t1_loop.st = 400 := trips_eq
  rw [ht] at hfo
  have hfin : ∀ j ∈ chunkSet L, SelfDiff sv (((oChunk L).view.writes (Elt F) fo0 [⟨Rect.whole S6400, tile_body.sl.dma0_2 d L fo⟩]) j) := by
    intro j hj
    obtain ⟨y, -, rfl⟩ := Finset.mem_map.mp hj
    have e1 := View.read_writes_cons_emb (oChunk L).view fo0 (Rect.whole S6400) (tile_body.sl.dma0_2 d L fo) [] y
    rw [Rect.emb_whole_apply] at e1
    have e2 := (View.read_apply (v := (oChunk L).view) ((oChunk L).view.writes (Elt F) fo0 [⟨Rect.whole S6400, tile_body.sl.dma0_2 d L fo⟩]) y).trans (cast_eq _ _)
    change SelfDiff sv ((oChunk L).view.writes (Elt F) fo0 [⟨Rect.whole S6400, tile_body.sl.dma0_2 d L fo⟩] ((oChunk L).view.emb y))
    rw [← e2, e1]
    refine hfo y ?_
    have : (y 0).val < 6400 := (y 0).isLt
    omega
  isplitl [Hs' Hx' Ho']
  · isplitl [Hs']; · iapply (Entails.of_eq (pts_s (F := F) d L q sv)); iexact Hs'
    isplitl [Hx']; · iapply (Entails.of_eq (pts_x (F := F) d L xv)); iexact Hx'
    iexists _; isplitr
    swap; · iapply (Entails.of_eq (pts_o (F := F) d L _)); iexact Ho'
    ipureintro; exact hfin
  isplitl [Hss Hsi Hso Hbufs]
  · isplitl [Hss]; · iexists _; iapply (Entails.of_eq (pts_sS (F := F) d L _)); iexact Hss
    isplitl [Hsi]; · iexists _; iapply (Entails.of_eq (pts_sI (F := F) d L _)); iexact Hsi
    isplitl [Hso]; · iexists _; iapply (Entails.of_eq (pts_sO (F := F) d L _)); iexact Hso
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  · exact .inl hp

end Tile

end Cert.Proof.KI

end
-- ==== Proof.PayKI.lean ====
/-
  What the launch handshakes carry for the gather kernel, and the launch theorem's obligations for it: each tile is
  handed a read share of the projected table (good in the sense `Gd`), its 6400 indices (each below 100000) and its 6400
  entries of the result, and hands them back, the result's entries each the self-difference of a projected entry.
-/
import proofs.«206204_g77489799954452_cont_sun_c4_640_31_alg».proof.Proof.TileKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sW" => (Memref.whole Cert.KernelIdeal.main_v2_scv : Memref Cert.KernelIdeal.sig Kind.scVector Space.hbm Cert.KernelIdeal.S100096 EltTy.f32)
local notation "xW" => (Memref.whole Cert.KernelIdeal.main_v3_scv : Memref Cert.KernelIdeal.sig Kind.scVector Space.hbm Cert.KernelIdeal.S204800 EltTy.i32)
local notation "oW" => (Memref.whole Cert.KernelIdeal.main_v4_scv : Memref Cert.KernelIdeal.sig Kind.scVector Space.hbm Cert.KernelIdeal.S204800 EltTy.f32)
local notation "sS" => (Memref.whole Cert.KernelIdeal.cc1_scratch0 : Memref Cert.KernelIdeal.sig Kind.scVector Space.vmem Cert.KernelIdeal.S100000 EltTy.f32)
local notation "sI" => (Memref.whole Cert.KernelIdeal.cc1_scratch1 : Memref Cert.KernelIdeal.sig Kind.scVector Space.vmem Cert.KernelIdeal.S6400 EltTy.i32)
local notation "sO" => (Memref.whole Cert.KernelIdeal.cc1_scratch2 : Memref Cert.KernelIdeal.sig Kind.scVector Space.vmem Cert.KernelIdeal.S6400 EltTy.f32)

variable [FloatOps F]

/- Which projected tables are good: a predicate the two instances choose (at the word level nothing is asked; at the
   ideal one, that the first 100000 entries are real numbers). -/
variable (Gd : (S100096.Idx → Elt F .f32) → Prop)

/-- The place of SparseCore `c`'s vector subcore `i`. -/
def coordsV (c : Fin 2) (i : Fin 16) : grid1.Coords :=
  fun | 0 => c | 1 => i | ⟨_ + 2, h⟩ => absurd h (Nat.not_lt.2 (Nat.le_add_left _ _))

/-- The read share of the projected table that tile `(c, i)` is handed. -/
abbrev tq (c : Fin 2) (i : Fin 16) : PosShare TreeShare := Transfers.shareTok (Transfers.shareTok fullShare 2 c) 16 i

def tileGo (d : Dev nD) (c : Fin 2) (i : Fin 16) : sProp 𝕄 :=
  iprop(∃ (sv : Buf (Elt F) (sLoc d)) (xv : Buf (Elt F) (xLoc d)), ⌜Gd sv ∧ ∀ j, (xv j).toNat < 100000⌝ ∗ tileIn d (coordsV c i) (tq c i) sv xv)

def tileTd (d : Dev nD) (c : Fin 2) (i : Fin 16) : sProp 𝕄 :=
  iprop((∃ sv : Buf (Elt F) (sLoc d), sLoc d ↦{tq c i} sv) ∗ (∃ xv : Buf (Elt F) (xLoc d), xLoc d ↦[chunkSet (coordsV c i)]{fullShare} xv)
    ∗ ∃ f : Buf (Elt F) (oLoc d), ⌜∀ j ∈ chunkSet (coordsV c i), ∃ sv, Gd sv ∧ SelfDiff sv (f j)⌝ ∗ oLoc d ↦[chunkSet (coordsV c i)]{fullShare} f)

instance tileGo_storable (d : Dev nD) (c : Fin 2) (i : Fin 16) : BI.Storable (upEmb : UEmb _ 𝕄) (tileGo Gd d c i) := by
  unfold tileGo; infer_instance
instance tileTd_storable (d : Dev nD) (c : Fin 2) (i : Fin 16) : BI.Storable (upEmb : UEmb _ 𝕄) (tileTd Gd d c i) := by
  unfold tileTd; infer_instance

def P : (K (F := F)).Pay (nD := nD) (Val := Elt F) (Name := ℕ) (U := UU) where
  st := fun q d c => match q with | 0 => bigSep Finset.univ fun i : Fin 16 => tileGo Gd d (Fin.cast nCore_zero c) i
  dn := fun q d c => match q with | 0 => bigSep Finset.univ fun i : Fin 16 => tileTd Gd d (Fin.cast nCore_zero c) i
  go := fun q d c i => match q with | 0 => tileGo Gd d (Fin.cast nCore_zero c) (Fin.cast nSub_zero i)
  td := fun q d c i => match q with | 0 => tileTd Gd d (Fin.cast nCore_zero c) (Fin.cast nSub_zero i)
  x := fun _ _ => iprop(emp)

instance P_storable : (P (F := F) Gd).IsStorable where
  st q d c := match q with
    | 0 => (inferInstance : BI.Storable (upEmb : UEmb _ 𝕄) (bigSep Finset.univ fun i : Fin 16 => tileGo Gd d (Fin.cast nCore_zero c) i))
  dn q d c := match q with
    | 0 => (inferInstance : BI.Storable (upEmb : UEmb _ 𝕄) (bigSep Finset.univ fun i : Fin 16 => tileTd Gd d (Fin.cast nCore_zero c) i))
  go q d c i := match q with
    | 0 => (inferInstance : BI.Storable (upEmb : UEmb _ 𝕄) (tileGo Gd d (Fin.cast nCore_zero c) (Fin.cast nSub_zero i)))
  td q d c i := match q with
    | 0 => (inferInstance : BI.Storable (upEmb : UEmb _ 𝕄) (tileTd Gd d (Fin.cast nCore_zero c) (Fin.cast nSub_zero i)))

/-! ## The tile's obligation -/

theorem tile_task (hF : (K (F := F)).Facts) (d : Dev nD) (c : Fin 2) (i : Fin 16)
    (O : CellTallies nD τ sig (HIx 1)) (W : Waits sig (HIx 1)) (hO : ∀ g, O g none = 0) :
    iprop(levAts (K (F := F)).L (K (F := F)).lev ∗ emp ∗ tileGo Gd d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc1_gather_logsoftmax (coordsV c i) sW (Memref.isWhole_whole _) xW (Memref.isWhole_whole _) oW (Memref.isWhole_whole _)
            sS (Memref.isWhole_whole _) sI (Memref.isWhole_whole _) sO (Memref.isWhole_whole _) cc1_scoped0 cc1_scoped1 cc1_scoped2)
          fun _ => iprop(tileTd Gd d c i ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  unfold tileGo tileTd
  iintro ⟨#Hlv, -, ⟨%sv, %xv, %hg, Hin⟩, Hsb, Hss, HO⟩
  iapply (wp_mono frame _ _ fun _ => ?_)
  rotate_left
  · iapply (tile_body d (coordsV c i) hF (tq c i) sv xv hg.2 O W hO)
    isplitr; · iexact Hlv
    isplitr; · iempintro
    isplitl [Hin]; · iexact Hin
    isplitl [Hsb]; · iexact Hsb
    isplitl [Hss]; · iexact Hss
    iexact HO
  · iintro ⟨⟨Hs, Hx, %f, %hf, Ho⟩, Hrest⟩
    isplitr [Hrest]
    · isplitl [Hs]; · iexists sv; iexact Hs
      isplitl [Hx]; · iexists xv; iexact Hx
      iexists f; isplitr
      · ipureintro; exact fun j hj => ⟨sv, hg.1, hf j hj⟩
      · iexact Ho
    · iexact Hrest

theorem defs₀_vector (c : Fin τ.nSC) (s : Fin τ.nSub) :
    defs₀ (F := F) (.scVector c s) 1 ()
      = SparseCore.onTile hcore1 hsub1 (fun c s => cc1_gather_logsoftmax (fun | 0 => c | 1 => s | ⟨_ + 2, h⟩ => absurd h (Nat.not_lt.2 (Nat.le_add_left _ _)))
          sW (Memref.isWhole_whole _) xW (Memref.isWhole_whole _) oW (Memref.isWhole_whole _)
          sS (Memref.isWhole_whole _) sI (Memref.isWhole_whole _) sO (Memref.isWhole_whole _) cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P Gd) v₀ 0 := by
  intro d c i O W hO _ _
  simp only [show (P Gd).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task Gd hF d (Fin.cast nCore_zero c) (Fin.cast nSub_zero i) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P Gd) 0 := by
  intro d c
  show (bigSep Finset.univ fun i : Fin 16 => tileGo Gd d (Fin.cast nCore_zero c) i) ⊢ |={Set.univ}=> iprop(
      (bigSep Finset.univ fun i : Fin ((K (F := F)).nSub 0) => tileGo Gd d (Fin.cast nCore_zero c) (Fin.cast nSub_zero i))
      ∗ ((bigSep Finset.univ fun i : Fin ((K (F := F)).nSub 0) => tileTd Gd d (Fin.cast nCore_zero c) (Fin.cast nSub_zero i))
          -∗ bigSep Finset.univ fun i : Fin 16 => tileTd Gd d (Fin.cast nCore_zero c) i))
  rw [bigSep_tasks (F := F) (fun i => tileGo Gd d (Fin.cast nCore_zero c) i), bigSep_tasks (F := F) (fun i => tileTd Gd d (Fin.cast nCore_zero c) i)]
  iintro H; imodintro
  isplitl [H]; · iexact H
  iintro H; iexact H

end Cert.Proof.KI

end
-- ==== Proof.ChunksKI.lean ====
/-
  The thirty-two tiles' entries of the index array and of the result, and their read shares of the projected table.

  Tile (c, i) — SparseCore c of two, vector subcore i of sixteen — owns the 6400 consecutive entries of the flat index
  array and of the flat result that start at 12800·i + 6400·c. As (c, i) runs over the thirty-two tiles these ranges
  are pairwise disjoint and fill 0 … 204799: entry n belongs to the tile with i = n / 12800 and c = (n / 6400) mod 2.
  So a whole array at the full share is the separating product, tile by tile, of its chunks, and chunks handed back —
  each with its own contents, each entry of which is the difference with itself of an entry of a good projected table —
  join into one whole array all of whose entries are such differences. The projected table is only read: its full share
  splits into one read share per tile (what is left over is dropped).
-/
import proofs.«206204_g77489799954452_cont_sun_c4_640_31_alg».proof.Proof.PayKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The chunks partition the flat arrays -/

/-- Tile (c, i)'s entries are those from 12800·i + 6400·c up to 6400 further. -/
theorem mem_chunk (c : Fin 2) (i : Fin 16) (j : S204800.Idx) :
    j ∈ chunkSet (coordsV c i) ↔ 12800 * i.val + 6400 * c.val ≤ (j 0).val ∧ (j 0).val < 12800 * i.val + 6400 * c.val + 6400 := by
  show j ∈ ((View.whole (main_v3_scv : Ref sig .scVector)).slice
    (Rect.unit (s := S204800) (k1_off1 (coordsV c i)) S6400.size (k1_off1_inb (coordsV c i)))).set ↔ _
  rw [View.set_slice_whole, Rect.mem_set_unit]
  have e : k1_off1 (coordsV c i) (0 : Fin 1) = 12800 * i.val + 6400 * c.val := by rw [k1_off1_eq]; rfl
  show (∀ a : Fin 1, k1_off1 (coordsV c i) a ≤ (j a).val ∧ (j a).val < k1_off1 (coordsV c i) a + S6400.size a) ↔ _
  rw [Fin.forall_fin_one, e]
  exact Iff.rfl

/-- The chunk of a tile given as a pair. -/
abbrev chunkOf (ci : Fin 2 × Fin 16) : Finset S204800.Idx := chunkSet (coordsV ci.1 ci.2)

/-- Two different tiles' chunks share no entry. -/
theorem chunks_disjoint : ∀ t ∈ (Finset.univ : Finset (Fin 2 × Fin 16)), ∀ t' ∈ (Finset.univ : Finset (Fin 2 × Fin 16)),
    t ≠ t' → Disjoint (chunkOf t) (chunkOf t') := by
  rintro ⟨c, i⟩ - ⟨c', i'⟩ - hne
  rw [Finset.disjoint_left]
  intro j hj hj'
  have h1 := (mem_chunk c i j).mp hj
  have h2 := (mem_chunk c' i' j).mp hj'
  have hc := c.isLt; have hc' := c'.isLt; have hi := i.isLt; have hi' := i'.isLt
  apply hne
  have : c.val = c'.val ∧ i.val = i'.val := by omega
  exact Prod.ext (Fin.ext this.1) (Fin.ext this.2)

/-- Every entry belongs to some tile's chunk. -/
theorem chunks_cover (j : S204800.Idx) : ∃ t : Fin 2 × Fin 16, j ∈ chunkOf t := by
  have hj : (j 0).val < 204800 := (j 0).isLt
  refine ⟨(⟨(j 0).val / 6400 % 2, by omega⟩, ⟨(j 0).val / 12800, by omega⟩), ?_⟩
  refine (mem_chunk _ _ j).mpr ?_
  show 12800 * ((j 0).val / 12800) + 6400 * ((j 0).val / 6400 % 2) ≤ (j 0).val
    ∧ (j 0).val < 12800 * ((j 0).val / 12800) + 6400 * ((j 0).val / 6400 % 2) + 6400
  omega

/-! ## A whole array is its chunks -/

omit [FloatOps F] in
/-- The index array at the full share is the product of its thirty-two chunks. -/
theorem xPts_chunks (d : Dev nD) (f : Buf (Elt F) (xLoc d)) :
    (xLoc d ↦{fullShare} f : sProp 𝕄)
      = bigSep Finset.univ fun c : Fin 2 => bigSep Finset.univ fun i : Fin 16 => xLoc d ↦[chunkSet (coordsV c i)]{fullShare} f := by
  have e1 : (xLoc d ↦[_]{fullShare} f : sProp 𝕄) = _ :=
    pointsTo_biUnion (ℓ := xLoc d) (Finset.univ : Finset (Fin 2 × Fin 16)) chunkOf chunks_disjoint
  refine Eq.trans (congrArg (fun I => (xLoc d ↦[I]{fullShare} f : sProp 𝕄)) ?_)
    (e1.trans (bigSep_univ_prod (fun t : Fin 2 × Fin 16 => (xLoc d ↦[chunkOf t]{fullShare} f : sProp 𝕄))))
  exact (Finset.eq_univ_iff_forall.mpr fun j =>
    Finset.mem_biUnion.mpr ⟨_, Finset.mem_univ _, (chunks_cover j).choose_spec⟩).symm

omit [FloatOps F] in
/-- The result array at the full share is the product of its thirty-two chunks. -/
theorem oPts_chunks (d : Dev nD) (f : Buf (Elt F) (oLoc d)) :
    (oLoc d ↦{fullShare} f : sProp 𝕄)
      = bigSep Finset.univ fun c : Fin 2 => bigSep Finset.univ fun i : Fin 16 => oLoc d ↦[chunkSet (coordsV c i)]{fullShare} f := by
  have e1 : (oLoc d ↦[_]{fullShare} f : sProp 𝕄) = _ :=
    pointsTo_biUnion (ℓ := oLoc d) (Finset.univ : Finset (Fin 2 × Fin 16)) chunkOf chunks_disjoint
  refine Eq.trans (congrArg (fun I => (oLoc d ↦[I]{fullShare} f : sProp 𝕄)) ?_)
    (e1.trans (bigSep_univ_prod (fun t : Fin 2 × Fin 16 => (oLoc d ↦[chunkOf t]{fullShare} f : sProp 𝕄))))
  exact (Finset.eq_univ_iff_forall.mpr fun j =>
    Finset.mem_biUnion.mpr ⟨_, Finset.mem_univ _, (chunks_cover j).choose_spec⟩).symm

/-! ## One read share of the projected table per tile -/

omit [FloatOps F] in
/-- The projected table at the full share gives every tile its read share. -/
theorem sPts_shares (d : Dev nD) (sv : Buf (Elt F) (sLoc d)) :
    (sLoc d ↦{fullShare} sv : sProp 𝕄)
      ⊢ bigSep Finset.univ fun c : Fin 2 => bigSep Finset.univ fun i : Fin 16 => sLoc d ↦{tq c i} sv := by
  have drop : ∀ A B : sProp 𝕄, iprop(A ∗ B) ⊢ B := fun A B => by iintro ⟨-, H⟩; iexact H
  exact ((Transfers.pointsTo_toks_split fullShare 2).trans (drop _ _)).trans
    (bigSep_mono fun c _ => (Transfers.pointsTo_toks_split (Transfers.shareTok fullShare 2 c) 16).trans (drop _ _))

/-! ## The chunks handed back join into one array -/

/-- Chunks of the result handed back, each with contents of its own whose entries are differences with itself of an
    entry of a good projected table, are one whole result array all of whose entries are such differences. -/
theorem oChunks_join (d : Dev nD) (Gd : (S100096.Idx → Elt F .f32) → Prop) :
    (bigSep Finset.univ fun c : Fin 2 => bigSep Finset.univ fun i : Fin 16 =>
        iprop(∃ f : Buf (Elt F) (oLoc d), ⌜∀ j ∈ chunkSet (coordsV c i), ∃ sv, Gd sv ∧ SelfDiff sv (f j)⌝
          ∗ oLoc d ↦[chunkSet (coordsV c i)]{fullShare} f))
      ⊢ (iprop(∃ g : Buf (Elt F) (oLoc d), ⌜∀ j, ∃ sv, Gd sv ∧ SelfDiff sv (g j)⌝ ∗ oLoc d ↦{fullShare} g) : sProp 𝕄) := by
  have e := bigSep_univ_prod (fun ci : Fin 2 × Fin 16 =>
    (iprop(∃ f : Buf (Elt F) (oLoc d), ⌜∀ j ∈ chunkOf ci, ∃ sv, Gd sv ∧ SelfDiff sv (f j)⌝ ∗ oLoc d ↦[chunkOf ci]{fullShare} f) : sProp 𝕄))
  refine (Entails.of_eq e.symm).trans ?_
  refine (bigSep_exists_pi Finset.univ (fun (ci : Fin 2 × Fin 16) (f : Buf (Elt F) (oLoc d)) =>
    (iprop(⌜∀ j ∈ chunkOf ci, ∃ sv, Gd sv ∧ SelfDiff sv (f j)⌝ ∗ oLoc d ↦[chunkOf ci]{fullShare} f) : sProp 𝕄))).trans ?_
  iintro ⟨%fs, H⟩
  ihave H2 := (bigSep_pure_sep Finset.univ (fun ci : Fin 2 × Fin 16 => ∀ j ∈ chunkOf ci, ∃ sv, Gd sv ∧ SelfDiff sv (fs ci j))
    (fun ci => (oLoc d ↦[chunkOf ci]{fullShare} fs ci : sProp 𝕄))) $$ H
  icases H2 with ⟨%hpure, H3⟩
  ihave H4 := (pointsTo_biUnion_join Finset.univ chunkOf fs (fs (0, 0)) chunks_disjoint) $$ H3
  icases H4 with ⟨%g, %hg, Hg⟩
  iexists g
  isplitr
  · ipureintro
    intro j
    obtain ⟨ci, hci⟩ := chunks_cover j
    rw [hg ci (Finset.mem_univ _) j hci]
    exact hpure ci (Finset.mem_univ _) j hci
  · iapply (Entails.of_eq (congrArg (fun I => (oLoc d ↦[I]{fullShare} g : sProp 𝕄))
      (Finset.eq_univ_iff_forall.mpr fun j => Finset.mem_biUnion.mpr ⟨_, Finset.mem_univ _, (chunks_cover j).choose_spec⟩)))
    iexact Hg

end Cert.Proof.KI

end
-- ==== Proof.TcDatKI.lean ====
/-
  The TensorCore region's proof data, relational: window 0's last block overhangs the table, so the rows of its
  staging buffer past the table's end hold words nothing names, the body computes the result's block from the whole
  buffer, and the result's array is constrained, not named. Each input buffer is left as found; the result's buffer
  is left at the payload of three buffers as the fetches leave them. The body's triple and the body obligation.
-/
import proofs.«206204_g77489799954452_cont_sun_c4_640_31_alg».proof.Proof.CommonKI
import Idealize.ShloMosaic.Lib.Pipeline.FrameBody

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-! ## The arrays at entry, and a buffer after a fetch -/

/-- The four windows' arrays at the contents the region finds. -/
abbrev Arr (c : Dev nD) : Type := (w : Fin cfg0.W) → Buf (Elt F) ((cfg0.win w).arr.view.loc (c.tc : Thread nD τ))

/-- Window `w`'s staging buffer once the fetch at point `t` has landed in it, if it held `d`: the array's block on the
    part the fetch moves, `d` elsewhere. -/
def fet (c : Dev nD) (A : Arr (F := F) c) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (A w))

/-! ## What the body leaves in the result's buffer -/

abbrev r0 : Rect S4352x512 := Rect.unit (s := S4352x512) ![0, 0] S4352x512.size inb_S4352x512_S4352x512_0_0
abbrev r1 : Rect S1x512 := Rect.unit (s := S1x512) ![0, 0] S1x512.size inb_S1x512_S1x512_0_0
abbrev r2 : Rect S1x1 := Rect.unit (s := S1x1) ![0, 0] S1x1.size inb_S1x1_S1x1_0_0
abbrev r3 : Rect S1x34x128 := Rect.unit (s := S1x34x128) ![0, 0, 0] S1x34x128.size inb_S1x34x128_S1x34x128_0_0_0

/-- The result's staging buffer after the body, from the three input buffers: its one store. -/
def out3 (x0 : Vec F S4352x512 .f32) (x1 : Vec F S1x512 .f32) (x2 : Vec F S1x1 .f32) : Vec F S1x34x128 .f32 :=
  View.canon [⟨r3, k0_pay1 (View.ld x0 r0) (View.ld x1 r1) (View.ld x2 r2)⟩]

/-- The store tiles the buffer, so it covers it. -/
theorem cover3 (p0 : Vec F S1x34x128 .f32) (y : S1x34x128.Idx) :
    ∃ pc ∈ ([⟨r3, p0⟩] : List (View.Piece (Elt F) S1x34x128 .f32)), y ∈ pc.1.set :=
  View.cover_of_tiled [⟨r3, p0⟩] S1x34x128.size (by rfl) y

/-! ## The body's triple -/

set_option maxHeartbeats 1000000 in
/-- The body on whole staging memrefs, the inputs' at contents `x0 x1 x2` and the result's at anything, runs to the
    inputs' as they were and the result's at `out3` of them. -/
theorem sound_kernel (c : Dev nD) (E : Set ℕ) (i : grid0.Coords) (arg1 : Memref sig .tc .vmem S4352x512 .f32) (harg1 : arg1.IsWhole)
    (arg2 : Memref sig .tc .vmem S1x512 .f32) (harg2 : arg2.IsWhole) (arg3 : Memref sig .tc .vmem S1x1 .f32) (harg3 : arg3.IsWhole)
    (arg4 : Memref sig .tc .vmem S1x34x128 .f32) (harg4 : arg4.IsWhole)
    (x0 : Vec F S4352x512 .f32) (x1 : Vec F S1x512 .f32) (x2 : Vec F S1x1 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out3 x0 x1 x2)) -∗ Kc ⟨⟩))
      ⊢ wp frame (wpE (defs₀ (F := F)) Variants.none (c.tc : Thread nD τ) none) E (cc0__tc_proj_body i arg1 harg1 arg2 harg2 arg3 harg3 arg4 harg4) Kc := by
  simp only [cc0__tc_proj_body_eq_skeleton]; unfold cc0__tc_proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one pipeline on device `c`'s TensorCore, from the arrays as the region finds them, what the
    TensorCore owes throughout (`O`) and the pairs its waits had recorded (`W`): each input's buffer is left as found;
    the result's is left at `out3` of the three input buffers as their fetches leave them, whatever they held past the
    part a fetch moves; no invariant; full shares. -/
def rdat (c : Dev nD) (A : Arr (F := F) c) (O : CellTallies nD τ sig (HIx 1)) (W : Waits sig (HIx 1)) :
    RDat τ (Elt F) (HIx 1) ℕ UU ℕ cfg0 c where
  A := A
  after w t := match w with
    | ⟨0, _⟩ => fun Y X => X = Y
    | ⟨1, _⟩ => fun Y X => X = Y
    | ⟨2, _⟩ => fun Y X => X = Y
    | ⟨3, _⟩ => fun _ X => ∃ d0 d1 d2, X = out3 (fet c A 0 t d0) (fet c A 1 t d1) (fet c A 2 t d2)
  Φ _ := iprop(emp)
  q _ := fullShare
  owed _ := O
  recorded _ := (↑W : Set (SemLoc sig × HIx 1))

variable (c : Dev nD) (A : Arr (F := F) c) (O : CellTallies nD τ sig (HIx 1)) (W : Waits sig (HIx 1))

theorem after0 (t : Fin cfg0.N) : (rdat c A O W).after 0 t = fun Y X => X = Y := by dsimp only [rdat]
theorem after1 (t : Fin cfg0.N) : (rdat c A O W).after 1 t = fun Y X => X = Y := by dsimp only [rdat]
theorem after2 (t : Fin cfg0.N) : (rdat c A O W).after 2 t = fun Y X => X = Y := by dsimp only [rdat]
theorem after3 (t : Fin cfg0.N) : (rdat c A O W).after 3 t
    = fun _ X => ∃ d0 d1 d2, X = out3 (fet c A 0 t d0) (fet c A 1 t d1) (fet c A 2 t d2) := by dsimp only [rdat] <;> rfl

theorem fetched_eq (w : Fin cfg0.W) (t : Fin cfg0.N) (d) : (rdat c A O W).fetched w t d = fet c A w t d := rfl

/-- What the body finds in each input's buffer: what a fetch at the point leaves there. Window 0 is fetched at every
    point; windows 1 and 2 at the first only, never cut, and left as found since. -/
theorem finds0 (t : Fin cfg0.N) (Y) (h : (rdat c A O W).Finds 0 t Y) : ∃ d, Y = fet c A 0 t d :=
  ((rdat c A O W).finds_of_fetch (fetch0_0 t) Y).mp h
theorem finds1 (t : Fin cfg0.N) (Y) (h : (rdat c A O W).Finds 1 t Y) : ∃ d, Y = fet c A 1 t d :=
  (rdat c A O W).finds_in_eq_fetched 1 rfl (fun _ _ _ => rfl) (fun t Y X h => by rw [after1] at h; exact h) t Y h
theorem finds2 (t : Fin cfg0.N) (Y) (h : (rdat c A O W).Finds 2 t Y) : ∃ d, Y = fet c A 2 t d :=
  (rdat c A O W).finds_in_eq_fetched 2 rfl (fun _ _ _ => rfl) (fun t Y X h => by rw [after2] at h; exact h) t Y h

/-! ## The body obligation -/

/-- The body at any point, on any contents the loop may hand it. -/
theorem sound_body (t : Fin cfg0.N) (Y : (w : Fin cfg0.W) → (cfg0.win w).block.Idx → Elt F (cfg0.win w).elt)
    (hY : ∀ w, (rdat c A O W).Finds w t (Y w)) :
    iprop((rdat c A O W).Φ t.castSucc ∗ (rdat c A O W).owesAt none t.castSucc
        ∗ owns (c.tc : Thread nD τ) (st0_0 t) fullShare (Y 0) ∗ owns (c.tc : Thread nD τ) (st0_1 t) fullShare (Y 1)
        ∗ owns (c.tc : Thread nD τ) (st0_2 t) fullShare (Y 2) ∗ owns (c.tc : Thread nD τ) (st0_3 t) fullShare (Y 3))
      ⊢ wp frame (wpE (defs₀ (F := F)) Variants.none (c.tc : Thread nD τ) none) Set.univ (bodyAt0 t) (fun _ =>
          iprop((rdat c A O W).Φ t.succ ∗ (rdat c A O W).owesAt none t.succ
            ∗ (∃ X, ⌜(rdat c A O W).after 0 t (Y 0) X⌝ ∗ owns (c.tc : Thread nD τ) (st0_0 t) fullShare X)
            ∗ (∃ X, ⌜(rdat c A O W).after 1 t (Y 1) X⌝ ∗ owns (c.tc : Thread nD τ) (st0_1 t) fullShare X)
            ∗ (∃ X, ⌜(rdat c A O W).after 2 t (Y 2) X⌝ ∗ owns (c.tc : Thread nD τ) (st0_2 t) fullShare X)
            ∗ (∃ X, ⌜(rdat c A O W).after 3 t (Y 3) X⌝ ∗ owns (c.tc : Thread nD τ) (st0_3 t) fullShare X))) := by
  obtain ⟨d0, h0⟩ := finds0 c A O W t (Y 0) (hY 0)
  obtain ⟨d1, h1⟩ := finds1 c A O W t (Y 1) (hY 1)
  obtain ⟨d2, h2⟩ := finds2 c A O W t (Y 2) (hY 2)
  unfold bodyAt0
  rw [show (rdat c A O W).Φ t.succ = (rdat c A O W).Φ t.castSucc from rfl,
    show (rdat c A O W).owesAt none t.succ = (rdat c A O W).owesAt none t.castSucc from rfl,
    after0, after1, after2, after3]
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists (out3 (Y 0) (Y 1) (Y 2)); isplitr
  · ipureintro; exact ⟨d0, d1, d2, by rw [h0, h1, h2]⟩
  iexact H3

/-- The library's body obligation, at every point. -/
theorem body_obligation : (rdat c A O W).BodyObligation (defs₀ (F := F)) Variants.none (none : HIx 1) Set.univ := fun t Y hY => by
  rw [bigSep_W0, bigSep_W0]
  exact sound_body c A O W t Y hY

end Cert.Proof.KI

end
-- ==== Proof.TcSegKI.lean ====
/-
  The TensorCore region of @main, entered with the TensorCore owing: the region's record over the relational proof
  data (the windows' arrays at the contents found, the TensorCore's debts carried through, the wait evidence from the
  levels: every debt sits at a call's index, the staging cells' waits at index none) and the region's triple —
  the three input arrays come back as found, the result's at contents the proof data allows.
-/
import proofs.«206204_g77489799954452_cont_sun_c4_640_31_alg».proof.Proof.TcDatKI

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-! ## Small facts -/

theorem bigSep_F0 {M : Type} [URA M] (Φ : Fin 0 → sProp M) : bigSep Finset.univ Φ = (BI.emp : sProp M) :=
  bigSep_univ_eq_bigSepL [] (by decide) (by decide) Φ

/-- The pipeline has no prefetched table. -/
theorem prefHeld_emp (c : Dev nD) (q) (V) :
    (Pipeline.prefHeld (Ix := HIx 1) (Name := ℕ) (U := UU) (Lvl := ℕ) (Val := Elt F) (pcfgs (F := F) 0).pre c q V : sProp 𝕄) = BI.emp :=
  bigSep_F0 _

section Arrays

variable (c : Dev nD) (A : Arr (F := F) c) (O : CellTallies nD τ sig (HIx 1)) (W : Waits sig (HIx 1))

theorem share_full (w : Fin cfg0.W) : (rdat c A O W).share w = fullShare := by
  unfold RDat.share; split <;> rfl

/-- A window's array, on the set and at the share the pipeline holds it, is the buffer behind it whole at the full share. -/
theorem pt_eq (w : Fin cfg0.W) (Fv : Buf (Elt F) ((cfg0.win w).arr.view.loc (c.tc : Thread nD τ))) :
    (((cfg0.win w).arr.view.loc (c.tc : Thread nD τ) ↦[(cfg0.win w).arr.view.set]{(rdat c A O W).share w} Fv) : sProp 𝕄)
      = ((c.tc : Thread nD τ).loc (Pipeline.arrRef spec0 w) ↦{fullShare} Fv) := by
  rw [(arr_whole0 w).set_eq_univ, share_full]

/-- The four arrays at given contents, one by one. -/
theorem arrays_four (Fv : Arr (F := F) c) : ((rdat c A O W).arrays Fv : sProp 𝕄)
    = iprop(((c.tc : Thread nD τ).loc main_arg1 ↦{fullShare} Fv 0) ∗ ((c.tc : Thread nD τ).loc main_arg2 ↦{fullShare} Fv 1)
        ∗ ((c.tc : Thread nD τ).loc main_v0 ↦{fullShare} Fv 2) ∗ ((c.tc : Thread nD τ).loc main_v1 ↦{fullShare} Fv 3)) := by
  unfold RDat.arrays
  rw [bigSep_W0, pt_eq c A O W 0, pt_eq c A O W 1, pt_eq c A O W 2, pt_eq c A O W 3]

/-- The four arrays at contents they may hold after the write-backs below `n`, one by one. -/
theorem arraysAt_four (n : Nat) : ((rdat c A O W).arraysAt n : sProp 𝕄)
    = iprop((∃ Fv, ⌜(rdat c A O W).ArrAt 0 n Fv⌝ ∗ ((c.tc : Thread nD τ).loc main_arg1 ↦{fullShare} Fv))
        ∗ (∃ Fv, ⌜(rdat c A O W).ArrAt 1 n Fv⌝ ∗ ((c.tc : Thread nD τ).loc main_arg2 ↦{fullShare} Fv))
        ∗ (∃ Fv, ⌜(rdat c A O W).ArrAt 2 n Fv⌝ ∗ ((c.tc : Thread nD τ).loc main_v0 ↦{fullShare} Fv))
        ∗ (∃ Fv, ⌜(rdat c A O W).ArrAt 3 n Fv⌝ ∗ ((c.tc : Thread nD τ).loc main_v1 ↦{fullShare} Fv))) := by
  unfold RDat.arraysAt
  refine (bigSep_congr (Ψ := fun w => iprop(∃ Fv, ⌜(rdat c A O W).ArrAt w n Fv⌝
    ∗ ((c.tc : Thread nD τ).loc (Pipeline.arrRef spec0 w) ↦{fullShare} Fv))) fun w _ => ?_).trans (bigSep_W0 _)
  simp only [pt_eq c A O W w]

end Arrays

/-! ## The region's record -/

/-- The arrays' contents on every device from those on the device at hand (the mesh has one). -/
def famA (d : Dev nD) (A' : Arr (F := F) d) (c : Dev nD) : Arr (F := F) c :=
  if h : c = d then h ▸ A' else fun _ => Classical.arbitrary _

theorem famA_self (d : Dev nD) (A' : Arr (F := F) d) : famA d A' d = A' := by
  unfold famA; rw [dif_pos rfl]

/-- The proof data of the program's one pipeline, on every device. -/
abbrev pd (d : Dev nD) (A' : Arr (F := F) d) (O : CellTallies nD τ sig (HIx 1)) (W : Waits sig (HIx 1)) :
    (p : Fin 1) → (c : Dev nD) → RDat τ (Elt F) (HIx 1) ℕ UU ℕ (Pipeline.pin (pcfgs (F := F)) adm p) c :=
  fun _ c => rdat c (famA d A' c) O W

/-- The region: entered from the four arrays at the contents found and the TensorCore's debts, left with the arrays at
    contents the proof data allows and the same debts, the recorded pairs grown by pairs at index none only. -/
def reg (d : Dev nD) (A' : Arr (F := F) d) (O : CellTallies nD τ sig (HIx 1)) (hO : ∀ g, O g none = 0) (W : Waits sig (HIx 1)) :
    Pipeline.RDat.RegionSeg (pcfgs (F := F)) adm (pd d A' O W) (none : HIx 1) defs₀ 𝒱₀ (K (F := F)).L (K (F := F)).lev (0 : Fin 1) where
  win := winFacts0.to₀
  block_pos := block_pos0
  stage_whole := stage_whole0
  K := PEmpty
  osem k := k.elim
  ho := Pipeline.OwnSemFacts.none _
  hbody c := body_obligation c (famA d A' c) O W
  hwaits c := Pipeline.RDat.cellsWaits_intro (Pipeline.pin (pcfgs (F := F)) adm) (pd d A' O W) none 0 c
    fun w s t => (K (F := F)).mayWait_none _ hO
  pre c := iprop((rdat c (famA d A' c) O W).arrays (famA d A' c) ∗ owes (c.tc : Thread nD τ) O W)
  post c := iprop((rdat c (famA d A' c) O W).arraysAt cfg0.N ∗ ∃ W', ⌜∀ p ∈ W', p ∈ W ∨ p.2 = none⌝ ∗ owes (c.tc : Thread nD τ) O W')
  X _ := iprop(emp)
  Y _ := iprop(emp)
  Z _ := iprop(emp)
  hentry c := by
    rw [Pipeline.ownSems0_none, prefHeld_emp]
    iintro ⟨⟨Ha, HO⟩, -, -⟩
    imodintro
    isplitl [Ha]; · iexact Ha
    isplitr; · iempintro
    isplitl [HO]
    · iexists W; isplitr; · ipureintro; exact fun p hp => Or.inl hp
      iexact HO
    isplitr <;> iempintro
  hin c := by
    show _ ⊢ iprop(emp)
    iintro -; iempintro
  hout c := by
    rw [Pipeline.ownSems0_none, scopedRest0_eq]
    iintro -
    isplitr; · iempintro
    isplitr <;> iempintro
  hexit c := by
    iintro ⟨Ha, HO, -, -⟩
    imodintro
    isplitl [Ha]; · iexact Ha
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

theorem reg_pre (d : Dev nD) (A' : Arr (F := F) d) (O : CellTallies nD τ sig (HIx 1)) (hO : ∀ g, O g none = 0) (W : Waits sig (HIx 1)) :
    (reg d A' O hO W).pre d = iprop((rdat d A' O W).arrays A' ∗ owes (d.tc : Thread nD τ) O W) := by
  show iprop((rdat d (famA d A' d) O W).arrays (famA d A' d) ∗ owes (d.tc : Thread nD τ) O W) = _
  rw [famA_self]

theorem reg_post (d : Dev nD) (A' : Arr (F := F) d) (O : CellTallies nD τ sig (HIx 1)) (hO : ∀ g, O g none = 0) (W : Waits sig (HIx 1)) :
    (reg d A' O hO W).post d
      = iprop((rdat d A' O W).arraysAt cfg0.N ∗ ∃ W', ⌜∀ p ∈ W', p ∈ W ∨ p.2 = none⌝ ∗ owes (d.tc : Thread nD τ) O W') := by
  show iprop((rdat d (famA d A' d) O W).arraysAt cfg0.N ∗ ∃ W', ⌜∀ p ∈ W', p ∈ W ∨ p.2 = none⌝ ∗ owes (d.tc : Thread nD τ) O W') = _
  rw [famA_self]

/-! ## The region's triple -/

/-- The four windows' arrays from the contents of the four buffers behind them. -/
def arrOf (d : Dev nD) (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1)) : Arr (F := F) d :=
  fun w' => match w' with
    | ⟨0, _⟩ => tb
    | ⟨1, _⟩ => w
    | ⟨2, _⟩ => b0
    | ⟨3, _⟩ => o

/-- What the region may leave in the result's array, given what it finds in its four arrays: the entry contents
    overwritten, block by block in point order, by the result's staging buffer as the body may leave it. -/
def Proj (d : Dev nD) (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1)) (o' : Buf (Elt F) ((SparseCore.T d : Thread nD τ).loc main_v1)) : Prop :=
  (rdat d (arrOf d tb w b0 o) 0 ∅).ArrAt 3 cfg0.N o'

end Cert.Proof.KI

end
-- ==== Proof.TcRegionKI.lean ====
/-
  The TensorCore region's triple, from the region's record by the library's region rule.
-/
import proofs.«206204_g77489799954452_cont_sun_c4_640_31_alg».proof.Proof.TcSegKI

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

theorem wp_ret_unit (d : Dev nD) (Q : PUnit → sProp 𝕄) :
    Q ⟨⟩ ⊢ wp frame (wpE (D (F := F)) 𝒱 (SparseCore.T d : Thread nD τ) none) Set.univ (.ret ⟨⟩) Q := by
  rw [wp_ret]; iintro H; imodintro; iexact H

set_option maxHeartbeats 1000000 in
set_option backward.isDefEq.respectTransparency.types false in
/-- The region on device `d`'s TensorCore, entered owing `O` (nothing at index none): from the level facts, the region
    boundary, the pipeline's ghost state and tokens, the four arrays at `tb w b0 o` and the debts, the call runs to the
    boundary, the three inputs as found, the result's array at contents `Proj` allows, and the same debts, the recorded
    pairs grown at index none only. -/
theorem tc_region (d : Dev nD) (O : CellTallies nD τ sig (HIx 1)) (hO : ∀ g, O g none = 0) (W : Waits sig (HIx 1))
    (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1))
    (Φ : PUnit → sProp 𝕄) :
    iprop(levAts (K (F := F)).L (K (F := F)).lev ∗ boundary (SparseCore.T d : Thread nD τ)
        ∗ Pipeline.cellsGhost (Pipeline.pin (pcfgs (F := F)) adm) EP 0 d ∗ Pipeline.toksInit (Pipeline.pin (pcfgs (F := F)) adm) EP 0 d
        ∗ ((SparseCore.T d : Thread nD τ).loc main_arg1 ↦{fullShare} tb) ∗ ((SparseCore.T d : Thread nD τ).loc main_arg2 ↦{fullShare} w)
        ∗ ((SparseCore.T d : Thread nD τ).loc main_v0 ↦{fullShare} b0) ∗ ((SparseCore.T d : Thread nD τ).loc main_v1 ↦{fullShare} o)
        ∗ owes (SparseCore.T d : Thread nD τ) O W
        ∗ (iprop(boundary (SparseCore.T d : Thread nD τ) ∗ ((SparseCore.T d : Thread nD τ).loc main_arg1 ↦{fullShare} tb)
              ∗ ((SparseCore.T d : Thread nD τ).loc main_arg2 ↦{fullShare} w) ∗ ((SparseCore.T d : Thread nD τ).loc main_v0 ↦{fullShare} b0)
              ∗ (∃ o', ⌜Proj d tb w b0 o o'⌝ ∗ ((SparseCore.T d : Thread nD τ).loc main_v1 ↦{fullShare} o'))
              ∗ ∃ W', ⌜∀ p ∈ W', p ∈ W ∨ p.2 = none⌝ ∗ owes (SparseCore.T d : Thread nD τ) O W') -∗ Φ ⟨⟩))
      ⊢ wp frame (wpE (D (F := F)) 𝒱 (SparseCore.T d : Thread nD τ) none) Set.univ (.op (.customCall (Pipeline.entry 0) ()) fun _ => .ret ⟨⟩) Φ := by
  have h := Pipeline.RDat.RegionSeg.wp (pcfgs (F := F)) adm (pd d (arrOf d tb w b0 o) O W) (none : HIx 1) cellOf_inj EP defs₀ 𝒱₀
    (K (F := F)).L (K (F := F)).lev (reg d (arrOf d tb w b0 o) O hO W) d none (by simp) (fun _ => .ret ⟨⟩) Φ
  rw [reg_pre, reg_post, arrays_four, arraysAt_four] at h
  refine .trans ?_ h
  iintro ⟨HL, Hb, Hg, Ht, H1, H2, H3, H4, HO, Hk⟩
  isplitl [Hk]
  · iintro ⟨Hb, ⟨⟨%F0, %h0, H1⟩, ⟨%F1, %h1, H2⟩, ⟨%F2, %h2, H3⟩, ⟨%o', %h3, H4⟩⟩, HW⟩
    have e0 : tb = F0 := by rw [RDat.ArrAt_in _ 0 rfl] at h0; exact h0.symm
    have e1 : w = F1 := by rw [RDat.ArrAt_in _ 1 rfl] at h1; exact h1.symm
    have e2 : b0 = F2 := by rw [RDat.ArrAt_in _ 2 rfl] at h2; exact h2.symm
    subst e0 e1 e2
    have hP : Proj d tb w b0 o o' :=
      (RDat.arrAt_congr (rd := rdat d (arrOf d tb w b0 o) O W) (rd' := rdat d (arrOf d tb w b0 o) 0 ∅) rfl rfl cfg0.N o').mpr h3
    iapply (wp_ret_unit d Φ)
    iapply Hk
    isplitl [Hb]; · iexact Hb
    isplitl [H1]; · iexact H1
    isplitl [H2]; · iexact H2
    isplitl [H3]; · iexact H3
    isplitl [H4]
    · iexists o'; isplitr
      · ipureintro; exact hP
      iexact H4
    iexact HW
  isplitl [Hb]; · iexact Hb
  isplitl [H1 H2 H3 H4 HO]
  · isplitl [H1 H2 H3 H4]
    · isplitl [H1]; · iexact H1
      isplitl [H2]; · iexact H2
      isplitl [H3]; · iexact H3
      iexact H4
    iexact HO
  isplitl [HL]; · iexact HL
  isplitl [Hg]; · iexact Hg
  iexact Ht

end Cert.Proof.KI

end
-- ==== Proof.MainKI.lean ====
/-
  @main of the idealized kernel on the TensorCore, inside the SparseCore launch: the bias reshaped, the projection's pipeline, the two reshapes, the gather kernel's call, the last reshape; and the program's run.
-/
import proofs.«206204_g77489799954452_cont_sun_c4_640_31_alg».proof.Proof.ChunksKI
import proofs.«206204_g77489799954452_cont_sun_c4_640_31_alg».proof.Proof.TcRegionKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (Gd : (S100096.Idx → Elt F .f32) → Prop)
variable (m : (ℓ : Loc nD τ sig) → Buf (Elt F) ℓ) (ρ : Dev nD → PrngReg)

/-! ## The launch element: the handshakes' rounds, the pipeline's staging cells' rounds, no counters -/

def u₀ : UU := (initOf (K (F := F)).hsCells (K (F := F)).hsToks,
  (initOf (Pipeline.cells cfgs Gen.cellOf_inj) (Pipeline.launchToks cfgs Gen.cellOf_inj), 1))

/-- What @main's proof starts from on device `d` besides the launch's deal: the pipeline's cells' ghost state and tokens. -/
def G (d : Dev nD) : sProp 𝕄 :=
  iprop(Pipeline.cellsGhost (Pipeline.pin (pcfgs (F := F)) (adm (F := F))) (EP (F := F)) 0 d ∗ Pipeline.toksInit (Pipeline.pin (pcfgs (F := F)) (adm (F := F))) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P Gd).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells cfgs Gen.cellOf_inj) (Pipeline.launchToks cfgs Gen.cellOf_inj))) : sProp 𝕄)
      = BI.own ((EP (F := F)) (initOf (Pipeline.cells cfgs Gen.cellOf_inj) (Pipeline.launchToks cfgs Gen.cellOf_inj))) from rfl)) $$ HP
  imod (Pipeline.fund_ghost cfgs (EP (F := F)) Gen.cellOf_inj) $$ HP' with ⟨Hg, Ht⟩
  imodintro
  isplitl [HH]; · iexact HH
  isplitl [Hg Ht]
  · unfold G
    rw [bigSep_sep']
    ihave Hg' := (Entails.of_eq (bigSep_congr fun d _ => bigSep_univ_of_subsingleton (Φ := fun p => Pipeline.cellsGhost cfgs (EP (F := F)) p d) (0 : Fin 1))) $$ Hg
    ihave Ht' := (Entails.of_eq (bigSep_congr fun d _ => bigSep_univ_of_subsingleton (Φ := fun p => Pipeline.toksInit cfgs (EP (F := F)) p d) (0 : Fin 1))) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev TT (d : Dev nD) : Thread nD τ := SparseCore.T d

omit [FloatOps F] in
theorem unscopedBufs_eq (d : Dev nD) (W : (b : Ref sig .tc) → Buf (Elt F) ((d.tc : Thread nD τ).loc b)) :
    (unscopedBufs d W : sProp 𝕄) = iprop(((TT d).loc main_arg0 ↦{fullShare} W main_arg0) ∗ ((TT d).loc main_arg1 ↦{fullShare} W main_arg1)
      ∗ ((TT d).loc main_arg2 ↦{fullShare} W main_arg2) ∗ ((TT d).loc main_arg3 ↦{fullShare} W main_arg3) ∗ ((TT d).loc main_v0 ↦{fullShare} W main_v0)
      ∗ ((TT d).loc main_v1 ↦{fullShare} W main_v1) ∗ ((TT d).loc main_v2 ↦{fullShare} W main_v2) ∗ ((TT d).loc main_v3 ↦{fullShare} W main_v3)
      ∗ ((TT d).loc main_v4 ↦{fullShare} W main_v4) ∗ ((TT d).loc main_v5 ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

include m in
/-- A host reshape of `x` into `y`, from the two buffers held whole: `y` ends holding `x`'s contents recast. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ Proc.devRef .tc y)
    (fx : Buf (Elt F) ((TT d).loc x)) (fy : Buf (Elt F) ((TT d).loc y)) (Q : PUnit → sProp 𝕄) :
    iprop(boundary (TT d) ∗ ((TT d).loc x ↦{fullShare} fx) ∗ ((TT d).loc y ↦{fullShare} fy)
        ∗ (iprop(boundary (TT d) ∗ ((TT d).loc x ↦{fullShare} fx) ∗ ((TT d).loc y ↦{fullShare} fun i => he ▸ shapeCast y.ty.shape fx hn i)) -∗ Q ⟨⟩))
      ⊢ wp frame (wpE ((K (F := F)).defs (D (F := F))) 𝒱 (TT d) none) Set.univ
          (hlo rfl (StableHlo.reshape x y he hn hx hy) (fun _ => .ret ⟨⟩)) Q := by
  classical
  let V : Valuation τ sig (Elt F) := Function.update (Function.update (fun b => m (d, b)) (Proc.devRef .tc x) fx) (Proc.devRef .tc y) fy
  have hVx : V (Proc.devRef .tc x) = fx := by
    show Function.update _ _ _ _ = _
    rw [Function.update_of_ne hne, Function.update_self]
  have hVy : V (Proc.devRef .tc y) = fy := Function.update_self _ _ _
  have hne' : (Proc.devRef .tc x : DevRef τ sig) ∉ ({Proc.devRef .tc y} : Finset (DevRef τ sig)) := by simpa using hne
  have hpre : (held (TT d) {Proc.devRef .tc x, Proc.devRef .tc y} V : sProp 𝕄) = iprop(((TT d).loc x ↦{fullShare} fx) ∗ ((TT d).loc y ↦{fullShare} fy)) := by
    unfold held
    rw [SparseCore.bigSep_insert' hne', bigSep_singleton, hVx, hVy]
  have hpost : (held (TT d) {Proc.devRef .tc x, Proc.devRef .tc y} ((StableHlo.reshape x y he hn hx hy : HloOp τ sig (Elt F)).result V) : sProp 𝕄)
      = iprop(((TT d).loc x ↦{fullShare} fx) ∗ ((TT d).loc y ↦{fullShare} fun i => he ▸ shapeCast y.ty.shape fx hn i)) := by
    unfold held
    rw [SparseCore.bigSep_insert' hne', bigSep_singleton,
      (StableHlo.reshape x y he hn hx hy : HloOp τ sig (Elt F)).result_of_not_mem V (b := Proc.devRef .tc x) hne',
      StableHlo.reshape_result x y he hn hx hy V, hVx]
  iintro ⟨Hb, Hx, Hy, Hk⟩
  iapply (wp_hlo_within 𝒱 (TT d) none Set.univ (op := StableHlo.reshape x y he hn hx hy) (S := {Proc.devRef .tc x, Proc.devRef .tc y}) (Finset.Subset.refl _) (V := V)) $$ [Hb Hx Hy]
  · isplitl [Hb]; · iexact Hb
    rw [hpre]
    isplitl [Hx]; · iexact Hx
    iexact Hy
  iintro ⟨Hb, Hheld⟩
  rw [wp_ret]; imodintro
  iapply Hk
  isplitl [Hb]; · iexact Hb
  iapply (Entails.of_eq hpost); iexact Hheld

/-! ## What @main computes along the way -/

abbrev b0Of (d : Dev nD) : Buf (Elt F) ((TT d).loc main_v0) := fun i => shapeCast S1x1 (m ((TT d).loc main_arg3)) Facts₀.shapeCasts_S1_S1x1 i
abbrev sOf (d : Dev nD) (o' : Buf (Elt F) ((TT d).loc main_v1)) : Buf (Elt F) ((TT d).loc main_v2) := fun i => shapeCast S100096 o' Facts₀.shapeCasts_S23x34x128_S100096 i
abbrev xOf (d : Dev nD) : Buf (Elt F) ((TT d).loc main_v3) := fun i => shapeCast S204800 (m ((TT d).loc main_arg0)) Facts₀.shapeCasts_S4096x50_S204800 i
abbrev rOf (d : Dev nD) (g : Buf (Elt F) ((TT d).loc main_v4)) : Buf (Elt F) ((TT d).loc main_v5) := fun i => shapeCast S4096x50x1 g Facts₀.shapeCasts_S204800_S4096x50x1 i

/-- What @main leaves the claim on device `d`: the four arguments at their launch contents and the result the recast of an
    array each of whose entries is the self-difference of an entry of a good projected table. -/
def FIN (d : Dev nD) : sProp 𝕄 :=
  iprop(((TT d).loc main_arg0 ↦{fullShare} m ((TT d).loc main_arg0)) ∗ ((TT d).loc main_arg1 ↦{fullShare} m ((TT d).loc main_arg1))
    ∗ ((TT d).loc main_arg2 ↦{fullShare} m ((TT d).loc main_arg2)) ∗ ((TT d).loc main_arg3 ↦{fullShare} m ((TT d).loc main_arg3))
    ∗ ∃ g : Buf (Elt F) ((TT d).loc main_v4), ⌜∀ j, ∃ sv, Gd sv ∧ SelfDiff sv (g j)⌝ ∗ (TT d).loc main_v5 ↦{fullShare} rOf d g)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The TensorCore's handshake state lends what the core owes and takes it back at any recorded pairs within its bound. -/
theorem tcSt_lend (d : Dev nD) (n : ℕ) :
    ((K (F := F)).tcSt EH d n : sProp 𝕄) ⊢ iprop(∃ W, ⌜(K (F := F)).WBelow (TT d) W (8 * n)⌝ ∗ owes (TT d) ((K (F := F)).Otc d n) W
      ∗ (∀ W', iprop(⌜(K (F := F)).WBelow (TT d) W' (8 * n)⌝ ∗ owes (TT d) ((K (F := F)).Otc d n) W') -∗ (K (F := F)).tcSt EH d n)) := by
  unfold SparseCore.Cfg.tcSt
  iintro ⟨⟨%W, %hW, HO⟩, Hrest⟩
  iexists W; isplitr; · ipureintro; exact hW
  isplitl [HO]; · iexact HO
  iintro %W' ⟨%hW', HO'⟩
  isplitl [HO']
  · iexists W'; isplitr; · ipureintro; exact hW'
    iexact HO'
  · iexact Hrest

/-- The pipeline's region as @main spells it — a call of the entry label lifted to the launch's signature — is the
    certificate's own region, lifted. -/
theorem entry_eq : (SparseCore.liftProg (Q := 1) ((.op (.customCall (Pipeline.entry 0) ()) fun _ => .ret ⟨⟩) : Prog (TpuEff nD τ sig (Elt F) (ΛP (F := F)) .tc) PUnit)
    : Prog (TpuEff nD τ sig (Elt F) (SparseCore.Sig (ΛP (F := F)) 1) .tc) PUnit)
    = Prog.lift (TpuEff.customCall (SparseCore.inner (Pipeline.entry 0)) ()) := rfl

theorem wp_entry (d : Dev nD) (Φ : PUnit → sProp 𝕄) :
    wp frame (wpE (D (F := F)) 𝒱 (TT d) none) Set.univ
        ((.op (.customCall (Pipeline.entry 0) ()) fun _ => .ret ⟨⟩) : Prog (TpuEff nD τ sig (Elt F) (ΛP (F := F)) .tc) PUnit) Φ
      ⊢ wp frame (wpE ((K (F := F)).defs (D (F := F))) 𝒱 (TT d) none) Set.univ
          (Prog.lift (TpuEff.customCall (SparseCore.inner (Pipeline.entry 0)) ())) Φ := by
  rw [← entry_eq]
  exact (K (F := F)).wp_liftProg (D (F := F)) 𝒱 (TT d) Set.univ none _ Φ

/-! ## The tiles' shares of the arrays, out of the arrays whole -/

theorem st0_eq (d : Dev nD) :
    (bigSep Finset.univ fun c : Fin ((K (F := F)).nCore 0) => (P Gd).st 0 d c) = bigSep Finset.univ fun c : Fin 2 => bigSep Finset.univ fun i : Fin 16 => tileGo Gd d c i :=
  bigSep_congr fun c _ => show (bigSep Finset.univ fun i : Fin 16 => tileGo Gd d (Fin.cast nCore_zero c) i) = _ from
    bigSep_congr fun i _ => congrArg (fun c => tileGo Gd d c i) (Fin.ext rfl)
theorem dn0_eq (d : Dev nD) :
    (bigSep Finset.univ fun c : Fin ((K (F := F)).nCore 0) => (P Gd).dn 0 d c) = bigSep Finset.univ fun c : Fin 2 => bigSep Finset.univ fun i : Fin 16 => tileTd Gd d c i :=
  bigSep_congr fun c _ => show (bigSep Finset.univ fun i : Fin 16 => tileTd Gd d (Fin.cast nCore_zero c) i) = _ from
    bigSep_congr fun i _ => congrArg (fun c => tileTd Gd d c i) (Fin.ext rfl)

theorem tiles_intro (d : Dev nD) (sv : Buf (Elt F) (sLoc d)) (xv : Buf (Elt F) (xLoc d)) (fo : Buf (Elt F) (oLoc d))
    (hg : Gd sv) (hx : ∀ j, (xv j).toNat < 100000) :
    iprop((sLoc d ↦{fullShare} sv) ∗ (xLoc d ↦{fullShare} xv) ∗ (oLoc d ↦{fullShare} fo))
      ⊢ (bigSep Finset.univ fun c : Fin 2 => bigSep Finset.univ fun i : Fin 16 => tileGo Gd d c i : sProp 𝕄) := by
  refine BIBase.Entails.trans ?_ (bigSep_mono fun c _ => bigSep_mono fun i _ =>
    (show iprop((sLoc d ↦{tq c i} sv) ∗ (xLoc d ↦[chunkSet (coordsV c i)]{fullShare} xv) ∗ (oLoc d ↦[chunkSet (coordsV c i)]{fullShare} fo)) ⊢ tileGo Gd d c i from by
      unfold tileGo
      iintro ⟨Hs, Hx, Ho⟩
      iexists sv; iexists xv; isplitr; · ipureintro; exact ⟨hg, hx⟩
      isplitl [Hs]; · iexact Hs
      isplitl [Hx]; · iexact Hx
      iexists fo; iexact Ho))
  simp only [bigSep_sep']
  rw [xPts_chunks, oPts_chunks]
  iintro ⟨Hs, Hx, Ho⟩
  isplitl [Hs]; · iapply (sPts_shares d sv); iexact Hs
  isplitl [Hx]; · iexact Hx
  iexact Ho

theorem tiles_elim (d : Dev nD) :
    (bigSep Finset.univ fun c : Fin 2 => bigSep Finset.univ fun i : Fin 16 => tileTd Gd d c i : sProp 𝕄)
      ⊢ iprop(∃ g : Buf (Elt F) (oLoc d), ⌜∀ j, ∃ sv, Gd sv ∧ SelfDiff sv (g j)⌝ ∗ oLoc d ↦{fullShare} g) :=
  (bigSep_mono fun c _ => bigSep_mono fun i _ => (show tileTd Gd d c i ⊢ _ from by unfold tileTd; exact sep_elim_right.trans sep_elim_right)).trans
    (oChunks_join d Gd)

/-! ## @main on the TensorCore -/

set_option backward.isDefEq.respectTransparency.types false in
set_option maxHeartbeats 2000000 in
theorem hmain (hxin : ∀ d i, (m ((TT d).loc main_arg0) i).toNat < 100000)
    (hGd : ∀ d o', Proj d (m ((TT d).loc main_arg1)) (m ((TT d).loc main_arg2)) (b0Of m d) (m ((TT d).loc main_v1)) o' → Gd (sOf d o'))
    (κ : GSem nD τ sig → ℕ) (d : Dev nD) :
    iprop((K (F := F)).ctx EH (P Gd) κ ∗ (K (F := F)).tcSt EH d 0 ∗ (K (F := F)).tcRes m ρ d ∗ G (F := F) d)
      ⊢ wp frame (wpE ((K (F := F)).defs (D (F := F))) 𝒱 (TT d) none) Set.univ (main d)
          fun _ => iprop((K (F := F)).tcSt EH d 1 ∗ FIN Gd m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2, Hv3, Hv4, Hv5⟩, -, -⟩, ⟨Hcg, Htk⟩⟩
  ihave Hlev := (SparseCore.Cfg.ctx_levAts κ) $$ Hctx
  -- the bias, reshaped
  iapply (wp_reshape m d main_arg3 main_v0 rfl Facts₀.shapeCasts_S1_S1x1 ⟨by decide, rfl⟩ ⟨by decide, rfl⟩ (by decide) _ _ _)
  isplitl [Hb]; · iexact Hb
  isplitl [Ha3]; · iexact Ha3
  isplitl [Hv0]; · iexact Hv0
  iintro ⟨Hb, Ha3, Hv0⟩
  ihave Hv0' := (Entails.of_eq (show ((TT d).loc main_v0 ↦{fullShare} (fun i => (rfl : main_arg3.ty.elt = main_v0.ty.elt) ▸ shapeCast main_v0.ty.shape (m ((TT d).loc main_arg3)) Facts₀.shapeCasts_S1_S1x1 i) : sProp 𝕄)
      = ((TT d).loc main_v0 ↦{fullShare} b0Of m d) from rfl)) $$ Hv0
  -- the projection's pipeline
  ihave Hl := (tcSt_lend d 0) $$ Hst
  icases Hl with ⟨%W, %hW, HO, Hback⟩
  iapply (wp_entry d _)
  iapply (tc_region d ((K (F := F)).Otc d 0) (Otc_none d 0) W (m ((TT d).loc main_arg1)) (m ((TT d).loc main_arg2)) (b0Of m d) (m ((TT d).loc main_v1)) _)
  isplitr; · iexact Hlev
  isplitl [Hb]; · iexact Hb
  isplitl [Hcg]; · iexact Hcg
  isplitl [Htk]; · iexact Htk
  isplitl [Ha1]; · iexact Ha1
  isplitl [Ha2]; · iexact Ha2
  isplitl [Hv0']; · iexact Hv0'
  isplitl [Hv1]; · iexact Hv1
  isplitl [HO]; · iexact HO
  iintro ⟨Hb, Ha1, Ha2, Hv0, ⟨%o', %hP, Hv1⟩, %W', %hW', HO⟩
  -- the two reshapes
  iapply (wp_reshape m d main_v1 main_v2 rfl Facts₀.shapeCasts_S23x34x128_S100096 ⟨by decide, rfl⟩ ⟨by decide, rfl⟩ (by decide) _ _ _)
  isplitl [Hb]; · iexact Hb
  isplitl [Hv1]; · iexact Hv1
  isplitl [Hv2]; · iexact Hv2
  iintro ⟨Hb, Hv1, Hv2⟩
  iapply (wp_reshape m d main_arg0 main_v3 rfl Facts₀.shapeCasts_S4096x50_S204800 ⟨by decide, rfl⟩ ⟨by decide, rfl⟩ (by decide) _ _ _)
  isplitl [Hb]; · iexact Hb
  isplitl [Ha0]; · iexact Ha0
  isplitl [Hv3]; · iexact Hv3
  iintro ⟨Hb, Ha0, Hv3⟩
  ihave Hv2' := (Entails.of_eq (show ((TT d).loc main_v2 ↦{fullShare} (fun i => (rfl : main_v1.ty.elt = main_v2.ty.elt) ▸ shapeCast main_v2.ty.shape o' Facts₀.shapeCasts_S23x34x128_S100096 i) : sProp 𝕄)
      = (sLoc d ↦{fullShare} sOf d o') from rfl)) $$ Hv2
  ihave Hv3' := (Entails.of_eq (show ((TT d).loc main_v3 ↦{fullShare} (fun i => (rfl : main_arg0.ty.elt = main_v3.ty.elt) ▸ shapeCast main_v3.ty.shape (m ((TT d).loc main_arg0)) Facts₀.shapeCasts_S4096x50_S204800 i) : sProp 𝕄)
      = (xLoc d ↦{fullShare} xOf m d) from rfl)) $$ Hv3
  -- the gather kernel's call
  ihave Hst := Hback $$ %W' [HO]
  · isplitr
    · ipureintro; intro p hp
      rcases hW' p hp with h | h
      · exact hW p h
      · show (K (F := F)).lev (TT d, p.1) p.2 ≤ 8 * 0
        rw [h]; exact (SparseCore.Cfg.lev_none _ _).le
    · iexact HO
  iapply ((K (F := F)).wp_run (D (F := F)) 𝒱 (EH := EH) (P := P Gd) κ d 0)
  isplitr; · iexact Hctx
  isplitl [Hst]; · iexact Hst
  isplitl [Hv2' Hv3' Hv4]
  · rw [st0_eq]
    iapply (tiles_intro Gd d (sOf d o') (xOf m d) (m ((TT d).loc main_v4)) (hGd d o' hP) (fun j => hxin d _))
    isplitl [Hv2']; · iexact Hv2'
    isplitl [Hv3']; · iexact Hv3'
    iexact Hv4
  iintro ⟨Hst, Hdn⟩
  ihave Hdn' := (Entails.of_eq (dn0_eq Gd d)) $$ Hdn
  ihave Hg := (tiles_elim Gd d) $$ Hdn'
  icases Hg with ⟨%g, %hg, Hv4⟩
  -- the last reshape
  iapply (wp_reshape m d main_v4 main_v5 rfl Facts₀.shapeCasts_S204800_S4096x50x1 ⟨by decide, rfl⟩ ⟨by decide, rfl⟩ (by decide) _ _ _)
  isplitl [Hb]; · iexact Hb
  isplitl [Hv4]; · iexact Hv4
  isplitl [Hv5]; · iexact Hv5
  iintro ⟨Hb, Hv4, Hv5⟩
  imodintro
  isplitl [Hst]; · iexact Hst
  unfold FIN
  isplitl [Ha0]; · iexact Ha0
  isplitl [Ha1]; · iexact Ha1
  isplitl [Ha2]; · iexact Ha2
  isplitl [Ha3]; · iexact Ha3
  iexists g; isplitr; · ipureintro; exact hg
  iexact Hv5

/-! ## The run -/

def fq (d : Dev nD) (s' : Phys nD τ sig (Elt F)) : Prop :=
  s'.mem.mem ((TT d).loc main_arg0) = m ((TT d).loc main_arg0) ∧ s'.mem.mem ((TT d).loc main_arg1) = m ((TT d).loc main_arg1)
  ∧ s'.mem.mem ((TT d).loc main_arg2) = m ((TT d).loc main_arg2) ∧ s'.mem.mem ((TT d).loc main_arg3) = m ((TT d).loc main_arg3)
  ∧ ∃ g : Buf (Elt F) ((TT d).loc main_v4), (∀ j, ∃ sv, Gd sv ∧ SelfDiff sv (g j)) ∧ s'.mem.mem ((TT d).loc main_v5) = rOf d g

theorem hfin (d : Dev nD) (s' : Phys nD τ sig (Elt F)) : iprop(FIN Gd m d ∗ SI s') ⊢ (⌜fq Gd m d s'⌝ : sProp 𝕄) := by
  unfold FIN
  iintro ⟨⟨H0, H1, H2, H3, %g, %hg, H5⟩, HSI⟩
  ihave H := (persistent_entails_right (SI_pointsTo_agree (st := s') (ℓ := (TT d).loc main_arg0) (I := Finset.univ) (q := fullShare) (f := m ((TT d).loc main_arg0)))) $$ [HSI H0]
  · isplitl [HSI] <;> iassumption
  icases H with ⟨%h0, HSI, -⟩
  ihave H := (persistent_entails_right (SI_pointsTo_agree (st := s') (ℓ := (TT d).loc main_arg1) (I := Finset.univ) (q := fullShare) (f := m ((TT d).loc main_arg1)))) $$ [HSI H1]
  · isplitl [HSI] <;> iassumption
  icases H with ⟨%h1, HSI, -⟩
  ihave H := (persistent_entails_right (SI_pointsTo_agree (st := s') (ℓ := (TT d).loc main_arg2) (I := Finset.univ) (q := fullShare) (f := m ((TT d).loc main_arg2)))) $$ [HSI H2]
  · isplitl [HSI] <;> iassumption
  icases H with ⟨%h2, HSI, -⟩
  ihave H := (persistent_entails_right (SI_pointsTo_agree (st := s') (ℓ := (TT d).loc main_arg3) (I := Finset.univ) (q := fullShare) (f := m ((TT d).loc main_arg3)))) $$ [HSI H3]
  · isplitl [HSI] <;> iassumption
  icases H with ⟨%h3, HSI, -⟩
  ihave H := (SI_pointsTo_agree (st := s') (ℓ := (TT d).loc main_v5) (I := Finset.univ) (q := fullShare) (f := rOf d g)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), g, hg, funext fun i => h5 i (Finset.mem_univ i)⟩

/-- What the run leaves on every device: the four arguments unchanged, and the result the recast of an array each of
    whose entries is the self-difference of an entry of a good projected table. -/
def QC : PUnit × MemSt nD τ sig (Elt F) → Prop := fun r => ∀ c : Dev nD,
  r.2.mem ((TT c).loc main_arg0) = m ((TT c).loc main_arg0) ∧ r.2.mem ((TT c).loc main_arg1) = m ((TT c).loc main_arg1)
  ∧ r.2.mem ((TT c).loc main_arg2) = m ((TT c).loc main_arg2) ∧ r.2.mem ((TT c).loc main_arg3) = m ((TT c).loc main_arg3)
  ∧ ∃ g : Buf (Elt F) ((TT c).loc main_v4), (∀ j, ∃ sv, Gd sv ∧ SelfDiff sv (g j)) ∧ r.2.mem ((TT c).loc main_v5) = rOf c g

set_option backward.isDefEq.respectTransparency.types false in
theorem run_main [∀ e, Nonempty (Elt F e)] (hxin : ∀ d i, (m ((TT d).loc main_arg0) i).toNat < 100000)
    (hGd : ∀ d o', Proj d (m ((TT d).loc main_arg1)) (m ((TT d).loc main_arg2)) (b0Of m d) (m ((TT d).loc main_v1)) o' → Gd (sOf d o')) :
    θ_run (Cert.KernelIdeal.defs (F := F)) (Cert.KernelIdeal.threads (F := F)) ⟨m, fun _ => 0, ρ⟩ (QC Gd m) :=
  SparseCore.Cfg.θ_run_sc (K := K (F := F)) (D := D (F := F)) (𝒱 := 𝒱) (EH := EH) (P := P Gd) facts v₀
    (fun q hq => match q with | 0 => nomatch hq)
    (fun q _ => match q with | 0 => tileObl Gd facts)
    (fun q _ => match q with | 0 => SparseCore.Cfg.VecSplit.of_plain (vecSplit Gd))
    m ρ main (G (F := F)) (FIN Gd m) (u₀ (F := F)) (sep_elim_left.trans (hu₀ Gd)) (hmain Gd m ρ hxin hGd) (fq Gd m) (hfin Gd m) (QC Gd m) (fun _ h => h)

end Cert.Proof.KI

end
-- ==== Proof.CommonKB.lean ====
/-
  The word-level kernel's program as the SparseCore launch theorem sees it: the label signature, the SparseCore
  configuration, the body table, the variants, and the ghost state — the launch handshakes' rounds beside the
  TensorCore pipeline's staging cells' rounds and the counters of the tiles' local copies.
-/
import proofs.«206204_g77489799954452_cont_sun_c4_640_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«206204_g77489799954452_cont_sun_c4_640_31_alg».proof.Proof.Gen.Kernel
import proofs.«206204_g77489799954452_cont_sun_c4_640_31_alg».proof.Proof.Gen.Kernel.Skeleton
import proofs.«206204_g77489799954452_cont_sun_c4_640_31_alg».proof.Proof.Gen.Kernel.Launch
import proofs.«206204_g77489799954452_cont_sun_c4_640_31_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the local copies' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The one admissible table set of the one pipeline (no prefetched tables). -/
abbrev adm : (p : Fin 1) → (pcfgs (F := F) p).Adm := fun p => (cfgs p).toPCfg_adm

end Cert.Proof.KB

end
-- ==== Proof.TileKB.lean ====
/-
  One vector subcore's task of the gather kernel, at a symbolic place: the projected table's first 100000 entries copied
  into the tile's first scratch, the tile's 6400 indices into its second, then 400 trips each loading sixteen indices,
  gathering the sixteen projected entries they name and storing the difference of each with itself into the third scratch,
  and the third scratch copied out to the tile's 6400 entries of the result. What the task leaves in the result's entries
  is, entry by entry, the difference with itself of SOME entry of the projected table among its first 100000.
-/
import proofs.«206204_g77489799954452_cont_sun_c4_640_31_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the scratch -/

abbrev sLoc (d : Dev nD) : Loc nD τ sig := (SparseCore.T d).loc main_v2
abbrev xLoc (d : Dev nD) : Loc nD τ sig := (SparseCore.T d).loc main_v3
abbrev oLoc (d : Dev nD) : Loc nD τ sig := (SparseCore.T d).loc main_v4

local notation "sW" => (Memref.whole Cert.Kernel.main_v2_scv : Memref Cert.Kernel.sig Kind.scVector Space.hbm Cert.Kernel.S100096 EltTy.f32)
local notation "xW" => (Memref.whole Cert.Kernel.main_v3_scv : Memref Cert.Kernel.sig Kind.scVector Space.hbm Cert.Kernel.S204800 EltTy.i32)
local notation "oW" => (Memref.whole Cert.Kernel.main_v4_scv : Memref Cert.Kernel.sig Kind.scVector Space.hbm Cert.Kernel.S204800 EltTy.f32)
local notation "sS" => (Memref.whole Cert.Kernel.cc1_scratch0 : Memref Cert.Kernel.sig Kind.scVector Space.vmem Cert.Kernel.S100000 EltTy.f32)
local notation "sI" => (Memref.whole Cert.Kernel.cc1_scratch1 : Memref Cert.Kernel.sig Kind.scVector Space.vmem Cert.Kernel.S6400 EltTy.i32)
local notation "sO" => (Memref.whole Cert.Kernel.cc1_scratch2 : Memref Cert.Kernel.sig Kind.scVector Space.vmem Cert.Kernel.S6400 EltTy.f32)

variable [FloatOps F]

/-- The place's thread. -/
abbrev cV (L : grid1.Coords) : Fin τ.nSC := (L 0).castLE hcore1
abbrev jV (L : grid1.Coords) : Fin τ.nSub := (L 1).castLE hsub1

/-- The tile's 6400 entries of the index array and of the result, as the kernel slices them. -/
abbrev xChunk (L : grid1.Coords) : Memref sig .scVector .hbm S6400 .i32 :=
  (xW).slice (Rect.unit (s := S204800) (k1_off1 L) S6400.size (k1_off1_inb L)) (fun _ => rfl)
abbrev oChunk (L : grid1.Coords) : Memref sig .scVector .hbm S6400 .f32 :=
  (oW).slice (Rect.unit (s := S204800) (k1_off1 L) S6400.size (k1_off1_inb L)) (fun _ => rfl)
/-- The first 100000 entries of the projected table, as the kernel slices them. -/
abbrev sHead : Memref sig .scVector .hbm S100000 .f32 :=
  (sW).slice (Rect.unit (s := S100096) ![0] S100000.size inb_S100096_S100000_0) (fun _ => rfl)

/-- The index set of the tile's entries (the same in the index array and in the result). -/
abbrev chunkSet (L : grid1.Coords) : Finset S204800.Idx := (xChunk L).view.set

/-- An entry that is the difference with itself of some one of the first 100000 entries of `sv`. -/
def SelfDiff (sv : S100096.Idx → Elt F .f32) (v : Elt F .f32) : Prop :=
  ∃ r : S100096.Idx, (r 0).val < 100000 ∧ v = FloatOps.subf (sv r) (sv r)

/-! ## The tile's own semaphores and scratch, out of what its scope holds -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

section Tile

variable (d : Dev nD) (L : grid1.Coords)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem pts_s (q : PosShare TreeShare) (f : Buf (Elt F) (sLoc d)) :
    ((sW).view.loc (V d (cV L) (jV L)) ↦{q} f : sProp 𝕄) = sLoc d ↦{q} f := by
  simp only [Memref.view_whole, View.set_whole]
omit [FloatOps F] in
theorem pts_x (f : Buf (Elt F) (xLoc d)) :
    ((xChunk L).view.loc (V d (cV L) (jV L)) ↦[(xChunk L).view.set]{fullShare} f : sProp 𝕄) = xLoc d ↦[chunkSet L]{fullShare} f := rfl
omit [FloatOps F] in
theorem pts_o (f : Buf (Elt F) (oLoc d)) :
    ((oChunk L).view.loc (V d (cV L) (jV L)) ↦[(oChunk L).view.set]{fullShare} f : sProp 𝕄) = oLoc d ↦[chunkSet L]{fullShare} f := rfl
omit [FloatOps F] in
theorem pts_sS (f : Buf (Elt F) ((V d (cV L) (jV L)).loc cc1_scratch0)) :
    ((sS).view.loc (V d (cV L) (jV L)) ↦{fullShare} f : sProp 𝕄) = (V d (cV L) (jV L)).loc cc1_scratch0 ↦{fullShare} f := rfl
omit [FloatOps F] in
theorem pts_sI (f : Buf (Elt F) ((V d (cV L) (jV L)).loc cc1_scratch1)) :
    ((sI).view.loc (V d (cV L) (jV L)) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl

/-- What the tile is handed: a read share `q` of the projected table, its entries of the index array, its entries of the result. -/
abbrev tileIn (q : PosShare TreeShare) (sv : Buf (Elt F) (sLoc d)) (xv : Buf (Elt F) (xLoc d)) : sProp 𝕄 :=
  iprop((sLoc d ↦{q} sv) ∗ (xLoc d ↦[chunkSet L]{fullShare} xv) ∗ ∃ f, oLoc d ↦[chunkSet L]{fullShare} f)
/-- What it hands back: the share, the indices, and its entries of the result each a self-difference of a projected entry. -/
abbrev tileOut (q : PosShare TreeShare) (sv : Buf (Elt F) (sLoc d)) (xv : Buf (Elt F) (xLoc d)) : sProp 𝕄 :=
  iprop((sLoc d ↦{q} sv) ∗ (xLoc d ↦[chunkSet L]{fullShare} xv) ∗ ∃ f, ⌜∀ j ∈ chunkSet L, SelfDiff sv (f j)⌝ ∗ oLoc d ↦[chunkSet L]{fullShare} f)

/-- The loop's invariant before trip `k`: the first two scratches as the copies left them, and the third holding a
    self-difference of a projected entry at every position below `16 k`. -/
def inv (sv : Buf (Elt F) (sLoc d)) (FS : Buf (Elt F) ((sS).view.loc (V d (cV L) (jV L)))) (FI : Buf (Elt F) ((sI).view.loc (V d (cV L) (jV L))))
    (k : Nat) (_ : Unit) : sProp 𝕄 :=
  iprop(((sS).view.loc (V d (cV L) (jV L)) ↦{fullShare} FS) ∗ ((sI).view.loc (V d (cV L) (jV L)) ↦{fullShare} FI)
    ∗ ∃ fo : Buf (Elt F) ((sO).view.loc (V d (cV L) (jV L))), ⌜∀ p : S6400.Idx, (p 0).val < 16 * k → SelfDiff sv (fo p)⌝ ∗ (sO).view.loc (V d (cV L) (jV L)) ↦{fullShare} fo)

omit [FloatOps F] in
theorem trips_eq : k1_t1_loop.trips = 400 := by decide

omit [FloatOps F] in
/-- A gathered entry is an entry of the scratch it is gathered from. -/
theorem loadIdx_mem (FS : ((sS).view).ty.Contents (Elt F)) (idxs : Fin S100000.rank → IVec S16 32) (h : ∀ a x, (idxs a x).toNat < S100000.size a) (x : S16.Idx) :
    ∃ r : S100000.Idx, loadIdx (View.read (Elt F) ((sS).access (Rect.whole cc1_scratch0.ty.shape)) FS) idxs h x = FS r := by
  refine ⟨((sS).access (Rect.whole cc1_scratch0.ty.shape)).emb (idxAt idxs h x), ?_⟩
  show View.read (Elt F) ((sS).access (Rect.whole cc1_scratch0.ty.shape)) FS (idxAt idxs h x) = _
  rw [View.read_apply]
  exact cast_eq _ _

/-- One trip's store: the sixteen positions it writes hold self-differences of gathered entries, each gathered entry an
    entry of the first scratch and so of the projected table; the positions below keep theirs. -/
theorem selfDiff_step (sv : S100096.Idx → Elt F .f32) (FS : S100000.Idx → Elt F .f32)
    (hFS : ∀ r, ∃ r' : S100096.Idx, (r' 0).val < 100000 ∧ FS r = sv r')
    (fo : ((sO).view).ty.Contents (Elt F)) (k : Nat) (off : Fin 1 → Nat) (hoff : off = ![16 * k]) (inb : ∀ a, off a + S16.size a ≤ S6400.size a)
    (li : S16.Idx → Elt F .f32) (hli : ∀ x, ∃ r, li x = FS r)
    (hfo : ∀ p : S6400.Idx, (p 0).val < 16 * k → SelfDiff sv (fo p)) :
    ∀ p : S6400.Idx, (p 0).val < 16 * (k + 1) →
      SelfDiff sv (((sO).view).writes (Elt F) fo [⟨Rect.unit (s := S6400) off S16.size inb, k1_pay1 li⟩] p) := by
  intro p hp
  by_cases hmem : p ∈ (Rect.unit (s := S6400) off S16.size inb).set
  · rw [← Rect.map_emb_univ] at hmem
    obtain ⟨x, -, rfl⟩ := Finset.mem_map.mp hmem
    have e := View.read_writes_cons_emb ((sO).view) fo (Rect.unit (s := S6400) off S16.size inb) (k1_pay1 li) [] x
    obtain ⟨r, hr⟩ := hli x
    obtain ⟨r', hlt, hr'⟩ := hFS r
    refine ⟨r', hlt, ?_⟩
    refine Eq.trans (show _ = k1_pay1 li x from e) ?_
    show FloatOps.subf (li x) (li x) = _
    rw [hr, hr']
  · have e := View.read_writes_apply_of_forall_not_mem ((sO).view) fo p [⟨Rect.unit (s := S6400) off S16.size inb, k1_pay1 li⟩]
      (by intro q hq; rw [List.mem_singleton.mp hq]; exact hmem)
    change SelfDiff sv (View.read (Elt F) ((sO).view) (((sO).view).writes (Elt F) fo [⟨Rect.unit (s := S6400) off S16.size inb, k1_pay1 li⟩]) p)
    rw [e]
    refine hfo p ?_
    by_contra hge
    refine hmem (Rect.mem_set_unit.mpr fun a => ?_)
    obtain rfl : a = 0 := Subsingleton.elim _ _
    subst hoff
    show 16 * k ≤ (p 0).val ∧ (p 0).val < 16 * k + 16
    omega

theorem tile_body (hF : (K (F := F)).Facts) (q : PosShare TreeShare) (sv : Buf (Elt F) (sLoc d)) (xv : Buf (Elt F) (xLoc d))
    (hx : ∀ j, (xv j).toNat < 100000)
    (O : CellTallies nD τ sig (HIx 1)) (W : Waits sig (HIx 1)) (hO : ∀ g, O g none = 0) :
    iprop(levAts (K (F := F)).L (K (F := F)).lev ∗ emp ∗ tileIn d L q sv xv
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_logsoftmax L sW (Memref.isWhole_whole _) xW (Memref.isWhole_whole _) oW (Memref.isWhole_whole _)
            sS (Memref.isWhole_whole _) sI (Memref.isWhole_whole _) sO (Memref.isWhole_whole _) cc1_scoped0 cc1_scoped1 cc1_scoped2)
          fun _ => iprop(tileOut d L q sv xv ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_logsoftmax_eq_skeleton]; unfold cc1_gather_logsoftmax_skel
  rw [(K (F := F)).scopedBufs_V hF d (cV L) (jV L), SparseCore.Cfg.scopedSems0_V (Val := Elt F) d (cV L) (jV L), ownSems0_V, ownBufs_V]
  iintro ⟨#Hlv, -, ⟨Hs, Hx, ⟨%fo0, Ho⟩⟩, ⟨⟨%fs0, Hss⟩, ⟨%fi0, Hsi⟩, ⟨%fc0, Hso⟩, Hbufs⟩, ⟨HsemA, HsemB, HsemC, Hsems⟩, HO⟩
  ihave Hmw := ((K (F := F)).mayWaits_none (thr := V d (cV L) (jV L)) hO) $$ Hlv
  ihave Hs' := (Entails.of_eq (pts_s (F := F) d L q sv).symm) $$ Hs
  ihave Hx' := (Entails.of_eq (pts_x (F := F) d L xv).symm) $$ Hx
  ihave Ho' := (Entails.of_eq (pts_o (F := F) d L fo0).symm) $$ Ho
  ihave Hss' := (Entails.of_eq (pts_sS (F := F) d L fs0).symm) $$ Hss
  ihave Hsi' := (Entails.of_eq (pts_sI (F := F) d L fi0).symm) $$ Hsi
  ihave Hso' := (Entails.of_eq (pts_sO (F := F) d L fc0).symm) $$ Hso
  sl_exec
  have hFS : ∀ r : S100000.Idx, ∃ r' : S100096.Idx, (r' 0).val < 100000 ∧
      (View.write (Elt F) (sS).view fs0 (tile_body.sl.dma0 d sv) Finset.univ) r = sv r' := by
    intro r
    refine ⟨(sHead).view.emb r, ?_, ?_⟩
    · have : (r 0).val < 100000 := (r 0).isLt
      show (0 + 1 * (r 0).val) < 100000
      omega
    · change View.write (Elt F) (View.whole cc1_scratch0) fs0 (tile_body.sl.dma0 d sv) Finset.univ r = _
      rw [View.write_whole_univ]
      unfold tile_body.sl.dma0
      exact (View.read_apply _ _).trans (cast_eq _ _)
  have hFI : ∀ p : S6400.Idx, ((View.write (Elt F) (sI).view fi0 (tile_body.sl.dma0_1 d L xv) Finset.univ) p).toNat < 100000 := by
    intro p
    change (View.write (Elt F) (View.whole cc1_scratch1) fi0 (tile_body.sl.dma0_1 d L xv) Finset.univ p).toNat < 100000
    rw [View.write_whole_univ]
    unfold tile_body.sl.dma0_1
    refine (congrArg BitVec.toNat ((View.read_apply _ _).trans (cast_eq _ _))).trans_lt (hx _)
  generalize View.write (Elt F) (sS).view fs0 (tile_body.sl.dma0 d sv) Finset.univ = FS at hFS ⊢
  generalize View.write (Elt F) (sI).view fi0 (tile_body.sl.dma0_1 d L xv) Finset.univ = FI at hFI ⊢
  sl_for (inv d L sv FS FI) $$ [Hss' Hsi' Hso']
  case region =>
    intro k _
    unfold inv
    iintro ⟨Hss, Hsi, %fo, %hfo, Hso⟩
    sl_exec
    have hchk : k1_chk1 (View.readAt (Elt F) (sI).view (Rect.unit (s := S6400) (k1_off2 k) S16.size (k1_off2_inb k)).toLoadRect FI) := by
      intro a x
      obtain rfl : a = 0 := Subsingleton.elim _ _
      show (View.readAt (Elt F) (sI).view (Rect.unit (s := S6400) (k1_off2 k) S16.size (k1_off2_inb k)).toLoadRect FI x).toNat < 100000
      simp only [View.readAt_apply, Memref.view_whole, View.read_whole]
      exact hFI _
    rw [wp_assume_of _ _ _ _ hchk]
    ihave Hss' := (Entails.of_eq (show ((sS).view.loc (V d (cV L) (jV L)) ↦{fullShare} FS : sProp 𝕄)
        = (((sS).access (.whole S100000)).loc (V d (cV L) (jV L)) ↦{fullShare} FS) from rfl)) $$ Hss
    iapply (SparseCore.wp_vectorLoadIdx 𝒱₀ (V d (cV L) (jV L)) none Set.univ (base := (sS)) (S := Finset.univ) (q := fullShare) (Finset.subset_univ _)) $$ Hss'
    iintro Hss'
    sl_exec
    sl_step
    ihave Hss := (Entails.of_eq (show ((sS).view.loc (V d (cV L) (jV L)) ↦{fullShare} FS : sProp 𝕄)
        = (((sS).access (.whole S100000)).loc (V d (cV L) (jV L)) ↦{fullShare} FS) from rfl).symm) $$ Hss'
    isplitl [Hss]; · iexact Hss
    isplitl [Hsi]; · iexact Hsi
    iexists _; isplitr
    swap; · iexact Hso
    ipureintro
    exact selfDiff_step sv FS hFS fo k.val (k1_off3 k) (k1_off3_eq k) (k1_off3_inb k) _
      (fun x => loadIdx_mem FS _ _ x) hfo
  · unfold inv
    isplitl [Hss']; · iexact Hss'
    isplitl [Hsi']; · iexact Hsi'
    iexists fc0; isplitr
    · ipureintro; intro p hp; exact absurd hp (by omega)
    · iexact Hso'
  iintro %_ HI
  unfold inv
  icases HI with ⟨Hss, Hsi, %fo, %hfo, Hso⟩
  sl_exec
  sl_step
  have ht : Scf.trips k1_t1_loop.lb k1_t1_loop.ub k1_t1_loop.st = 400 := trips_eq
  rw [ht] at hfo
  have hfin : ∀ j ∈ chunkSet L, SelfDiff sv (((oChunk L).view.writes (Elt F) fo0 [⟨Rect.whole S6400, tile_body.sl.dma0_2 d L fo⟩]) j) := by
    intro j hj
    obtain ⟨y, -, rfl⟩ := Finset.mem_map.mp hj
    have e1 := View.read_writes_cons_emb (oChunk L).view fo0 (Rect.whole S6400) (tile_body.sl.dma0_2 d L fo) [] y
    rw [Rect.emb_whole_apply] at e1
    have e2 := (View.read_apply (v := (oChunk L).view) ((oChunk L).view.writes (Elt F) fo0 [⟨Rect.whole S6400, tile_body.sl.dma0_2 d L fo⟩]) y).trans (cast_eq _ _)
    change SelfDiff sv ((oChunk L).view.writes (Elt F) fo0 [⟨Rect.whole S6400, tile_body.sl.dma0_2 d L fo⟩] ((oChunk L).view.emb y))
    rw [← e2, e1]
    refine hfo y ?_
    have : (y 0).val < 6400 := (y 0).isLt
    omega
  isplitl [Hs' Hx' Ho']
  · isplitl [Hs']; · iapply (Entails.of_eq (pts_s (F := F) d L q sv)); iexact Hs'
    isplitl [Hx']; · iapply (Entails.of_eq (pts_x (F := F) d L xv)); iexact Hx'
    iexists _; isplitr
    swap; · iapply (Entails.of_eq (pts_o (F := F) d L _)); iexact Ho'
    ipureintro; exact hfin
  isplitl [Hss Hsi Hso Hbufs]
  · isplitl [Hss]; · iexists _; iapply (Entails.of_eq (pts_sS (F := F) d L _)); iexact Hss
    isplitl [Hsi]; · iexists _; iapply (Entails.of_eq (pts_sI (F := F) d L _)); iexact Hsi
    isplitl [Hso]; · iexists _; iapply (Entails.of_eq (pts_sO (F := F) d L _)); iexact Hso
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  · exact .inl hp

end Tile

end Cert.Proof.KB

end
-- ==== Proof.PayKB.lean ====
/-
  What the launch handshakes carry for the gather kernel, and the launch theorem's obligations for it: each tile is
  handed a read share of the projected table (good in the sense `Gd`), its 6400 indices (each below 100000) and its 6400
  entries of the result, and hands them back, the result's entries each the self-difference of a projected entry.
-/
import proofs.«206204_g77489799954452_cont_sun_c4_640_31_alg».proof.Proof.TileKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sW" => (Memref.whole Cert.Kernel.main_v2_scv : Memref Cert.Kernel.sig Kind.scVector Space.hbm Cert.Kernel.S100096 EltTy.f32)
local notation "xW" => (Memref.whole Cert.Kernel.main_v3_scv : Memref Cert.Kernel.sig Kind.scVector Space.hbm Cert.Kernel.S204800 EltTy.i32)
local notation "oW" => (Memref.whole Cert.Kernel.main_v4_scv : Memref Cert.Kernel.sig Kind.scVector Space.hbm Cert.Kernel.S204800 EltTy.f32)
local notation "sS" => (Memref.whole Cert.Kernel.cc1_scratch0 : Memref Cert.Kernel.sig Kind.scVector Space.vmem Cert.Kernel.S100000 EltTy.f32)
local notation "sI" => (Memref.whole Cert.Kernel.cc1_scratch1 : Memref Cert.Kernel.sig Kind.scVector Space.vmem Cert.Kernel.S6400 EltTy.i32)
local notation "sO" => (Memref.whole Cert.Kernel.cc1_scratch2 : Memref Cert.Kernel.sig Kind.scVector Space.vmem Cert.Kernel.S6400 EltTy.f32)

variable [FloatOps F]

/- Which projected tables are good: a predicate the two instances choose (at the word level nothing is asked; at the
   ideal one, that the first 100000 entries are real numbers). -/
variable (Gd : (S100096.Idx → Elt F .f32) → Prop)

/-- The place of SparseCore `c`'s vector subcore `i`. -/
def coordsV (c : Fin 2) (i : Fin 16) : grid1.Coords :=
  fun | 0 => c | 1 => i | ⟨_ + 2, h⟩ => absurd h (Nat.not_lt.2 (Nat.le_add_left _ _))

/-- The read share of the projected table that tile `(c, i)` is handed. -/
abbrev tq (c : Fin 2) (i : Fin 16) : PosShare TreeShare := Transfers.shareTok (Transfers.shareTok fullShare 2 c) 16 i

def tileGo (d : Dev nD) (c : Fin 2) (i : Fin 16) : sProp 𝕄 :=
  iprop(∃ (sv : Buf (Elt F) (sLoc d)) (xv : Buf (Elt F) (xLoc d)), ⌜Gd sv ∧ ∀ j, (xv j).toNat < 100000⌝ ∗ tileIn d (coordsV c i) (tq c i) sv xv)

def tileTd (d : Dev nD) (c : Fin 2) (i : Fin 16) : sProp 𝕄 :=
  iprop((∃ sv : Buf (Elt F) (sLoc d), sLoc d ↦{tq c i} sv) ∗ (∃ xv : Buf (Elt F) (xLoc d), xLoc d ↦[chunkSet (coordsV c i)]{fullShare} xv)
    ∗ ∃ f : Buf (Elt F) (oLoc d), ⌜∀ j ∈ chunkSet (coordsV c i), ∃ sv, Gd sv ∧ SelfDiff sv (f j)⌝ ∗ oLoc d ↦[chunkSet (coordsV c i)]{fullShare} f)

instance tileGo_storable (d : Dev nD) (c : Fin 2) (i : Fin 16) : BI.Storable (upEmb : UEmb _ 𝕄) (tileGo Gd d c i) := by
  unfold tileGo; infer_instance
instance tileTd_storable (d : Dev nD) (c : Fin 2) (i : Fin 16) : BI.Storable (upEmb : UEmb _ 𝕄) (tileTd Gd d c i) := by
  unfold tileTd; infer_instance

def P : (K (F := F)).Pay (nD := nD) (Val := Elt F) (Name := ℕ) (U := UU) where
  st := fun q d c => match q with | 0 => bigSep Finset.univ fun i : Fin 16 => tileGo Gd d (Fin.cast nCore_zero c) i
  dn := fun q d c => match q with | 0 => bigSep Finset.univ fun i : Fin 16 => tileTd Gd d (Fin.cast nCore_zero c) i
  go := fun q d c i => match q with | 0 => tileGo Gd d (Fin.cast nCore_zero c) (Fin.cast nSub_zero i)
  td := fun q d c i => match q with | 0 => tileTd Gd d (Fin.cast nCore_zero c) (Fin.cast nSub_zero i)
  x := fun _ _ => iprop(emp)

instance P_storable : (P (F := F) Gd).IsStorable where
  st q d c := match q with
    | 0 => (inferInstance : BI.Storable (upEmb : UEmb _ 𝕄) (bigSep Finset.univ fun i : Fin 16 => tileGo Gd d (Fin.cast nCore_zero c) i))
  dn q d c := match q with
    | 0 => (inferInstance : BI.Storable (upEmb : UEmb _ 𝕄) (bigSep Finset.univ fun i : Fin 16 => tileTd Gd d (Fin.cast nCore_zero c) i))
  go q d c i := match q with
    | 0 => (inferInstance : BI.Storable (upEmb : UEmb _ 𝕄) (tileGo Gd d (Fin.cast nCore_zero c) (Fin.cast nSub_zero i)))
  td q d c i := match q with
    | 0 => (inferInstance : BI.Storable (upEmb : UEmb _ 𝕄) (tileTd Gd d (Fin.cast nCore_zero c) (Fin.cast nSub_zero i)))

/-! ## The tile's obligation -/

theorem tile_task (hF : (K (F := F)).Facts) (d : Dev nD) (c : Fin 2) (i : Fin 16)
    (O : CellTallies nD τ sig (HIx 1)) (W : Waits sig (HIx 1)) (hO : ∀ g, O g none = 0) :
    iprop(levAts (K (F := F)).L (K (F := F)).lev ∗ emp ∗ tileGo Gd d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc1_gather_logsoftmax (coordsV c i) sW (Memref.isWhole_whole _) xW (Memref.isWhole_whole _) oW (Memref.isWhole_whole _)
            sS (Memref.isWhole_whole _) sI (Memref.isWhole_whole _) sO (Memref.isWhole_whole _) cc1_scoped0 cc1_scoped1 cc1_scoped2)
          fun _ => iprop(tileTd Gd d c i ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  unfold tileGo tileTd
  iintro ⟨#Hlv, -, ⟨%sv, %xv, %hg, Hin⟩, Hsb, Hss, HO⟩
  iapply (wp_mono frame _ _ fun _ => ?_)
  rotate_left
  · iapply (tile_body d (coordsV c i) hF (tq c i) sv xv hg.2 O W hO)
    isplitr; · iexact Hlv
    isplitr; · iempintro
    isplitl [Hin]; · iexact Hin
    isplitl [Hsb]; · iexact Hsb
    isplitl [Hss]; · iexact Hss
    iexact HO
  · iintro ⟨⟨Hs, Hx, %f, %hf, Ho⟩, Hrest⟩
    isplitr [Hrest]
    · isplitl [Hs]; · iexists sv; iexact Hs
      isplitl [Hx]; · iexists xv; iexact Hx
      iexists f; isplitr
      · ipureintro; exact fun j hj => ⟨sv, hg.1, hf j hj⟩
      · iexact Ho
    · iexact Hrest

theorem defs₀_vector (c : Fin τ.nSC) (s : Fin τ.nSub) :
    defs₀ (F := F) (.scVector c s) 1 ()
      = SparseCore.onTile hcore1 hsub1 (fun c s => cc1_gather_logsoftmax (fun | 0 => c | 1 => s | ⟨_ + 2, h⟩ => absurd h (Nat.not_lt.2 (Nat.le_add_left _ _)))
          sW (Memref.isWhole_whole _) xW (Memref.isWhole_whole _) oW (Memref.isWhole_whole _)
          sS (Memref.isWhole_whole _) sI (Memref.isWhole_whole _) sO (Memref.isWhole_whole _) cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P Gd) v₀ 0 := by
  intro d c i O W hO _ _
  simp only [show (P Gd).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task Gd hF d (Fin.cast nCore_zero c) (Fin.cast nSub_zero i) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P Gd) 0 := by
  intro d c
  show (bigSep Finset.univ fun i : Fin 16 => tileGo Gd d (Fin.cast nCore_zero c) i) ⊢ |={Set.univ}=> iprop(
      (bigSep Finset.univ fun i : Fin ((K (F := F)).nSub 0) => tileGo Gd d (Fin.cast nCore_zero c) (Fin.cast nSub_zero i))
      ∗ ((bigSep Finset.univ fun i : Fin ((K (F := F)).nSub 0) => tileTd Gd d (Fin.cast nCore_zero c) (Fin.cast nSub_zero i))
          -∗ bigSep Finset.univ fun i : Fin 16 => tileTd Gd d (Fin.cast nCore_zero c) i))
  rw [bigSep_tasks (F := F) (fun i => tileGo Gd d (Fin.cast nCore_zero c) i), bigSep_tasks (F := F) (fun i => tileTd Gd d (Fin.cast nCore_zero c) i)]
  iintro H; imodintro
  isplitl [H]; · iexact H
  iintro H; iexact H

end Cert.Proof.KB

end
-- ==== Proof.ChunksKB.lean ====
/-
  The thirty-two tiles' entries of the index array and of the result, and their read shares of the projected table.

  Tile (c, i) — SparseCore c of two, vector subcore i of sixteen — owns the 6400 consecutive entries of the flat index
  array and of the flat result that start at 12800·i + 6400·c. As (c, i) runs over the thirty-two tiles these ranges
  are pairwise disjoint and fill 0 … 204799: entry n belongs to the tile with i = n / 12800 and c = (n / 6400) mod 2.
  So a whole array at the full share is the separating product, tile by tile, of its chunks, and chunks handed back —
  each with its own contents, each entry of which is the difference with itself of an entry of a good projected table —
  join into one whole array all of whose entries are such differences. The projected table is only read: its full share
  splits into one read share per tile (what is left over is dropped).
-/
import proofs.«206204_g77489799954452_cont_sun_c4_640_31_alg».proof.Proof.PayKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The chunks partition the flat arrays -/

/-- Tile (c, i)'s entries are those from 12800·i + 6400·c up to 6400 further. -/
theorem mem_chunk (c : Fin 2) (i : Fin 16) (j : S204800.Idx) :
    j ∈ chunkSet (coordsV c i) ↔ 12800 * i.val + 6400 * c.val ≤ (j 0).val ∧ (j 0).val < 12800 * i.val + 6400 * c.val + 6400 := by
  show j ∈ ((View.whole (main_v3_scv : Ref sig .scVector)).slice
    (Rect.unit (s := S204800) (k1_off1 (coordsV c i)) S6400.size (k1_off1_inb (coordsV c i)))).set ↔ _
  rw [View.set_slice_whole, Rect.mem_set_unit]
  have e : k1_off1 (coordsV c i) (0 : Fin 1) = 12800 * i.val + 6400 * c.val := by rw [k1_off1_eq]; rfl
  show (∀ a : Fin 1, k1_off1 (coordsV c i) a ≤ (j a).val ∧ (j a).val < k1_off1 (coordsV c i) a + S6400.size a) ↔ _
  rw [Fin.forall_fin_one, e]
  exact Iff.rfl

/-- The chunk of a tile given as a pair. -/
abbrev chunkOf (ci : Fin 2 × Fin 16) : Finset S204800.Idx := chunkSet (coordsV ci.1 ci.2)

/-- Two different tiles' chunks share no entry. -/
theorem chunks_disjoint : ∀ t ∈ (Finset.univ : Finset (Fin 2 × Fin 16)), ∀ t' ∈ (Finset.univ : Finset (Fin 2 × Fin 16)),
    t ≠ t' → Disjoint (chunkOf t) (chunkOf t') := by
  rintro ⟨c, i⟩ - ⟨c', i'⟩ - hne
  rw [Finset.disjoint_left]
  intro j hj hj'
  have h1 := (mem_chunk c i j).mp hj
  have h2 := (mem_chunk c' i' j).mp hj'
  have hc := c.isLt; have hc' := c'.isLt; have hi := i.isLt; have hi' := i'.isLt
  apply hne
  have : c.val = c'.val ∧ i.val = i'.val := by omega
  exact Prod.ext (Fin.ext this.1) (Fin.ext this.2)

/-- Every entry belongs to some tile's chunk. -/
theorem chunks_cover (j : S204800.Idx) : ∃ t : Fin 2 × Fin 16, j ∈ chunkOf t := by
  have hj : (j 0).val < 204800 := (j 0).isLt
  refine ⟨(⟨(j 0).val / 6400 % 2, by omega⟩, ⟨(j 0).val / 12800, by omega⟩), ?_⟩
  refine (mem_chunk _ _ j).mpr ?_
  show 12800 * ((j 0).val / 12800) + 6400 * ((j 0).val / 6400 % 2) ≤ (j 0).val
    ∧ (j 0).val < 12800 * ((j 0).val / 12800) + 6400 * ((j 0).val / 6400 % 2) + 6400
  omega

/-! ## A whole array is its chunks -/

omit [FloatOps F] in
/-- The index array at the full share is the product of its thirty-two chunks. -/
theorem xPts_chunks (d : Dev nD) (f : Buf (Elt F) (xLoc d)) :
    (xLoc d ↦{fullShare} f : sProp 𝕄)
      = bigSep Finset.univ fun c : Fin 2 => bigSep Finset.univ fun i : Fin 16 => xLoc d ↦[chunkSet (coordsV c i)]{fullShare} f := by
  have e1 : (xLoc d ↦[_]{fullShare} f : sProp 𝕄) = _ :=
    pointsTo_biUnion (ℓ := xLoc d) (Finset.univ : Finset (Fin 2 × Fin 16)) chunkOf chunks_disjoint
  refine Eq.trans (congrArg (fun I => (xLoc d ↦[I]{fullShare} f : sProp 𝕄)) ?_)
    (e1.trans (bigSep_univ_prod (fun t : Fin 2 × Fin 16 => (xLoc d ↦[chunkOf t]{fullShare} f : sProp 𝕄))))
  exact (Finset.eq_univ_iff_forall.mpr fun j =>
    Finset.mem_biUnion.mpr ⟨_, Finset.mem_univ _, (chunks_cover j).choose_spec⟩).symm

omit [FloatOps F] in
/-- The result array at the full share is the product of its thirty-two chunks. -/
theorem oPts_chunks (d : Dev nD) (f : Buf (Elt F) (oLoc d)) :
    (oLoc d ↦{fullShare} f : sProp 𝕄)
      = bigSep Finset.univ fun c : Fin 2 => bigSep Finset.univ fun i : Fin 16 => oLoc d ↦[chunkSet (coordsV c i)]{fullShare} f := by
  have e1 : (oLoc d ↦[_]{fullShare} f : sProp 𝕄) = _ :=
    pointsTo_biUnion (ℓ := oLoc d) (Finset.univ : Finset (Fin 2 × Fin 16)) chunkOf chunks_disjoint
  refine Eq.trans (congrArg (fun I => (oLoc d ↦[I]{fullShare} f : sProp 𝕄)) ?_)
    (e1.trans (bigSep_univ_prod (fun t : Fin 2 × Fin 16 => (oLoc d ↦[chunkOf t]{fullShare} f : sProp 𝕄))))
  exact (Finset.eq_univ_iff_forall.mpr fun j =>
    Finset.mem_biUnion.mpr ⟨_, Finset.mem_univ _, (chunks_cover j).choose_spec⟩).symm

/-! ## One read share of the projected table per tile -/

omit [FloatOps F] in
/-- The projected table at the full share gives every tile its read share. -/
theorem sPts_shares (d : Dev nD) (sv : Buf (Elt F) (sLoc d)) :
    (sLoc d ↦{fullShare} sv : sProp 𝕄)
      ⊢ bigSep Finset.univ fun c : Fin 2 => bigSep Finset.univ fun i : Fin 16 => sLoc d ↦{tq c i} sv := by
  have drop : ∀ A B : sProp 𝕄, iprop(A ∗ B) ⊢ B := fun A B => by iintro ⟨-, H⟩; iexact H
  exact ((Transfers.pointsTo_toks_split fullShare 2).trans (drop _ _)).trans
    (bigSep_mono fun c _ => (Transfers.pointsTo_toks_split (Transfers.shareTok fullShare 2 c) 16).trans (drop _ _))

/-! ## The chunks handed back join into one array -/

/-- Chunks of the result handed back, each with contents of its own whose entries are differences with itself of an
    entry of a good projected table, are one whole result array all of whose entries are such differences. -/
theorem oChunks_join (d : Dev nD) (Gd : (S100096.Idx → Elt F .f32) → Prop) :
    (bigSep Finset.univ fun c : Fin 2 => bigSep Finset.univ fun i : Fin 16 =>
        iprop(∃ f : Buf (Elt F) (oLoc d), ⌜∀ j ∈ chunkSet (coordsV c i), ∃ sv, Gd sv ∧ SelfDiff sv (f j)⌝
          ∗ oLoc d ↦[chunkSet (coordsV c i)]{fullShare} f))
      ⊢ (iprop(∃ g : Buf (Elt F) (oLoc d), ⌜∀ j, ∃ sv, Gd sv ∧ SelfDiff sv (g j)⌝ ∗ oLoc d ↦{fullShare} g) : sProp 𝕄) := by
  have e := bigSep_univ_prod (fun ci : Fin 2 × Fin 16 =>
    (iprop(∃ f : Buf (Elt F) (oLoc d), ⌜∀ j ∈ chunkOf ci, ∃ sv, Gd sv ∧ SelfDiff sv (f j)⌝ ∗ oLoc d ↦[chunkOf ci]{fullShare} f) : sProp 𝕄))
  refine (Entails.of_eq e.symm).trans ?_
  refine (bigSep_exists_pi Finset.univ (fun (ci : Fin 2 × Fin 16) (f : Buf (Elt F) (oLoc d)) =>
    (iprop(⌜∀ j ∈ chunkOf ci, ∃ sv, Gd sv ∧ SelfDiff sv (f j)⌝ ∗ oLoc d ↦[chunkOf ci]{fullShare} f) : sProp 𝕄))).trans ?_
  iintro ⟨%fs, H⟩
  ihave H2 := (bigSep_pure_sep Finset.univ (fun ci : Fin 2 × Fin 16 => ∀ j ∈ chunkOf ci, ∃ sv, Gd sv ∧ SelfDiff sv (fs ci j))
    (fun ci => (oLoc d ↦[chunkOf ci]{fullShare} fs ci : sProp 𝕄))) $$ H
  icases H2 with ⟨%hpure, H3⟩
  ihave H4 := (pointsTo_biUnion_join Finset.univ chunkOf fs (fs (0, 0)) chunks_disjoint) $$ H3
  icases H4 with ⟨%g, %hg, Hg⟩
  iexists g
  isplitr
  · ipureintro
    intro j
    obtain ⟨ci, hci⟩ := chunks_cover j
    rw [hg ci (Finset.mem_univ _) j hci]
    exact hpure ci (Finset.mem_univ _) j hci
  · iapply (Entails.of_eq (congrArg (fun I => (oLoc d ↦[I]{fullShare} g : sProp 𝕄))
      (Finset.eq_univ_iff_forall.mpr fun j => Finset.mem_biUnion.mpr ⟨_, Finset.mem_univ _, (chunks_cover j).choose_spec⟩)))
    iexact Hg

end Cert.Proof.KB

end
-- ==== Proof.TcDatKB.lean ====
/-
  The TensorCore region's proof data, relational: window 0's last block overhangs the table, so the rows of its
  staging buffer past the table's end hold words nothing names, the body computes the result's block from the whole
  buffer, and the result's array is constrained, not named. Each input buffer is left as found; the result's buffer
  is left at the payload of three buffers as the fetches leave them. The body's triple and the body obligation.
-/
import proofs.«206204_g77489799954452_cont_sun_c4_640_31_alg».proof.Proof.CommonKB
import Idealize.ShloMosaic.Lib.Pipeline.FrameBody

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-! ## The arrays at entry, and a buffer after a fetch -/

/-- The four windows' arrays at the contents the region finds. -/
abbrev Arr (c : Dev nD) : Type := (w : Fin cfg0.W) → Buf (Elt F) ((cfg0.win w).arr.view.loc (c.tc : Thread nD τ))

/-- Window `w`'s staging buffer once the fetch at point `t` has landed in it, if it held `d`: the array's block on the
    part the fetch moves, `d` elsewhere. -/
def fet (c : Dev nD) (A : Arr (F := F) c) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (A w))

/-! ## What the body leaves in the result's buffer -/

abbrev r0 : Rect S4352x512 := Rect.unit (s := S4352x512) ![0, 0] S4352x512.size inb_S4352x512_S4352x512_0_0
abbrev r1 : Rect S1x512 := Rect.unit (s := S1x512) ![0, 0] S1x512.size inb_S1x512_S1x512_0_0
abbrev r2 : Rect S1x1 := Rect.unit (s := S1x1) ![0, 0] S1x1.size inb_S1x1_S1x1_0_0
abbrev r3 : Rect S1x34x128 := Rect.unit (s := S1x34x128) ![0, 0, 0] S1x34x128.size inb_S1x34x128_S1x34x128_0_0_0

/-- The result's staging buffer after the body, from the three input buffers: its one store. -/
def out3 (x0 : Vec F S4352x512 .f32) (x1 : Vec F S1x512 .f32) (x2 : Vec F S1x1 .f32) : Vec F S1x34x128 .f32 :=
  View.canon [⟨r3, k0_pay1 (View.ld x0 r0) (View.ld x1 r1) (View.ld x2 r2)⟩]

/-- The store tiles the buffer, so it covers it. -/
theorem cover3 (p0 : Vec F S1x34x128 .f32) (y : S1x34x128.Idx) :
    ∃ pc ∈ ([⟨r3, p0⟩] : List (View.Piece (Elt F) S1x34x128 .f32)), y ∈ pc.1.set :=
  View.cover_of_tiled [⟨r3, p0⟩] S1x34x128.size (by rfl) y

/-! ## The body's triple -/

set_option maxHeartbeats 1000000 in
/-- The body on whole staging memrefs, the inputs' at contents `x0 x1 x2` and the result's at anything, runs to the
    inputs' as they were and the result's at `out3` of them. -/
theorem sound_kernel (c : Dev nD) (E : Set ℕ) (i : grid0.Coords) (arg1 : Memref sig .tc .vmem S4352x512 .f32) (harg1 : arg1.IsWhole)
    (arg2 : Memref sig .tc .vmem S1x512 .f32) (harg2 : arg2.IsWhole) (arg3 : Memref sig .tc .vmem S1x1 .f32) (harg3 : arg3.IsWhole)
    (arg4 : Memref sig .tc .vmem S1x34x128 .f32) (harg4 : arg4.IsWhole)
    (x0 : Vec F S4352x512 .f32) (x1 : Vec F S1x512 .f32) (x2 : Vec F S1x1 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out3 x0 x1 x2)) -∗ Kc ⟨⟩))
      ⊢ wp frame (wpE (defs₀ (F := F)) Variants.none (c.tc : Thread nD τ) none) E (cc0__tc_proj_body i arg1 harg1 arg2 harg2 arg3 harg3 arg4 harg4) Kc := by
  simp only [cc0__tc_proj_body_eq_skeleton]; unfold cc0__tc_proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one pipeline on device `c`'s TensorCore, from the arrays as the region finds them, what the
    TensorCore owes throughout (`O`) and the pairs its waits had recorded (`W`): each input's buffer is left as found;
    the result's is left at `out3` of the three input buffers as their fetches leave them, whatever they held past the
    part a fetch moves; no invariant; full shares. -/
def rdat (c : Dev nD) (A : Arr (F := F) c) (O : CellTallies nD τ sig (HIx 1)) (W : Waits sig (HIx 1)) :
    RDat τ (Elt F) (HIx 1) ℕ UU ℕ cfg0 c where
  A := A
  after w t := match w with
    | ⟨0, _⟩ => fun Y X => X = Y
    | ⟨1, _⟩ => fun Y X => X = Y
    | ⟨2, _⟩ => fun Y X => X = Y
    | ⟨3, _⟩ => fun _ X => ∃ d0 d1 d2, X = out3 (fet c A 0 t d0) (fet c A 1 t d1) (fet c A 2 t d2)
  Φ _ := iprop(emp)
  q _ := fullShare
  owed _ := O
  recorded _ := (↑W : Set (SemLoc sig × HIx 1))

variable (c : Dev nD) (A : Arr (F := F) c) (O : CellTallies nD τ sig (HIx 1)) (W : Waits sig (HIx 1))

theorem after0 (t : Fin cfg0.N) : (rdat c A O W).after 0 t = fun Y X => X = Y := by dsimp only [rdat]
theorem after1 (t : Fin cfg0.N) : (rdat c A O W).after 1 t = fun Y X => X = Y := by dsimp only [rdat]
theorem after2 (t : Fin cfg0.N) : (rdat c A O W).after 2 t = fun Y X => X = Y := by dsimp only [rdat]
theorem after3 (t : Fin cfg0.N) : (rdat c A O W).after 3 t
    = fun _ X => ∃ d0 d1 d2, X = out3 (fet c A 0 t d0) (fet c A 1 t d1) (fet c A 2 t d2) := by dsimp only [rdat] <;> rfl

theorem fetched_eq (w : Fin cfg0.W) (t : Fin cfg0.N) (d) : (rdat c A O W).fetched w t d = fet c A w t d := rfl

/-- What the body finds in each input's buffer: what a fetch at the point leaves there. Window 0 is fetched at every
    point; windows 1 and 2 at the first only, never cut, and left as found since. -/
theorem finds0 (t : Fin cfg0.N) (Y) (h : (rdat c A O W).Finds 0 t Y) : ∃ d, Y = fet c A 0 t d :=
  ((rdat c A O W).finds_of_fetch (fetch0_0 t) Y).mp h
theorem finds1 (t : Fin cfg0.N) (Y) (h : (rdat c A O W).Finds 1 t Y) : ∃ d, Y = fet c A 1 t d :=
  (rdat c A O W).finds_in_eq_fetched 1 rfl (fun _ _ _ => rfl) (fun t Y X h => by rw [after1] at h; exact h) t Y h
theorem finds2 (t : Fin cfg0.N) (Y) (h : (rdat c A O W).Finds 2 t Y) : ∃ d, Y = fet c A 2 t d :=
  (rdat c A O W).finds_in_eq_fetched 2 rfl (fun _ _ _ => rfl) (fun t Y X h => by rw [after2] at h; exact h) t Y h

/-! ## The body obligation -/

/-- The body at any point, on any contents the loop may hand it. -/
theorem sound_body (t : Fin cfg0.N) (Y : (w : Fin cfg0.W) → (cfg0.win w).block.Idx → Elt F (cfg0.win w).elt)
    (hY : ∀ w, (rdat c A O W).Finds w t (Y w)) :
    iprop((rdat c A O W).Φ t.castSucc ∗ (rdat c A O W).owesAt none t.castSucc
        ∗ owns (c.tc : Thread nD τ) (st0_0 t) fullShare (Y 0) ∗ owns (c.tc : Thread nD τ) (st0_1 t) fullShare (Y 1)
        ∗ owns (c.tc : Thread nD τ) (st0_2 t) fullShare (Y 2) ∗ owns (c.tc : Thread nD τ) (st0_3 t) fullShare (Y 3))
      ⊢ wp frame (wpE (defs₀ (F := F)) Variants.none (c.tc : Thread nD τ) none) Set.univ (bodyAt0 t) (fun _ =>
          iprop((rdat c A O W).Φ t.succ ∗ (rdat c A O W).owesAt none t.succ
            ∗ (∃ X, ⌜(rdat c A O W).after 0 t (Y 0) X⌝ ∗ owns (c.tc : Thread nD τ) (st0_0 t) fullShare X)
            ∗ (∃ X, ⌜(rdat c A O W).after 1 t (Y 1) X⌝ ∗ owns (c.tc : Thread nD τ) (st0_1 t) fullShare X)
            ∗ (∃ X, ⌜(rdat c A O W).after 2 t (Y 2) X⌝ ∗ owns (c.tc : Thread nD τ) (st0_2 t) fullShare X)
            ∗ (∃ X, ⌜(rdat c A O W).after 3 t (Y 3) X⌝ ∗ owns (c.tc : Thread nD τ) (st0_3 t) fullShare X))) := by
  obtain ⟨d0, h0⟩ := finds0 c A O W t (Y 0) (hY 0)
  obtain ⟨d1, h1⟩ := finds1 c A O W t (Y 1) (hY 1)
  obtain ⟨d2, h2⟩ := finds2 c A O W t (Y 2) (hY 2)
  unfold bodyAt0
  rw [show (rdat c A O W).Φ t.succ = (rdat c A O W).Φ t.castSucc from rfl,
    show (rdat c A O W).owesAt none t.succ = (rdat c A O W).owesAt none t.castSucc from rfl,
    after0, after1, after2, after3]
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists (out3 (Y 0) (Y 1) (Y 2)); isplitr
  · ipureintro; exact ⟨d0, d1, d2, by rw [h0, h1, h2]⟩
  iexact H3

/-- The library's body obligation, at every point. -/
theorem body_obligation : (rdat c A O W).BodyObligation (defs₀ (F := F)) Variants.none (none : HIx 1) Set.univ := fun t Y hY => by
  rw [bigSep_W0, bigSep_W0]
  exact sound_body c A O W t Y hY

end Cert.Proof.KB

end
-- ==== Proof.TcSegKB.lean ====
/-
  The TensorCore region of @main, entered with the TensorCore owing: the region's record over the relational proof
  data (the windows' arrays at the contents found, the TensorCore's debts carried through, the wait evidence from the
  levels: every debt sits at a call's index, the staging cells' waits at index none) and the region's triple —
  the three input arrays come back as found, the result's at contents the proof data allows.
-/
import proofs.«206204_g77489799954452_cont_sun_c4_640_31_alg».proof.Proof.TcDatKB

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-! ## Small facts -/

theorem bigSep_F0 {M : Type} [URA M] (Φ : Fin 0 → sProp M) : bigSep Finset.univ Φ = (BI.emp : sProp M) :=
  bigSep_univ_eq_bigSepL [] (by decide) (by decide) Φ

/-- The pipeline has no prefetched table. -/
theorem prefHeld_emp (c : Dev nD) (q) (V) :
    (Pipeline.prefHeld (Ix := HIx 1) (Name := ℕ) (U := UU) (Lvl := ℕ) (Val := Elt F) (pcfgs (F := F) 0).pre c q V : sProp 𝕄) = BI.emp :=
  bigSep_F0 _

section Arrays

variable (c : Dev nD) (A : Arr (F := F) c) (O : CellTallies nD τ sig (HIx 1)) (W : Waits sig (HIx 1))

theorem share_full (w : Fin cfg0.W) : (rdat c A O W).share w = fullShare := by
  unfold RDat.share; split <;> rfl

/-- A window's array, on the set and at the share the pipeline holds it, is the buffer behind it whole at the full share. -/
theorem pt_eq (w : Fin cfg0.W) (Fv : Buf (Elt F) ((cfg0.win w).arr.view.loc (c.tc : Thread nD τ))) :
    (((cfg0.win w).arr.view.loc (c.tc : Thread nD τ) ↦[(cfg0.win w).arr.view.set]{(rdat c A O W).share w} Fv) : sProp 𝕄)
      = ((c.tc : Thread nD τ).loc (Pipeline.arrRef spec0 w) ↦{fullShare} Fv) := by
  rw [(arr_whole0 w).set_eq_univ, share_full]

/-- The four arrays at given contents, one by one. -/
theorem arrays_four (Fv : Arr (F := F) c) : ((rdat c A O W).arrays Fv : sProp 𝕄)
    = iprop(((c.tc : Thread nD τ).loc main_arg1 ↦{fullShare} Fv 0) ∗ ((c.tc : Thread nD τ).loc main_arg2 ↦{fullShare} Fv 1)
        ∗ ((c.tc : Thread nD τ).loc main_v0 ↦{fullShare} Fv 2) ∗ ((c.tc : Thread nD τ).loc main_v1 ↦{fullShare} Fv 3)) := by
  unfold RDat.arrays
  rw [bigSep_W0, pt_eq c A O W 0, pt_eq c A O W 1, pt_eq c A O W 2, pt_eq c A O W 3]

/-- The four arrays at contents they may hold after the write-backs below `n`, one by one. -/
theorem arraysAt_four (n : Nat) : ((rdat c A O W).arraysAt n : sProp 𝕄)
    = iprop((∃ Fv, ⌜(rdat c A O W).ArrAt 0 n Fv⌝ ∗ ((c.tc : Thread nD τ).loc main_arg1 ↦{fullShare} Fv))
        ∗ (∃ Fv, ⌜(rdat c A O W).ArrAt 1 n Fv⌝ ∗ ((c.tc : Thread nD τ).loc main_arg2 ↦{fullShare} Fv))
        ∗ (∃ Fv, ⌜(rdat c A O W).ArrAt 2 n Fv⌝ ∗ ((c.tc : Thread nD τ).loc main_v0 ↦{fullShare} Fv))
        ∗ (∃ Fv, ⌜(rdat c A O W).ArrAt 3 n Fv⌝ ∗ ((c.tc : Thread nD τ).loc main_v1 ↦{fullShare} Fv))) := by
  unfold RDat.arraysAt
  refine (bigSep_congr (Ψ := fun w => iprop(∃ Fv, ⌜(rdat c A O W).ArrAt w n Fv⌝
    ∗ ((c.tc : Thread nD τ).loc (Pipeline.arrRef spec0 w) ↦{fullShare} Fv))) fun w _ => ?_).trans (bigSep_W0 _)
  simp only [pt_eq c A O W w]

end Arrays

/-! ## The region's record -/

/-- The arrays' contents on every device from those on the device at hand (the mesh has one). -/
def famA (d : Dev nD) (A' : Arr (F := F) d) (c : Dev nD) : Arr (F := F) c :=
  if h : c = d then h ▸ A' else fun _ => Classical.arbitrary _

theorem famA_self (d : Dev nD) (A' : Arr (F := F) d) : famA d A' d = A' := by
  unfold famA; rw [dif_pos rfl]

/-- The proof data of the program's one pipeline, on every device. -/
abbrev pd (d : Dev nD) (A' : Arr (F := F) d) (O : CellTallies nD τ sig (HIx 1)) (W : Waits sig (HIx 1)) :
    (p : Fin 1) → (c : Dev nD) → RDat τ (Elt F) (HIx 1) ℕ UU ℕ (Pipeline.pin (pcfgs (F := F)) adm p) c :=
  fun _ c => rdat c (famA d A' c) O W

/-- The region: entered from the four arrays at the contents found and the TensorCore's debts, left with the arrays at
    contents the proof data allows and the same debts, the recorded pairs grown by pairs at index none only. -/
def reg (d : Dev nD) (A' : Arr (F := F) d) (O : CellTallies nD τ sig (HIx 1)) (hO : ∀ g, O g none = 0) (W : Waits sig (HIx 1)) :
    Pipeline.RDat.RegionSeg (pcfgs (F := F)) adm (pd d A' O W) (none : HIx 1) defs₀ 𝒱₀ (K (F := F)).L (K (F := F)).lev (0 : Fin 1) where
  win := winFacts0.to₀
  block_pos := block_pos0
  stage_whole := stage_whole0
  K := PEmpty
  osem k := k.elim
  ho := Pipeline.OwnSemFacts.none _
  hbody c := body_obligation c (famA d A' c) O W
  hwaits c := Pipeline.RDat.cellsWaits_intro (Pipeline.pin (pcfgs (F := F)) adm) (pd d A' O W) none 0 c
    fun w s t => (K (F := F)).mayWait_none _ hO
  pre c := iprop((rdat c (famA d A' c) O W).arrays (famA d A' c) ∗ owes (c.tc : Thread nD τ) O W)
  post c := iprop((rdat c (famA d A' c) O W).arraysAt cfg0.N ∗ ∃ W', ⌜∀ p ∈ W', p ∈ W ∨ p.2 = none⌝ ∗ owes (c.tc : Thread nD τ) O W')
  X _ := iprop(emp)
  Y _ := iprop(emp)
  Z _ := iprop(emp)
  hentry c := by
    rw [Pipeline.ownSems0_none, prefHeld_emp]
    iintro ⟨⟨Ha, HO⟩, -, -⟩
    imodintro
    isplitl [Ha]; · iexact Ha
    isplitr; · iempintro
    isplitl [HO]
    · iexists W; isplitr; · ipureintro; exact fun p hp => Or.inl hp
      iexact HO
    isplitr <;> iempintro
  hin c := by
    show _ ⊢ iprop(emp)
    iintro -; iempintro
  hout c := by
    rw [Pipeline.ownSems0_none, scopedRest0_eq]
    iintro -
    isplitr; · iempintro
    isplitr <;> iempintro
  hexit c := by
    iintro ⟨Ha, HO, -, -⟩
    imodintro
    isplitl [Ha]; · iexact Ha
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

theorem reg_pre (d : Dev nD) (A' : Arr (F := F) d) (O : CellTallies nD τ sig (HIx 1)) (hO : ∀ g, O g none = 0) (W : Waits sig (HIx 1)) :
    (reg d A' O hO W).pre d = iprop((rdat d A' O W).arrays A' ∗ owes (d.tc : Thread nD τ) O W) := by
  show iprop((rdat d (famA d A' d) O W).arrays (famA d A' d) ∗ owes (d.tc : Thread nD τ) O W) = _
  rw [famA_self]

theorem reg_post (d : Dev nD) (A' : Arr (F := F) d) (O : CellTallies nD τ sig (HIx 1)) (hO : ∀ g, O g none = 0) (W : Waits sig (HIx 1)) :
    (reg d A' O hO W).post d
      = iprop((rdat d A' O W).arraysAt cfg0.N ∗ ∃ W', ⌜∀ p ∈ W', p ∈ W ∨ p.2 = none⌝ ∗ owes (d.tc : Thread nD τ) O W') := by
  show iprop((rdat d (famA d A' d) O W).arraysAt cfg0.N ∗ ∃ W', ⌜∀ p ∈ W', p ∈ W ∨ p.2 = none⌝ ∗ owes (d.tc : Thread nD τ) O W') = _
  rw [famA_self]

/-! ## The region's triple -/

/-- The four windows' arrays from the contents of the four buffers behind them. -/
def arrOf (d : Dev nD) (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1)) : Arr (F := F) d :=
  fun w' => match w' with
    | ⟨0, _⟩ => tb
    | ⟨1, _⟩ => w
    | ⟨2, _⟩ => b0
    | ⟨3, _⟩ => o

/-- What the region may leave in the result's array, given what it finds in its four arrays: the entry contents
    overwritten, block by block in point order, by the result's staging buffer as the body may leave it. -/
def Proj (d : Dev nD) (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1)) (o' : Buf (Elt F) ((SparseCore.T d : Thread nD τ).loc main_v1)) : Prop :=
  (rdat d (arrOf d tb w b0 o) 0 ∅).ArrAt 3 cfg0.N o'

end Cert.Proof.KB

end
-- ==== Proof.TcRegionKB.lean ====
/-
  The TensorCore region's triple, from the region's record by the library's region rule.
-/
import proofs.«206204_g77489799954452_cont_sun_c4_640_31_alg».proof.Proof.TcSegKB

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

theorem wp_ret_unit (d : Dev nD) (Q : PUnit → sProp 𝕄) :
    Q ⟨⟩ ⊢ wp frame (wpE (D (F := F)) 𝒱 (SparseCore.T d : Thread nD τ) none) Set.univ (.ret ⟨⟩) Q := by
  rw [wp_ret]; iintro H; imodintro; iexact H

set_option maxHeartbeats 1000000 in
set_option backward.isDefEq.respectTransparency.types false in
/-- The region on device `d`'s TensorCore, entered owing `O` (nothing at index none): from the level facts, the region
    boundary, the pipeline's ghost state and tokens, the four arrays at `tb w b0 o` and the debts, the call runs to the
    boundary, the three inputs as found, the result's array at contents `Proj` allows, and the same debts, the recorded
    pairs grown at index none only. -/
theorem tc_region (d : Dev nD) (O : CellTallies nD τ sig (HIx 1)) (hO : ∀ g, O g none = 0) (W : Waits sig (HIx 1))
    (tb : Buf (Elt F) ((SparseCore.T d : Thread nD τ).loc main_arg1)) (w : Buf (Elt F) ((SparseCore.T d : Thread nD τ).loc main_arg2))
    (b0 : Buf (Elt F) ((SparseCore.T d : Thread nD τ).loc main_v0)) (o : Buf (Elt F) ((SparseCore.T d : Thread nD τ).loc main_v1))
    (Φ : PUnit → sProp 𝕄) :
    iprop(levAts (K (F := F)).L (K (F := F)).lev ∗ boundary (SparseCore.T d : Thread nD τ)
        ∗ Pipeline.cellsGhost (Pipeline.pin (pcfgs (F := F)) adm) EP 0 d ∗ Pipeline.toksInit (Pipeline.pin (pcfgs (F := F)) adm) EP 0 d
        ∗ ((SparseCore.T d : Thread nD τ).loc main_arg1 ↦{fullShare} tb) ∗ ((SparseCore.T d : Thread nD τ).loc main_arg2 ↦{fullShare} w)
        ∗ ((SparseCore.T d : Thread nD τ).loc main_v0 ↦{fullShare} b0) ∗ ((SparseCore.T d : Thread nD τ).loc main_v1 ↦{fullShare} o)
        ∗ owes (SparseCore.T d : Thread nD τ) O W
        ∗ (iprop(boundary (SparseCore.T d : Thread nD τ) ∗ ((SparseCore.T d : Thread nD τ).loc main_arg1 ↦{fullShare} tb)
              ∗ ((SparseCore.T d : Thread nD τ).loc main_arg2 ↦{fullShare} w) ∗ ((SparseCore.T d : Thread nD τ).loc main_v0 ↦{fullShare} b0)
              ∗ (∃ o', ⌜Proj d tb w b0 o o'⌝ ∗ ((SparseCore.T d : Thread nD τ).loc main_v1 ↦{fullShare} o'))
              ∗ ∃ W', ⌜∀ p ∈ W', p ∈ W ∨ p.2 = none⌝ ∗ owes (SparseCore.T d : Thread nD τ) O W') -∗ Φ ⟨⟩))
      ⊢ wp frame (wpE (D (F := F)) 𝒱 (SparseCore.T d : Thread nD τ) none) Set.univ (.op (.customCall (Pipeline.entry 0) ()) fun _ => .ret ⟨⟩) Φ := by
  have h := Pipeline.RDat.RegionSeg.wp (pcfgs (F := F)) adm (pd d (arrOf d tb w b0 o) O W) (none : HIx 1) cellOf_inj EP defs₀ 𝒱₀
    (K (F := F)).L (K (F := F)).lev (reg d (arrOf d tb w b0 o) O hO W) d none (by simp) (fun _ => .ret ⟨⟩) Φ
  rw [reg_pre, reg_post, arrays_four, arraysAt_four] at h
  refine .trans ?_ h
  iintro ⟨HL, Hb, Hg, Ht, H1, H2, H3, H4, HO, Hk⟩
  isplitl [Hk]
  · iintro ⟨Hb, ⟨⟨%F0, %h0, H1⟩, ⟨%F1, %h1, H2⟩, ⟨%F2, %h2, H3⟩, ⟨%o', %h3, H4⟩⟩, HW⟩
    have e0 : tb = F0 := by rw [RDat.ArrAt_in _ 0 rfl] at h0; exact h0.symm
    have e1 : w = F1 := by rw [RDat.ArrAt_in _ 1 rfl] at h1; exact h1.symm
    have e2 : b0 = F2 := by rw [RDat.ArrAt_in _ 2 rfl] at h2; exact h2.symm
    subst e0 e1 e2
    have hP : Proj d tb w b0 o o' :=
      (RDat.arrAt_congr (rd := rdat d (arrOf d tb w b0 o) O W) (rd' := rdat d (arrOf d tb w b0 o) 0 ∅) rfl rfl cfg0.N o').mpr h3
    iapply (wp_ret_unit d Φ)
    iapply Hk
    isplitl [Hb]; · iexact Hb
    isplitl [H1]; · iexact H1
    isplitl [H2]; · iexact H2
    isplitl [H3]; · iexact H3
    isplitl [H4]
    · iexists o'; isplitr
      · ipureintro; exact hP
      iexact H4
    iexact HW
  isplitl [Hb]; · iexact Hb
  isplitl [H1 H2 H3 H4 HO]
  · isplitl [H1 H2 H3 H4]
    · isplitl [H1]; · iexact H1
      isplitl [H2]; · iexact H2
      isplitl [H3]; · iexact H3
      iexact H4
    iexact HO
  isplitl [HL]; · iexact HL
  isplitl [Hg]; · iexact Hg
  iexact Ht

end Cert.Proof.KB

end
-- ==== Proof.MainKB.lean ====
/-
  @main of the word-level kernel on the TensorCore, inside the SparseCore launch: the bias reshaped, the projection's pipeline, the two reshapes, the gather kernel's call, the last reshape; and the program's run.
-/
import proofs.«206204_g77489799954452_cont_sun_c4_640_31_alg».proof.Proof.ChunksKB
import proofs.«206204_g77489799954452_cont_sun_c4_640_31_alg».proof.Proof.TcRegionKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (Gd : (S100096.Idx → Elt F .f32) → Prop)
variable (m : (ℓ : Loc nD τ sig) → Buf (Elt F) ℓ) (ρ : Dev nD → PrngReg)

/-! ## The launch element: the handshakes' rounds, the pipeline's staging cells' rounds, no counters -/

def u₀ : UU := (initOf (K (F := F)).hsCells (K (F := F)).hsToks,
  (initOf (Pipeline.cells cfgs Gen.cellOf_inj) (Pipeline.launchToks cfgs Gen.cellOf_inj), 1))

/-- What @main's proof starts from on device `d` besides the launch's deal: the pipeline's cells' ghost state and tokens. -/
def G (d : Dev nD) : sProp 𝕄 :=
  iprop(Pipeline.cellsGhost (Pipeline.pin (pcfgs (F := F)) (adm (F := F))) (EP (F := F)) 0 d ∗ Pipeline.toksInit (Pipeline.pin (pcfgs (F := F)) (adm (F := F))) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P Gd).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells cfgs Gen.cellOf_inj) (Pipeline.launchToks cfgs Gen.cellOf_inj))) : sProp 𝕄)
      = BI.own ((EP (F := F)) (initOf (Pipeline.cells cfgs Gen.cellOf_inj) (Pipeline.launchToks cfgs Gen.cellOf_inj))) from rfl)) $$ HP
  imod (Pipeline.fund_ghost cfgs (EP (F := F)) Gen.cellOf_inj) $$ HP' with ⟨Hg, Ht⟩
  imodintro
  isplitl [HH]; · iexact HH
  isplitl [Hg Ht]
  · unfold G
    rw [bigSep_sep']
    ihave Hg' := (Entails.of_eq (bigSep_congr fun d _ => bigSep_univ_of_subsingleton (Φ := fun p => Pipeline.cellsGhost cfgs (EP (F := F)) p d) (0 : Fin 1))) $$ Hg
    ihave Ht' := (Entails.of_eq (bigSep_congr fun d _ => bigSep_univ_of_subsingleton (Φ := fun p => Pipeline.toksInit cfgs (EP (F := F)) p d) (0 : Fin 1))) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev TT (d : Dev nD) : Thread nD τ := SparseCore.T d

omit [FloatOps F] in
theorem unscopedBufs_eq (d : Dev nD) (W : (b : Ref sig .tc) → Buf (Elt F) ((d.tc : Thread nD τ).loc b)) :
    (unscopedBufs d W : sProp 𝕄) = iprop(((TT d).loc main_arg0 ↦{fullShare} W main_arg0) ∗ ((TT d).loc main_arg1 ↦{fullShare} W main_arg1)
      ∗ ((TT d).loc main_arg2 ↦{fullShare} W main_arg2) ∗ ((TT d).loc main_arg3 ↦{fullShare} W main_arg3) ∗ ((TT d).loc main_v0 ↦{fullShare} W main_v0)
      ∗ ((TT d).loc main_v1 ↦{fullShare} W main_v1) ∗ ((TT d).loc main_v2 ↦{fullShare} W main_v2) ∗ ((TT d).loc main_v3 ↦{fullShare} W main_v3)
      ∗ ((TT d).loc main_v4 ↦{fullShare} W main_v4) ∗ ((TT d).loc main_v5 ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

include m in
/-- A host reshape of `x` into `y`, from the two buffers held whole: `y` ends holding `x`'s contents recast. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ Proc.devRef .tc y)
    (fx : Buf (Elt F) ((TT d).loc x)) (fy : Buf (Elt F) ((TT d).loc y)) (Q : PUnit → sProp 𝕄) :
    iprop(boundary (TT d) ∗ ((TT d).loc x ↦{fullShare} fx) ∗ ((TT d).loc y ↦{fullShare} fy)
        ∗ (iprop(boundary (TT d) ∗ ((TT d).loc x ↦{fullShare} fx) ∗ ((TT d).loc y ↦{fullShare} fun i => he ▸ shapeCast y.ty.shape fx hn i)) -∗ Q ⟨⟩))
      ⊢ wp frame (wpE ((K (F := F)).defs (D (F := F))) 𝒱 (TT d) none) Set.univ
          (hlo rfl (StableHlo.reshape x y he hn hx hy) (fun _ => .ret ⟨⟩)) Q := by
  classical
  let V : Valuation τ sig (Elt F) := Function.update (Function.update (fun b => m (d, b)) (Proc.devRef .tc x) fx) (Proc.devRef .tc y) fy
  have hVx : V (Proc.devRef .tc x) = fx := by
    show Function.update _ _ _ _ = _
    rw [Function.update_of_ne hne, Function.update_self]
  have hVy : V (Proc.devRef .tc y) = fy := Function.update_self _ _ _
  have hne' : (Proc.devRef .tc x : DevRef τ sig) ∉ ({Proc.devRef .tc y} : Finset (DevRef τ sig)) := by simpa using hne
  have hpre : (held (TT d) {Proc.devRef .tc x, Proc.devRef .tc y} V : sProp 𝕄) = iprop(((TT d).loc x ↦{fullShare} fx) ∗ ((TT d).loc y ↦{fullShare} fy)) := by
    unfold held
    rw [SparseCore.bigSep_insert' hne', bigSep_singleton, hVx, hVy]
  have hpost : (held (TT d) {Proc.devRef .tc x, Proc.devRef .tc y} ((StableHlo.reshape x y he hn hx hy : HloOp τ sig (Elt F)).result V) : sProp 𝕄)
      = iprop(((TT d).loc x ↦{fullShare} fx) ∗ ((TT d).loc y ↦{fullShare} fun i => he ▸ shapeCast y.ty.shape fx hn i)) := by
    unfold held
    rw [SparseCore.bigSep_insert' hne', bigSep_singleton,
      (StableHlo.reshape x y he hn hx hy : HloOp τ sig (Elt F)).result_of_not_mem V (b := Proc.devRef .tc x) hne',
      StableHlo.reshape_result x y he hn hx hy V, hVx]
  iintro ⟨Hb, Hx, Hy, Hk⟩
  iapply (wp_hlo_within 𝒱 (TT d) none Set.univ (op := StableHlo.reshape x y he hn hx hy) (S := {Proc.devRef .tc x, Proc.devRef .tc y}) (Finset.Subset.refl _) (V := V)) $$ [Hb Hx Hy]
  · isplitl [Hb]; · iexact Hb
    rw [hpre]
    isplitl [Hx]; · iexact Hx
    iexact Hy
  iintro ⟨Hb, Hheld⟩
  rw [wp_ret]; imodintro
  iapply Hk
  isplitl [Hb]; · iexact Hb
  iapply (Entails.of_eq hpost); iexact Hheld

/-! ## What @main computes along the way -/

abbrev b0Of (d : Dev nD) : Buf (Elt F) ((TT d).loc main_v0) := fun i => shapeCast S1x1 (m ((TT d).loc main_arg3)) Facts₀.shapeCasts_S1_S1x1 i
abbrev sOf (d : Dev nD) (o' : Buf (Elt F) ((TT d).loc main_v1)) : Buf (Elt F) ((TT d).loc main_v2) := fun i => shapeCast S100096 o' Facts₀.shapeCasts_S23x34x128_S100096 i
abbrev xOf (d : Dev nD) : Buf (Elt F) ((TT d).loc main_v3) := fun i => shapeCast S204800 (m ((TT d).loc main_arg0)) Facts₀.shapeCasts_S4096x50_S204800 i
abbrev rOf (d : Dev nD) (g : Buf (Elt F) ((TT d).loc main_v4)) : Buf (Elt F) ((TT d).loc main_v5) := fun i => shapeCast S4096x50x1 g Facts₀.shapeCasts_S204800_S4096x50x1 i

/-- What @main leaves the claim on device `d`: the four arguments at their launch contents and the result the recast of an
    array each of whose entries is the self-difference of an entry of a good projected table. -/
def FIN (d : Dev nD) : sProp 𝕄 :=
  iprop(((TT d).loc main_arg0 ↦{fullShare} m ((TT d).loc main_arg0)) ∗ ((TT d).loc main_arg1 ↦{fullShare} m ((TT d).loc main_arg1))
    ∗ ((TT d).loc main_arg2 ↦{fullShare} m ((TT d).loc main_arg2)) ∗ ((TT d).loc main_arg3 ↦{fullShare} m ((TT d).loc main_arg3))
    ∗ ∃ g : Buf (Elt F) ((TT d).loc main_v4), ⌜∀ j, ∃ sv, Gd sv ∧ SelfDiff sv (g j)⌝ ∗ (TT d).loc main_v5 ↦{fullShare} rOf d g)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The TensorCore's handshake state lends what the core owes and takes it back at any recorded pairs within its bound. -/
theorem tcSt_lend (d : Dev nD) (n : ℕ) :
    ((K (F := F)).tcSt EH d n : sProp 𝕄) ⊢ iprop(∃ W, ⌜(K (F := F)).WBelow (TT d) W (8 * n)⌝ ∗ owes (TT d) ((K (F := F)).Otc d n) W
      ∗ (∀ W', iprop(⌜(K (F := F)).WBelow (TT d) W' (8 * n)⌝ ∗ owes (TT d) ((K (F := F)).Otc d n) W') -∗ (K (F := F)).tcSt EH d n)) := by
  unfold SparseCore.Cfg.tcSt
  iintro ⟨⟨%W, %hW, HO⟩, Hrest⟩
  iexists W; isplitr; · ipureintro; exact hW
  isplitl [HO]; · iexact HO
  iintro %W' ⟨%hW', HO'⟩
  isplitl [HO']
  · iexists W'; isplitr; · ipureintro; exact hW'
    iexact HO'
  · iexact Hrest

/-- The pipeline's region as @main spells it — a call of the entry label lifted to the launch's signature — is the
    certificate's own region, lifted. -/
theorem entry_eq : (SparseCore.liftProg (Q := 1) ((.op (.customCall (Pipeline.entry 0) ()) fun _ => .ret ⟨⟩) : Prog (TpuEff nD τ sig (Elt F) (ΛP (F := F)) .tc) PUnit)
    : Prog (TpuEff nD τ sig (Elt F) (SparseCore.Sig (ΛP (F := F)) 1) .tc) PUnit)
    = Prog.lift (TpuEff.customCall (SparseCore.inner (Pipeline.entry 0)) ()) := rfl

theorem wp_entry (d : Dev nD) (Φ : PUnit → sProp 𝕄) :
    wp frame (wpE (D (F := F)) 𝒱 (TT d) none) Set.univ
        ((.op (.customCall (Pipeline.entry 0) ()) fun _ => .ret ⟨⟩) : Prog (TpuEff nD τ sig (Elt F) (ΛP (F := F)) .tc) PUnit) Φ
      ⊢ wp frame (wpE ((K (F := F)).defs (D (F := F))) 𝒱 (TT d) none) Set.univ
          (Prog.lift (TpuEff.customCall (SparseCore.inner (Pipeline.entry 0)) ())) Φ := by
  rw [← entry_eq]
  exact (K (F := F)).wp_liftProg (D (F := F)) 𝒱 (TT d) Set.univ none _ Φ

/-! ## The tiles' shares of the arrays, out of the arrays whole -/

theorem st0_eq (d : Dev nD) :
    (bigSep Finset.univ fun c : Fin ((K (F := F)).nCore 0) => (P Gd).st 0 d c) = bigSep Finset.univ fun c : Fin 2 => bigSep Finset.univ fun i : Fin 16 => tileGo Gd d c i :=
  bigSep_congr fun c _ => show (bigSep Finset.univ fun i : Fin 16 => tileGo Gd d (Fin.cast nCore_zero c) i) = _ from
    bigSep_congr fun i _ => congrArg (fun c => tileGo Gd d c i) (Fin.ext rfl)
theorem dn0_eq (d : Dev nD) :
    (bigSep Finset.univ fun c : Fin ((K (F := F)).nCore 0) => (P Gd).dn 0 d c) = bigSep Finset.univ fun c : Fin 2 => bigSep Finset.univ fun i : Fin 16 => tileTd Gd d c i :=
  bigSep_congr fun c _ => show (bigSep Finset.univ fun i : Fin 16 => tileTd Gd d (Fin.cast nCore_zero c) i) = _ from
    bigSep_congr fun i _ => congrArg (fun c => tileTd Gd d c i) (Fin.ext rfl)

theorem tiles_intro (d : Dev nD) (sv : Buf (Elt F) (sLoc d)) (xv : Buf (Elt F) (xLoc d)) (fo : Buf (Elt F) (oLoc d))
    (hg : Gd sv) (hx : ∀ j, (xv j).toNat < 100000) :
    iprop((sLoc d ↦{fullShare} sv) ∗ (xLoc d ↦{fullShare} xv) ∗ (oLoc d ↦{fullShare} fo))
      ⊢ (bigSep Finset.univ fun c : Fin 2 => bigSep Finset.univ fun i : Fin 16 => tileGo Gd d c i : sProp 𝕄) := by
  refine BIBase.Entails.trans ?_ (bigSep_mono fun c _ => bigSep_mono fun i _ =>
    (show iprop((sLoc d ↦{tq c i} sv) ∗ (xLoc d ↦[chunkSet (coordsV c i)]{fullShare} xv) ∗ (oLoc d ↦[chunkSet (coordsV c i)]{fullShare} fo)) ⊢ tileGo Gd d c i from by
      unfold tileGo
      iintro ⟨Hs, Hx, Ho⟩
      iexists sv; iexists xv; isplitr; · ipureintro; exact ⟨hg, hx⟩
      isplitl [Hs]; · iexact Hs
      isplitl [Hx]; · iexact Hx
      iexists fo; iexact Ho))
  simp only [bigSep_sep']
  rw [xPts_chunks, oPts_chunks]
  iintro ⟨Hs, Hx, Ho⟩
  isplitl [Hs]; · iapply (sPts_shares d sv); iexact Hs
  isplitl [Hx]; · iexact Hx
  iexact Ho

theorem tiles_elim (d : Dev nD) :
    (bigSep Finset.univ fun c : Fin 2 => bigSep Finset.univ fun i : Fin 16 => tileTd Gd d c i : sProp 𝕄)
      ⊢ iprop(∃ g : Buf (Elt F) (oLoc d), ⌜∀ j, ∃ sv, Gd sv ∧ SelfDiff sv (g j)⌝ ∗ oLoc d ↦{fullShare} g) :=
  (bigSep_mono fun c _ => bigSep_mono fun i _ => (show tileTd Gd d c i ⊢ _ from by unfold tileTd; exact sep_elim_right.trans sep_elim_right)).trans
    (oChunks_join d Gd)

/-! ## @main on the TensorCore -/

set_option backward.isDefEq.respectTransparency.types false in
set_option maxHeartbeats 2000000 in
theorem hmain (hxin : ∀ d i, (m ((TT d).loc main_arg0) i).toNat < 100000)
    (hGd : ∀ d o', Proj d (m ((TT d).loc main_arg1)) (m ((TT d).loc main_arg2)) (b0Of m d) (m ((TT d).loc main_v1)) o' → Gd (sOf d o'))
    (κ : GSem nD τ sig → ℕ) (d : Dev nD) :
    iprop((K (F := F)).ctx EH (P Gd) κ ∗ (K (F := F)).tcSt EH d 0 ∗ (K (F := F)).tcRes m ρ d ∗ G (F := F) d)
      ⊢ wp frame (wpE ((K (F := F)).defs (D (F := F))) 𝒱 (TT d) none) Set.univ (main d)
          fun _ => iprop((K (F := F)).tcSt EH d 1 ∗ FIN Gd m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2, Hv3, Hv4, Hv5⟩, -, -⟩, ⟨Hcg, Htk⟩⟩
  ihave Hlev := (SparseCore.Cfg.ctx_levAts κ) $$ Hctx
  -- the bias, reshaped
  iapply (wp_reshape m d main_arg3 main_v0 rfl Facts₀.shapeCasts_S1_S1x1 ⟨by decide, rfl⟩ ⟨by decide, rfl⟩ (by decide) _ _ _)
  isplitl [Hb]; · iexact Hb
  isplitl [Ha3]; · iexact Ha3
  isplitl [Hv0]; · iexact Hv0
  iintro ⟨Hb, Ha3, Hv0⟩
  ihave Hv0' := (Entails.of_eq (show ((TT d).loc main_v0 ↦{fullShare} (fun i => (rfl : main_arg3.ty.elt = main_v0.ty.elt) ▸ shapeCast main_v0.ty.shape (m ((TT d).loc main_arg3)) Facts₀.shapeCasts_S1_S1x1 i) : sProp 𝕄)
      = ((TT d).loc main_v0 ↦{fullShare} b0Of m d) from rfl)) $$ Hv0
  -- the projection's pipeline
  ihave Hl := (tcSt_lend d 0) $$ Hst
  icases Hl with ⟨%W, %hW, HO, Hback⟩
  iapply (wp_entry d _)
  iapply (tc_region d ((K (F := F)).Otc d 0) (Otc_none d 0) W (m ((TT d).loc main_arg1)) (m ((TT d).loc main_arg2)) (b0Of m d) (m ((TT d).loc main_v1)) _)
  isplitr; · iexact Hlev
  isplitl [Hb]; · iexact Hb
  isplitl [Hcg]; · iexact Hcg
  isplitl [Htk]; · iexact Htk
  isplitl [Ha1]; · iexact Ha1
  isplitl [Ha2]; · iexact Ha2
  isplitl [Hv0']; · iexact Hv0'
  isplitl [Hv1]; · iexact Hv1
  isplitl [HO]; · iexact HO
  iintro ⟨Hb, Ha1, Ha2, Hv0, ⟨%o', %hP, Hv1⟩, %W', %hW', HO⟩
  -- the two reshapes
  iapply (wp_reshape m d main_v1 main_v2 rfl Facts₀.shapeCasts_S23x34x128_S100096 ⟨by decide, rfl⟩ ⟨by decide, rfl⟩ (by decide) _ _ _)
  isplitl [Hb]; · iexact Hb
  isplitl [Hv1]; · iexact Hv1
  isplitl [Hv2]; · iexact Hv2
  iintro ⟨Hb, Hv1, Hv2⟩
  iapply (wp_reshape m d main_arg0 main_v3 rfl Facts₀.shapeCasts_S4096x50_S204800 ⟨by decide, rfl⟩ ⟨by decide, rfl⟩ (by decide) _ _ _)
  isplitl [Hb]; · iexact Hb
  isplitl [Ha0]; · iexact Ha0
  isplitl [Hv3]; · iexact Hv3
  iintro ⟨Hb, Ha0, Hv3⟩
  ihave Hv2' := (Entails.of_eq (show ((TT d).loc main_v2 ↦{fullShare} (fun i => (rfl : main_v1.ty.elt = main_v2.ty.elt) ▸ shapeCast main_v2.ty.shape o' Facts₀.shapeCasts_S23x34x128_S100096 i) : sProp 𝕄)
      = (sLoc d ↦{fullShare} sOf d o') from rfl)) $$ Hv2
  ihave Hv3' := (Entails.of_eq (show ((TT d).loc main_v3 ↦{fullShare} (fun i => (rfl : main_arg0.ty.elt = main_v3.ty.elt) ▸ shapeCast main_v3.ty.shape (m ((TT d).loc main_arg0)) Facts₀.shapeCasts_S4096x50_S204800 i) : sProp 𝕄)
      = (xLoc d ↦{fullShare} xOf m d) from rfl)) $$ Hv3
  -- the gather kernel's call
  ihave Hst := Hback $$ %W' [HO]
  · isplitr
    · ipureintro; intro p hp
      rcases hW' p hp with h | h
      · exact hW p h
      · show (K (F := F)).lev (TT d, p.1) p.2 ≤ 8 * 0
        rw [h]; exact (SparseCore.Cfg.lev_none _ _).le
    · iexact HO
  iapply ((K (F := F)).wp_run (D (F := F)) 𝒱 (EH := EH) (P := P Gd) κ d 0)
  isplitr; · iexact Hctx
  isplitl [Hst]; · iexact Hst
  isplitl [Hv2' Hv3' Hv4]
  · rw [st0_eq]
    iapply (tiles_intro Gd d (sOf d o') (xOf m d) (m ((TT d).loc main_v4)) (hGd d o' hP) (fun j => hxin d _))
    isplitl [Hv2']; · iexact Hv2'
    isplitl [Hv3']; · iexact Hv3'
    iexact Hv4
  iintro ⟨Hst, Hdn⟩
  ihave Hdn' := (Entails.of_eq (dn0_eq Gd d)) $$ Hdn
  ihave Hg := (tiles_elim Gd d) $$ Hdn'
  icases Hg with ⟨%g, %hg, Hv4⟩
  -- the last reshape
  iapply (wp_reshape m d main_v4 main_v5 rfl Facts₀.shapeCasts_S204800_S4096x50x1 ⟨by decide, rfl⟩ ⟨by decide, rfl⟩ (by decide) _ _ _)
  isplitl [Hb]; · iexact Hb
  isplitl [Hv4]; · iexact Hv4
  isplitl [Hv5]; · iexact Hv5
  iintro ⟨Hb, Hv4, Hv5⟩
  imodintro
  isplitl [Hst]; · iexact Hst
  unfold FIN
  isplitl [Ha0]; · iexact Ha0
  isplitl [Ha1]; · iexact Ha1
  isplitl [Ha2]; · iexact Ha2
  isplitl [Ha3]; · iexact Ha3
  iexists g; isplitr; · ipureintro; exact hg
  iexact Hv5

/-! ## The run -/

def fq (d : Dev nD) (s' : Phys nD τ sig (Elt F)) : Prop :=
  s'.mem.mem ((TT d).loc main_arg0) = m ((TT d).loc main_arg0) ∧ s'.mem.mem ((TT d).loc main_arg1) = m ((TT d).loc main_arg1)
  ∧ s'.mem.mem ((TT d).loc main_arg2) = m ((TT d).loc main_arg2) ∧ s'.mem.mem ((TT d).loc main_arg3) = m ((TT d).loc main_arg3)
  ∧ ∃ g : Buf (Elt F) ((TT d).loc main_v4), (∀ j, ∃ sv, Gd sv ∧ SelfDiff sv (g j)) ∧ s'.mem.mem ((TT d).loc main_v5) = rOf d g

theorem hfin (d : Dev nD) (s' : Phys nD τ sig (Elt F)) : iprop(FIN Gd m d ∗ SI s') ⊢ (⌜fq Gd m d s'⌝ : sProp 𝕄) := by
  unfold FIN
  iintro ⟨⟨H0, H1, H2, H3, %g, %hg, H5⟩, HSI⟩
  ihave H := (persistent_entails_right (SI_pointsTo_agree (st := s') (ℓ := (TT d).loc main_arg0) (I := Finset.univ) (q := fullShare) (f := m ((TT d).loc main_arg0)))) $$ [HSI H0]
  · isplitl [HSI] <;> iassumption
  icases H with ⟨%h0, HSI, -⟩
  ihave H := (persistent_entails_right (SI_pointsTo_agree (st := s') (ℓ := (TT d).loc main_arg1) (I := Finset.univ) (q := fullShare) (f := m ((TT d).loc main_arg1)))) $$ [HSI H1]
  · isplitl [HSI] <;> iassumption
  icases H with ⟨%h1, HSI, -⟩
  ihave H := (persistent_entails_right (SI_pointsTo_agree (st := s') (ℓ := (TT d).loc main_arg2) (I := Finset.univ) (q := fullShare) (f := m ((TT d).loc main_arg2)))) $$ [HSI H2]
  · isplitl [HSI] <;> iassumption
  icases H with ⟨%h2, HSI, -⟩
  ihave H := (persistent_entails_right (SI_pointsTo_agree (st := s') (ℓ := (TT d).loc main_arg3) (I := Finset.univ) (q := fullShare) (f := m ((TT d).loc main_arg3)))) $$ [HSI H3]
  · isplitl [HSI] <;> iassumption
  icases H with ⟨%h3, HSI, -⟩
  ihave H := (SI_pointsTo_agree (st := s') (ℓ := (TT d).loc main_v5) (I := Finset.univ) (q := fullShare) (f := rOf d g)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), g, hg, funext fun i => h5 i (Finset.mem_univ i)⟩

/-- What the run leaves on every device: the four arguments unchanged, and the result the recast of an array each of
    whose entries is the self-difference of an entry of a good projected table. -/
def QC : PUnit × MemSt nD τ sig (Elt F) → Prop := fun r => ∀ c : Dev nD,
  r.2.mem ((TT c).loc main_arg0) = m ((TT c).loc main_arg0) ∧ r.2.mem ((TT c).loc main_arg1) = m ((TT c).loc main_arg1)
  ∧ r.2.mem ((TT c).loc main_arg2) = m ((TT c).loc main_arg2) ∧ r.2.mem ((TT c).loc main_arg3) = m ((TT c).loc main_arg3)
  ∧ ∃ g : Buf (Elt F) ((TT c).loc main_v4), (∀ j, ∃ sv, Gd sv ∧ SelfDiff sv (g j)) ∧ r.2.mem ((TT c).loc main_v5) = rOf c g

set_option backward.isDefEq.respectTransparency.types false in
theorem run_main [∀ e, Nonempty (Elt F e)] (hxin : ∀ d i, (m ((TT d).loc main_arg0) i).toNat < 100000)
    (hGd : ∀ d o', Proj d (m ((TT d).loc main_arg1)) (m ((TT d).loc main_arg2)) (b0Of m d) (m ((TT d).loc main_v1)) o' → Gd (sOf d o')) :
    θ_run (Cert.Kernel.defs (F := F)) (Cert.Kernel.threads (F := F)) ⟨m, fun _ => 0, ρ⟩ (QC Gd m) :=
  SparseCore.Cfg.θ_run_sc (K := K (F := F)) (D := D (F := F)) (𝒱 := 𝒱) (EH := EH) (P := P Gd) facts v₀
    (fun q hq => match q with | 0 => nomatch hq)
    (fun q _ => match q with | 0 => tileObl Gd facts)
    (fun q _ => match q with | 0 => SparseCore.Cfg.VecSplit.of_plain (vecSplit Gd))
    m ρ main (G (F := F)) (FIN Gd m) (u₀ (F := F)) (sep_elim_left.trans (hu₀ Gd)) (hmain Gd m ρ hxin hGd) (fq Gd m) (hfin Gd m) (QC Gd m) (fun _ h => h)

end Cert.Proof.KB

end
-- ==== Proof.TcArrKI.lean ====
/-
  What the result's array may hold after the region, block by block: its block at each point is the result's staging
  buffer as one run of the body left it there — the payload of the three input buffers as their fetches left them.
-/
import proofs.«206204_g77489799954452_cont_sun_c4_640_31_alg».proof.Proof.TcSegKI
import Idealize.ShloMosaic.Lib.ValueIdx

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

open Idealize.ShloMosaic.ValueIdx

/-- The grid has 23 points: a point as a block number of the result. -/
def blkNo (t : Fin cfg0.N) : Fin 23 := ⟨t.val, lt_of_lt_of_eq t.isLt N_0⟩
/-- and back. -/
def ptOf (i : Fin 23) : Fin cfg0.N := ⟨i.val, lt_of_lt_of_eq i.isLt N_0.symm⟩
theorem blkNo_ptOf (i : Fin 23) : blkNo (ptOf i) = i := rfl

/-- The result's window is at block `t` at point `t`. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- An index of the result's array is in point `t`'s block iff each coordinate is in the block's range on its axis. -/
theorem mem_blk3 (t : Fin cfg0.N) (i : S23x34x128.Idx) :
    i ∈ ((cfg0.win 3).blk t).view.set ↔ ∀ a : Fin 3, win0_3.index t a * S1x34x128.size a ≤ (i a).val
      ∧ (i a).val < win0_3.index t a * S1x34x128.size a + S1x34x128.size a := by
  show i ∈ ((View.whole main_v1).slice (win0_3.rect t)).set ↔ _
  rw [View.set_slice_whole, Rect.mem_set_unit]
  exact Iff.rfl

/-- Where the block's element `(0, p, q)` sits in the array. -/
theorem emb_blk3 (t : Fin cfg0.N) (p : Fin 34) (q : Fin 128) :
    ((cfg0.win 3).blk t).view.emb (ix3 (0 : Fin 1) p q) = ix3 (blkNo t) p q := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 34 + 1 * p.val = p.val; omega
  | ⟨2, _⟩ => show win0_3.index t (2 : Fin 3) * 128 + 1 * q.val = q.val; omega

variable (c : Dev nD) (A : Arr (F := F) c) (O : CellTallies nD τ sig (HIx 1)) (W : Waits sig (HIx 1))

set_option maxHeartbeats 1000000 in
/-- After the write-backs of the points below `n`, the result's array holds, at each block below `n`, what one run of the
    body left in the staging buffer at that point. -/
theorem arrAt_blocks (n : Nat) : n ≤ cfg0.N → ∀ Fv, (rdat c A O W).ArrAt 3 n Fv → ∀ t : Fin cfg0.N, t.val < n →
    ∃ d0 d1 d2, ∀ (p : Fin 34) (q : Fin 128),
      Fv (ix3 (blkNo t) p q) = out3 (fet c A 0 t d0) (fet c A 1 t d1) (fet c A 2 t d2) (ix3 (0 : Fin 1) p q) := by
  induction n with
  | zero => intro _ _ _ t ht; exact absurd ht (Nat.not_lt_zero _)
  | succ n ih =>
    intro hn Fv hF t ht
    have h : n < cfg0.N := hn
    simp only [RDat.ArrAt] at hF
    rw [dif_pos h, if_pos (flush0_3 ⟨n, h⟩)] at hF
    obtain ⟨G₀, X, hG, hX, rfl⟩ := hF
    by_cases e : t.val = n
    · obtain rfl : t = ⟨n, h⟩ := Fin.ext e
      obtain ⟨Y, -, hYX⟩ := hX
      rw [after3] at hYX
      obtain ⟨d0, d1, d2, rfl⟩ := hYX
      refine ⟨d0, d1, d2, fun p q => ?_⟩
      rw [← emb_blk3 ⟨n, h⟩ p q, View.write_emb_of_mem _ _ (Finset.mem_univ _)]
      rfl
    · have hlt : t.val < n := by omega
      obtain ⟨d0, d1, d2, hd⟩ := ih (le_of_lt h) G₀ hG t hlt
      refine ⟨d0, d1, d2, fun p q => ?_⟩
      have hnm : (ix3 (blkNo t) p q : S23x34x128.Idx) ∉ ((cfg0.win 3).blk ⟨n, h⟩).view.setOn Finset.univ := by
        rw [View.setOn_univ, mem_blk3]
        intro hm
        obtain ⟨e0, -, -⟩ := idx3 ⟨n, h⟩
        have h0' : win0_3.index ⟨n, h⟩ (0 : Fin 3) * 1 ≤ t.val ∧ t.val < win0_3.index ⟨n, h⟩ (0 : Fin 3) * 1 + 1 := hm 0
        rw [e0] at h0'
        have hn' : (⟨n, h⟩ : Fin cfg0.N).val = n := rfl
        omega
      exact (View.write_of_not_mem _ _ _ hnm).trans (hd p q)

end Cert.Proof.KI

end
-- ==== Proof.LibExtReal.lean ====
/-
  Extended-real facts for attention-style kernels, free of any program.

  * A calculus of "this extended real is a real number", closed under sums, products, maxima and finite sums.
  * A column softmax: entries that are real or minus infinity, at least one real. The column maximum is then real,
    every shifted exponential is a nonnegative real, their sum is a positive real, and each weight
    exp (z i - M) / (0 + sum_j exp (z j - M)) is a NONNEGATIVE REAL.
  * A nonnegative real weight moves across a finite sum of arbitrary extended reals:
    d * (sum_i a i) = sum_i (a i * d). (For an infinite or negative-infinite d this fails; that is why the weight's
    finiteness is needed before a per-node weight can be factored out of a sum over that node's edges.)
-/
import Idealize.ShloMosaic.PureOps.Ideal
import Mathlib.Data.Finset.Fold

namespace Cert.LibExtReal

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊤) (h2 : x ≠ ⊥) : IsReal x :=
  ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A shifted exponential exp (z - M), for a real shift M and an entry z that is real or minus infinity, is a
    nonnegative real, positive when z is real. -/
theorem exp_sub_real {z M : EReal} (hM : IsReal M) (hz : z = ⊥ ∨ IsReal z) :
    ∃ e : ℝ, 0 ≤ e ∧ Ideal.exp (z - M) = (e : EReal) ∧ (IsReal z → 0 < e) := by
  obtain ⟨b, rfl⟩ := hM
  rcases hz with rfl | ⟨a, rfl⟩
  · refine ⟨0, le_rfl, ?_, fun h => absurd rfl h.ne_bot⟩
    rw [EReal.bot_sub]; simp
  · refine ⟨Real.exp (a - b), (Real.exp_pos _).le, ?_, fun _ => Real.exp_pos _⟩
    rw [← EReal.coe_sub]; rfl

/-- THE SOFTMAX WEIGHT IS A NONNEGATIVE REAL: for a real shift M, entries real or minus infinity and one real entry,
    exp (z i - M) / (0 + sum_j exp (z j - M)) is a nonnegative real number. -/
theorem softmax_weight {ι : Type*} [Fintype ι] (z : ι → EReal) (M : EReal) (hM : IsReal M)
    (hz : ∀ i, z i = ⊥ ∨ IsReal (z i)) (i0 : ι) (h0 : IsReal (z i0)) (i : ι) :
    ∃ d : ℝ, 0 ≤ d ∧ Ideal.div (Ideal.exp (z i - M)) (0 + ∑ j, Ideal.exp (z j - M)) = (d : EReal) := by
  choose e he0 hee hpos using fun j => exp_sub_real hM (hz j)
  have hS : (0 : EReal) + ∑ j, Ideal.exp (z j - M) = ((∑ j, e j : ℝ) : EReal) := by
    rw [zero_add, coe_sum]; exact Finset.sum_congr rfl fun j _ => hee j
  have hpos' : 0 < ∑ j, e j :=
    lt_of_lt_of_le (hpos i0 h0) (Finset.single_le_sum (fun j _ => he0 j) (Finset.mem_univ i0))
  refine ⟨e i * (1 / ∑ j, e j), mul_nonneg (he0 i) (one_div_pos.mpr hpos').le, ?_⟩
  rw [hS, Ideal.div_coe hpos'.ne', hee i, ← EReal.coe_mul]

/-- The column maximum, taken as a fold of max from minus infinity and then once more against minus infinity, of
    entries real or minus infinity with one real entry, is a real number. -/
theorem colmax_isReal {ι : Type*} (s : Finset ι) (z : ι → EReal) (hz : ∀ i ∈ s, z i = ⊥ ∨ IsReal (z i))
    (i0 : ι) (hi0 : i0 ∈ s) (h0 : IsReal (z i0)) : IsReal (max ⊥ (s.fold max ⊥ z)) := by
  rw [max_eq_right bot_le]
  refine isReal_of_ne ?_ ?_
  · refine ((Finset.fold_max_lt ⊤).mpr ⟨bot_lt_top, fun i hi => ?_⟩).ne
    rcases hz i hi with h | h
    · rw [h]; exact bot_lt_top
    · exact lt_top_iff_ne_top.mpr h.ne_top
  · have hle : z i0 ≤ s.fold max ⊥ z := (Finset.le_fold_max _).mpr (Or.inr ⟨i0, hi0, le_rfl⟩)
    exact (lt_of_lt_of_le (bot_lt_iff_ne_bot.mpr h0.ne_bot) hle).ne'

/-- A NONNEGATIVE REAL WEIGHT MOVES ACROSS A FINITE SUM of arbitrary extended reals. -/
theorem mul_sum_of_nonneg {ι : Type*} (s : Finset ι) (d : ℝ) (hd : 0 ≤ d) (a : ι → EReal) :
    (d : EReal) * ∑ i ∈ s, a i = ∑ i ∈ s, a i * (d : EReal) := by
  classical
  refine Finset.induction_on s ?_ ?_
  · simp
  · intro j s hj ih
    rw [Finset.sum_insert hj, Finset.sum_insert hj,
      EReal.left_distrib_of_nonneg_of_ne_top (EReal.coe_nonneg.mpr hd) (EReal.coe_ne_top d), ih, mul_comm]

end Cert.LibExtReal
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.TcValueKI.lean ====
/-
  The region's result at the rows inside the table is a real number where the table, the weights and the bias are:
  the result's block at a point is the payload of the three input buffers as the fetches left them; read at (0, p, q)
  the payload is the sum over k of the table buffer's row 128 p + q times the weights' row, plus the bias; a row inside
  the table is one the fetch moved, so its entries are the table's.
-/
import proofs.«206204_g77489799954452_cont_sun_c4_640_31_alg».proof.Proof.TcArrKI
import proofs.«206204_g77489799954452_cont_sun_c4_640_31_alg».proof.Proof.LibExtReal
import proofs.«206204_g77489799954452_cont_sun_c4_640_31_alg».proof.Proof.LibBlockRead
import Idealize.ShloMosaic.Lib.Pipeline.Value
import Idealize.ShloMosaic.Lib.ValueLayout
import Idealize.ShloMosaic.PureOps.Ideal.Laws

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

open Idealize.ShloMosaic.ValueIdx
open Cert.LibExtReal (IsReal)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The result's buffer after the body is the payload of the three input buffers. -/
theorem out3_eq_pay (x0 : Vec F S4352x512 .f32) (x1 : Vec F S1x512 .f32) (x2 : Vec F S1x1 .f32) :
    out3 x0 x1 x2 = k0_pay1 x0 x1 x2 := by
  unfold out3
  rw [View.canon_unit_zero hz3]
  simp only [View.ld_unit_zero (S := S4352x512) hz2, View.ld_unit_zero (S := S1x512) hz2, View.ld_unit_zero (S := S1x1) hz2]

/-- The payload at `(0, p, q)`: the inner product of the table buffer's row `128 p + q` with the weights' row, plus the bias. -/
theorem pay_apply (x0 : Vec Ideal S4352x512 .f32) (x1 : Vec Ideal S1x512 .f32) (x2 : Vec Ideal S1x1 .f32) (p : Fin 34) (q : Fin 128)
    (r : Fin 4352) (hr : r.val = 128 * p.val + q.val) :
    k0_pay1 (F := Ideal) x0 x1 x2 (ix3 (0 : Fin 1) p q)
      = (∑ k : Fin 512, x0 (ix2 r k) * x1 (ix2 (0 : Fin 1) k)) + x2 (ix2 (0 : Fin 1) (0 : Fin 1)) := by
  unfold k0_pay1
  refine (shapeCast_apply _ _ (ix3 (0 : Fin 1) p q) (ix2 p q) ?_).trans ?_
  · rw [Shape.rowMajor_val_two, Shape.rowMajor_val_three]
    show p.val * 128 + q.val = ((0 : Fin 1).val * 34 + p.val) * 128 + q.val
    simp
  show (shapeCast S34x128 _ _ (ix2 p q) : EReal) + broadcastTo S34x128 _ _ (ix2 p q) = _
  congr 1
  · refine (shapeCast_apply _ _ (ix2 p q) (ix1 r) ?_).trans ?_
    · rw [Shape.rowMajor_val_one, Shape.rowMajor_val_two]
      show r.val = p.val * 128 + q.val
      omega
    refine (Cert.Sage.BlockRead.rowSum_apply _ _ _ _ _ r).trans ?_
    refine Finset.sum_congr rfl fun k _ => ?_
    show (x0 (ix2 r k) : EReal) * broadcastTo S4352x512 x1 _ (ix2 r k) = _
    congr 1
    refine broadcastTo_apply x1 _ (ix2 r k) (ix2 (0 : Fin 1) k) fun ax => ?_
    match ax with
    | ⟨0, _⟩ => show (0 : ℕ) = if (1 : ℕ) = 1 then 0 else r.val; rw [if_pos rfl]
    | ⟨1, _⟩ => show k.val = if (512 : ℕ) = 1 then 0 else k.val; rw [if_neg (by decide)]
  · rw [shapeCast_self]
    refine broadcastTo_apply x2 _ (ix2 p q) (ix2 (0 : Fin 1) (0 : Fin 1)) fun ax => ?_
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]

/-- So it is a real number where that row, the weights and the bias are. -/
theorem out3_real (x0 : Vec Ideal S4352x512 .f32) (x1 : Vec Ideal S1x512 .f32) (x2 : Vec Ideal S1x1 .f32) (p : Fin 34) (q : Fin 128)
    (r : Fin 4352) (hr : r.val = 128 * p.val + q.val)
    (h0 : ∀ k : Fin 512, IsReal (x0 (ix2 r k))) (h1 : ∀ k : Fin 512, IsReal (x1 (ix2 (0 : Fin 1) k)))
    (h2 : IsReal (x2 (ix2 (0 : Fin 1) (0 : Fin 1)))) :
    IsReal (out3 (F := Ideal) x0 x1 x2 (ix3 (0 : Fin 1) p q)) := by
  rw [out3_eq_pay, pay_apply x0 x1 x2 p q r hr]
  exact (IsReal.sum _ _ fun k _ => (h0 k).mul (h1 k)).add h2

/-! ## The input buffers after their fetches, at the elements a fetch moves -/

/-- What the fetch of the table's block at point `t` moves: the block's rows inside the table, all lanes. -/
theorem xsize0 : ∀ t : Fin cfg0.N, win0_0.xsize (grid0.coords t) (0 : Fin 2) = min 4352 (100000 - 4352 * t.val)
    ∧ win0_0.xsize (grid0.coords t) (1 : Fin 2) = 512 :=
  (by decide +kernel : ∀ t : Fin grid0.N, _)

section Reads

variable (c : Dev nD) (A : Arr (F := Ideal) c)

/-- A row of the table's buffer that lies inside the table holds the table's entries. -/
theorem fet0_real (hA : ∀ i, IsReal (A 0 i)) (t : Fin cfg0.N) (d) (r : Fin 4352) (k : Fin 512)
    (hr : 4352 * t.val + r.val < 100000) : IsReal (fet (F := Ideal) c A 0 t d (ix2 r k)) := by
  have hm : win0_0.moved (grid0.coords t) (ix2 r k) = true := (win0_0.moved_iff _ _).mpr fun a => by
    obtain ⟨e0, e1⟩ := xsize0 t
    match a with
    | ⟨0, _⟩ => show r.val < win0_0.xsize (grid0.coords t) (0 : Fin 2); rw [e0]; omega
    | ⟨1, _⟩ => show k.val < win0_0.xsize (grid0.coords t) (1 : Fin 2); rw [e1]; exact k.isLt
  have e : fet (F := Ideal) c A 0 t d (ix2 r k)
      = ((cfg0.win 0).blk t).view.read (Elt Ideal) (A 0) (fun a => ⟨((ix2 r k : S4352x512.Idx) a).val, (win0_0.moved_iff _ _).mp hm a⟩) := by
    unfold fet Window.fill; exact dif_pos hm
  rw [e]
  exact hA _

/-- The weights' buffer holds the weights (its window is never cut). -/
theorem fet1_real (hA : ∀ i, IsReal (A 1 i)) (t : Fin cfg0.N) (d) (k : Fin 512) :
    IsReal (fet (F := Ideal) c A 1 t d (ix2 (0 : Fin 1) k)) := by
  have hm : win0_1.moved (grid0.coords t) (ix2 (0 : Fin 1) k) = true :=
    (win0_1.moved_iff _ _).mpr fun a => ((ix2 (0 : Fin 1) k : S1x512.Idx) a).isLt
  have e : fet (F := Ideal) c A 1 t d (ix2 (0 : Fin 1) k)
      = ((cfg0.win 1).blk t).view.read (Elt Ideal) (A 1) (fun a => ⟨((ix2 (0 : Fin 1) k : S1x512.Idx) a).val, (win0_1.moved_iff _ _).mp hm a⟩) := by
    unfold fet Window.fill; exact dif_pos hm
  rw [e]
  exact hA _

/-- The bias's buffer holds the bias. -/
theorem fet2_real (hA : ∀ i, IsReal (A 2 i)) (t : Fin cfg0.N) (d) :
    IsReal (fet (F := Ideal) c A 2 t d (ix2 (0 : Fin 1) (0 : Fin 1))) := by
  have hm : win0_2.moved (grid0.coords t) (ix2 (0 : Fin 1) (0 : Fin 1)) = true :=
    (win0_2.moved_iff _ _).mpr fun a => ((ix2 (0 : Fin 1) (0 : Fin 1) : S1x1.Idx) a).isLt
  have e : fet (F := Ideal) c A 2 t d (ix2 (0 : Fin 1) (0 : Fin 1))
      = ((cfg0.win 2).blk t).view.read (Elt Ideal) (A 2) (fun a => ⟨((ix2 (0 : Fin 1) (0 : Fin 1) : S1x1.Idx) a).val, (win0_2.moved_iff _ _).mp hm a⟩) := by
    unfold fet Window.fill; exact dif_pos hm
  rw [e]
  exact hA _

end Reads

/-! ## The result -/

/-- Whatever the region leaves in the result's array, its entries at rows inside the table are real numbers where the
    table, the weights and the bias are. -/
theorem proj_real (d : Dev nD) (tb : Buf (Elt Ideal) ((SparseCore.T d : Thread nD τ).loc main_arg1))
    (w : Buf (Elt Ideal) ((SparseCore.T d : Thread nD τ).loc main_arg2)) (b0 : Buf (Elt Ideal) ((SparseCore.T d : Thread nD τ).loc main_v0))
    (o o' : Buf (Elt Ideal) ((SparseCore.T d : Thread nD τ).loc main_v1)) (h : Proj (F := Ideal) d tb w b0 o o')
    (htb : ∀ i, ∃ r : ℝ, tb i = (r : EReal)) (hw : ∀ i, ∃ r : ℝ, w i = (r : EReal)) (hb : ∀ i, ∃ r : ℝ, b0 i = (r : EReal)) :
    ∀ (i : Fin 23) (p : Fin 34) (q : Fin 128), 4352 * i.val + 128 * p.val + q.val < 100000 →
      ∃ r : ℝ, o' (ValueIdx.ix3 i p q) = (r : EReal) := by
  intro i p q hlt
  obtain ⟨d0, d1, d2, hd⟩ := arrAt_blocks d (arrOf d tb w b0 o) 0 ∅ cfg0.N le_rfl o' h (ptOf i) (ptOf i).isLt
  have e := hd p q
  rw [blkNo_ptOf] at e
  show IsReal (o' (ix3 i p q))
  rw [e]
  exact out3_real _ _ _ p q ⟨128 * p.val + q.val, by omega⟩ rfl
    (fun k => fet0_real d (arrOf d tb w b0 o) htb (ptOf i) d0 _ k (by show 4352 * i.val + (128 * p.val + q.val) < 100000; omega))
    (fun k => fet1_real d (arrOf d tb w b0 o) hw (ptOf i) d1 k)
    (fet2_real d (arrOf d tb w b0 o) hb (ptOf i) d2)

end Cert.Proof.KI

end
-- ==== Proof.AlgKI.lean ====
/-
  Arithmetic facts of the ideal instance that join the kernel's result to the reference's.

  * The difference with itself of a REAL entry is zero (at an infinity it would be minus infinity): so a result entry that
    is the self-difference of one of the first 100000 projected entries is 0 once those are real numbers.
  * The flat projected table is the [23, 34, 128] array read in row-major order: flat position n is (n / 4352,
    (n mod 4352) / 128, n mod 128), and 4352·i + 128·p + q = n. So the flat table's first 100000 entries are real when
    the [23, 34, 128] entries at positions below 100000 are.
  * Reshaping moves entries without changing them: a reshape of the zero array is the zero array, and a reshape of an
    array of real numbers is one.
-/
import proofs.«206204_g77489799954452_cont_sun_c4_640_31_alg».proof.Proof.TileKI
import Idealize.ShloMosaic.Lib.Pipeline.Value
import Idealize.ShloMosaic.Lib.ValueIdx

namespace Cert.Proof.KI

open Cert.KernelIdeal Cert.KernelIdeal.Gen Idealize.ShloMosaic

/-- The self-difference of a real projected entry is zero. -/
theorem selfDiff_zero (sv : S100096.Idx → Elt Ideal .f32)
    (hsv : ∀ r : S100096.Idx, (r 0).val < 100000 → ∃ x : ℝ, sv r = (x : EReal)) (v : Elt Ideal .f32)
    (h : SelfDiff (F := Ideal) sv v) : v = (0 : EReal) := by
  obtain ⟨r, hr, rfl⟩ := h
  obtain ⟨x, hx⟩ := hsv r hr
  show sv r - sv r = 0
  rw [hx, ← EReal.coe_sub, sub_self, EReal.coe_zero]

/-- The flat projected table's first 100000 entries are real when the [23, 34, 128] array's entries at row-major
    positions below 100000 are. -/
theorem good_of_real (o' : S23x34x128.Idx → Elt Ideal .f32)
    (hreal : ∀ (i : Fin 23) (p : Fin 34) (q : Fin 128), 4352 * i.val + 128 * p.val + q.val < 100000 →
      ∃ r : ℝ, o' (ValueIdx.ix3 i p q) = (r : EReal)) :
    ∀ r : S100096.Idx, (r 0).val < 100000 →
      ∃ x : ℝ, shapeCast S100096 o' Cert.KernelIdeal.Facts₀.shapeCasts_S23x34x128_S100096 r = (x : EReal) := by
  intro r hr
  have hn : (r 0).val < 100096 := (r 0).isLt
  have e := shapeCast_apply o' Cert.KernelIdeal.Facts₀.shapeCasts_S23x34x128_S100096 r
    (ValueIdx.ix3 (⟨(r 0).val / 4352, by omega⟩ : Fin 23) (⟨(r 0).val % 4352 / 128, by omega⟩ : Fin 34)
      (⟨(r 0).val % 128, by omega⟩ : Fin 128)) (by
    rw [Shape.rowMajor_val_three, Shape.rowMajor_val_one]
    show ((r 0).val / 4352 * 34 + (r 0).val % 4352 / 128) * 128 + (r 0).val % 128 = (r 0).val
    omega)
  rw [e]
  refine hreal _ _ _ ?_
  show 4352 * ((r 0).val / 4352) + 128 * ((r 0).val % 4352 / 128) + (r 0).val % 128 < 100000
  omega

/-- A reshape of the zero array is the zero array. -/
theorem rcast_zero (g : S204800.Idx → Elt Ideal .f32) (hg : ∀ j, g j = (0 : EReal)) :
    (fun i => shapeCast S4096x50x1 g Cert.KernelIdeal.Facts₀.shapeCasts_S204800_S4096x50x1 i) = (fun _ => (0 : EReal)) := by
  funext i
  unfold shapeCast
  exact hg _

/-- A reshape of an array of real numbers is an array of real numbers. -/
theorem b0_real (a3 : S1.Idx → Elt Ideal .f32) (h : ∀ i, ∃ r : ℝ, a3 i = (r : EReal)) :
    ∀ i, ∃ r : ℝ, (fun i => shapeCast S1x1 a3 Cert.KernelIdeal.Facts₀.shapeCasts_S1_S1x1 i) i = (r : EReal) := by
  intro i
  show ∃ r : ℝ, shapeCast S1x1 a3 Cert.KernelIdeal.Facts₀.shapeCasts_S1_S1x1 i = (r : EReal)
  unfold shapeCast
  exact h _

end Cert.Proof.KI
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.PreFacts.lean ====
/-
  What the input-domain predicate says of the four arguments.

  The predicate is the conjunction of four bits, each reduced to one word by a total "and": every entry of the table,
  of the weight row and of the bias has absolute value below plus infinity, and every index word lies between 0 and
  99999 as a signed integer. Where the predicate is one, each of the four bits is one, hence every comparison under
  each total "and" is one. For a float entry that makes it a real number (the absolute value of an extended real is
  below plus infinity only at a real number); for an index word it gives the two signed bounds, and a signed word in
  [0, 99999] reads the same unsigned, below 100000.
-/
import proofs.«206204_g77489799954452_cont_sun_c4_640_31_alg».proof.Pre_input_domain
import proofs.«206204_g77489799954452_cont_sun_c4_640_31_alg».proof.Proof.Gen.Pre_input_domain
import proofs.«206204_g77489799954452_cont_sun_c4_640_31_alg».proof.Proof.LibFiniteReal

namespace Cert.Proof.PreFacts

open Idealize.ShloMosaic Cert.Pre_input_domain

/-- Every index word is, read signed, between 0 and 99999; so its unsigned reading is below 100000. -/
theorem idx_lt {F : FTy → Type} [FloatOps F] (x : IVec S4096x50 32) (tb : FVec F S100000x512 .f32)
    (w : FVec F S1x512 .f32) (b : FVec F S1 .f32)
    (h : Cert.Pre_input_domain.fn (F := F) x tb w b = fun _ => 1#1) :
    ∀ i, (x i).toNat < 100000 ∧ 0 ≤ (x i).toInt := by
  have h0 := congrFun h ValueIdx.ix0
  dsimp only [Cert.Pre_input_domain.fn, Cert.Pre_input_domain.fn_part1] at h0
  obtain ⟨-, h19⟩ := Cert.Finite.and_split h0
  intro i
  have hi := Host.reduce_andi_all _ _ _ _ ValueIdx.ix0 h19 i
  obtain ⟨hge, hle⟩ := IntOp.andi_eq_one.1 hi
  have hge' : (0#32 : BitVec 32).toInt ≤ (x i).toInt := IntOp.cmpi_sge.1 hge
  have hle' : (x i).toInt ≤ (99999#32 : BitVec 32).toInt := IntOp.cmpi_sle.1 hle
  rw [show (0#32 : BitVec 32).toInt = 0 from by decide] at hge'
  rw [show (99999#32 : BitVec 32).toInt = 99999 from by decide] at hle'
  refine ⟨?_, hge'⟩
  have hlt := (x i).isLt
  rw [BitVec.toInt_eq_toNat_cond] at hge' hle'
  split at hle' <;> omega

/-- Every entry of the table, of the weight row and of the bias is a real number. -/
theorem real_inputs (x : IVec S4096x50 32) (tb : FVec Ideal S100000x512 .f32) (w : FVec Ideal S1x512 .f32)
    (b : FVec Ideal S1 .f32)
    (h : Cert.Pre_input_domain.fn (F := Ideal) x tb w b = fun _ => 1#1) :
    (∀ i, ∃ r : ℝ, tb i = (r : EReal)) ∧ (∀ i, ∃ r : ℝ, w i = (r : EReal)) ∧ (∀ i, ∃ r : ℝ, b i = (r : EReal)) := by
  have h0 := congrFun h ValueIdx.ix0
  dsimp only [Cert.Pre_input_domain.fn, Cert.Pre_input_domain.fn_part1] at h0
  obtain ⟨h13, -⟩ := Cert.Finite.and_split h0
  obtain ⟨h8, h12⟩ := Cert.Finite.and_split h13
  obtain ⟨h3, h7⟩ := Cert.Finite.and_split h8
  exact ⟨Cert.Finite.real_of_all _ _ _ tb h3, Cert.Finite.real_of_all _ _ _ w h7, Cert.Finite.real_of_all _ _ _ b h12⟩

end Cert.Proof.PreFacts
-- ==== Proof.PreXfer.lean ====
/-
  The precondition moves across agreeing arguments.

  The input-domain predicate is one function of the four argument arrays. If the reference's launch memory holds, in its
  four argument buffers, the same arrays as the kernel's, and the predicate is all ones on the kernel's, it is all ones
  on the reference's.
-/
import proofs.«206204_g77489799954452_cont_sun_c4_640_31_alg».proof.Defs
import proofs.«206204_g77489799954452_cont_sun_c4_640_31_alg».proof.Proof.Gen.Pre_input_domain

namespace Cert.Proof.PreXfer

open Idealize.ShloMosaic Idealize.SL.Sem

theorem pre_ref_of_pre_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Pre_ReferenceIdeal m' := by
  intro c
  obtain ⟨h0, h1, h2, h3⟩ := hagree c
  rw [h0, h1, h2, h3]
  exact h c

end Cert.Proof.PreXfer
-- ==== Proof.RefTerm.lean ====
/-
  What the reference computes, as one function of its four argument arrays.

  The reference gathers rows of the table at the index words (after wrapping negative words and masking the rows whose
  wrapped word falls outside the table), multiplies by the transposed weight row, adds the bias, and applies a
  log-softmax along the last axis. `refTerm` is that composition, operation by operation, for any float values; its
  stages are named so that each can be read at an index by itself.
-/
import proofs.«206204_g77489799954452_cont_sun_c4_640_31_alg».proof.Proof.Gen.ReferenceIdeal

noncomputable section

namespace Cert.Proof.RefOps

open Cert.ReferenceIdeal Cert.ReferenceIdeal.Gen Idealize.ShloMosaic

variable {F : FTy → Type} [FloatOps F]

/-- The index words wrapped: a negative word has 100000 added. -/
def wrapped (x : IVec S4096x50 32) : IVec S4096x50 32 :=
  select (cmpi .slt x (broadcastInDim S4096x50 ![] bcast_S_S4096x50 (constantI S_ 32 0#32)))
    (addi x (broadcastInDim S4096x50 ![] bcast_S_S4096x50 (constantI S_ 32 100000#32))) x

/-- The wrapped words with a trailing axis of extent one: the gather's start indices. -/
def startIdx (x : IVec S4096x50 32) : IVec S4096x50x1 32 :=
  broadcastInDim S4096x50x1 ![0, 1] bcast_S4096x50_S4096x50x1_0_1 (wrapped x)

/-- The bit "the wrapped word is between 0 and 99999", per position. -/
def inRange (x : IVec S4096x50 32) : IVec S4096x50 1 :=
  Host.reduce IntOp.andi
    (andi (cmpi .sge (startIdx x) (broadcastInDim S4096x50x1 ![] bcast_S_S4096x50x1 (constantI S_ 32 0#32)))
      (cmpi .sle (startIdx x)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- The gathered rows: the rows of the table at the wrapped words, and the undefined fill wherever a wrapped word is
    outside 0 … 99999. -/
def taken (x : IVec S4096x50 32) (tb : FVec F S100000x512 .f32) : FVec F S4096x50x512 .f32 :=
  select (broadcastInDim S4096x50x512 ![0, 1] bcast_S4096x50_S4096x50x512_0_1 (inRange x))
    (Host.gather gather_S100000x512_S4096x50x1_S4096x50x512_2_0_n_n_0_2_1512 tb (startIdx x))
    (broadcastInDim S4096x50x512 ![] bcast_S_S4096x50x512 (constant S_ .f32 0x7FC00000#32))

/-- The logits: the gathered rows times the transposed weight row, plus the bias. -/
def logits (x : IVec S4096x50 32) (tb : FVec F S100000x512 .f32) (w : FVec F S1x512 .f32) (b : FVec F S1 .f32) :
    FVec F S4096x50x1 .f32 :=
  addf
    (Host.dotGeneral dot_S4096x50x512_S512x1_S4096x50x1_2_0_01_1_n_n none (taken x tb)
      (transpose S512x1 [1, 0] w transposes_S1x512_S512x1_1_0))
    (broadcastInDim S4096x50x1 ![0, 1, 2] bcast_S1x1x1_S4096x50x1_0_1_2 (broadcastInDim S1x1x1 ![2] bcast_S1_S1x1x1_2 b))

/-- The maximum along the last axis, started from minus infinity and taken once more against minus infinity. -/
def rowMax (l : FVec F S4096x50x1 .f32) : FVec F S4096x50 .f32 :=
  maximumf (broadcastInDim S4096x50 ![] bcast_S_S4096x50 (constant S_ .f32 0xFF800000#32))
    (Host.reduce FloatOps.maximumf l (constant S_ .f32 0xFF800000#32) reducesTo_S4096x50x1_S4096x50_d2 h_S_)

/-- The logits minus their maximum along the last axis. -/
def shifted (l : FVec F S4096x50x1 .f32) : FVec F S4096x50x1 .f32 :=
  subf l (broadcastInDim S4096x50x1 ![0, 1] bcast_S4096x50_S4096x50x1_0_1 (rowMax l))

/-- The log-softmax along the last axis as the reference computes it: the shifted logits minus the logarithm of the sum
    of their exponentials. -/
def logSoftmax (l : FVec F S4096x50x1 .f32) : FVec F S4096x50x1 .f32 :=
  subf (shifted l)
    (Host.log (broadcastInDim S4096x50x1 ![0, 1] bcast_S4096x50_S4096x50x1_0_1
      (Host.reduceAdd (Host.exp (shifted l)) (constant S_ .f32 0x00000000#32) reducesTo_S4096x50x1_S4096x50_d2 h_S_)))

/-- What the reference computes from the four argument arrays. -/
def refTerm (x : IVec S4096x50 32) (tb : FVec F S100000x512 .f32) (w : FVec F S1x512 .f32) (b : FVec F S1 .f32) :
    FVec F S4096x50x1 .f32 :=
  logSoftmax (logits x tb w b)

end Cert.Proof.RefOps

end
-- ==== Proof.RefOps.lean ====
/-
  The reference program as a straight line of host operations, and what its result buffer holds after the line.

  The reference gathers rows of the table at the index words (after wrapping negative words and masking the rows whose
  wrapped word falls outside the table), multiplies by the transposed weight row, adds the bias, and applies a
  log-softmax along the last axis. Its two outlined functions are written out at their call sites, each operation over
  the buffers that call names. After the line, the result buffer holds the composition `refTerm` of those operations
  applied to the four argument arrays, and the argument arrays are as they were.
-/
import proofs.«206204_g77489799954452_cont_sun_c4_640_31_alg».proof.Proof.Gen.ReferenceIdeal
import proofs.«206204_g77489799954452_cont_sun_c4_640_31_alg».proof.Proof.RefTerm
import Idealize.ShloMosaic.Lib.StableHlo.Run

noncomputable section

namespace Cert.Proof.RefOps

open Cert.ReferenceIdeal Cert.ReferenceIdeal.Gen Idealize.ShloMosaic Idealize.ShloMosaic.TcCoe Idealize.SL.Sem
  Idealize.ShloMosaic.StableHlo

variable {F : FTy → Type} [FloatOps F]

/-! ## The operations, in order -/

/-- The reference's forty-one operations: the gather function's twenty-three (the select of its inner function among
    them), the five of the product and the bias, the log-softmax's thirteen. -/
abbrev ops : List (HloOp τ sig (Elt F)) :=
  [ TRef.nullary main_call0.c (constantI S_ 32 0#32),
    TRef.unary main_call0.c main_call0.v0 (broadcastInDim S4096x50 ![] bcast_S_S4096x50),
    TRef.binary (TRef.of main_arg0 : TRef sig ⟨S4096x50, .i32⟩) main_call0.v0 main_call0.v1 (cmpi .slt),
    TRef.nullary main_call0.c_0 (constantI S_ 32 100000#32),
    TRef.unary main_call0.c_0 main_call0.v2 (broadcastInDim S4096x50 ![] bcast_S_S4096x50),
    TRef.binary (TRef.of main_arg0 : TRef sig ⟨S4096x50, .i32⟩) main_call0.v2 main_call0.v3 addi,
    TRef.ternary main_call0.v1 main_call0.v3 (TRef.of main_arg0 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (TRef.of main_arg1 : TRef sig ⟨S100000x512, .f32⟩) main_call0.v5 main_call0.v13 (fun x i => Host.gather gather_S100000x512_S4096x50x1_S4096x50x512_2_0_n_n_0_2_1512 x i),
    TRef.unary main_call0.v12 main_call0.v14 (broadcastInDim S4096x50x512 ![0, 1] bcast_S4096x50_S4096x50x512_0_1),
    TRef.nullary main_call0.cst (constant S_ .f32 0x7FC00000#32),
    TRef.unary main_call0.cst main_call0.v15 (broadcastInDim S4096x50x512 ![] bcast_S_S4096x50x512),
    TRef.ternary main_call0.v14 main_call0.v13 main_call0.v15 main_call0.v16 select,
    unary main_arg2 main_v1 ((transpose S512x1 [1, 0] · transposes_S1x512_S512x1_1_0) : (⟨S1x512, .f32⟩ : BufTy).Contents (Elt F) → (⟨S512x1, .f32⟩ : BufTy).Contents (Elt F)),
    binary main_v0 main_v1 main_v2 ((fun l r => Host.dotGeneral dot_S4096x50x512_S512x1_S4096x50x1_2_0_01_1_n_n none l r) : (⟨S4096x50x512, .f32⟩ : BufTy).Contents (Elt F) → (⟨S512x1, .f32⟩ : BufTy).Contents (Elt F) → (⟨S4096x50x1, .f32⟩ : BufTy).Contents (Elt F)),
    unary main_arg3 main_v3 (broadcastInDim S1x1x1 ![2] bcast_S1_S1x1x1_2 : (⟨S1, .f32⟩ : BufTy).Contents (Elt F) → (⟨S1x1x1, .f32⟩ : BufTy).Contents (Elt F)),
    unary main_v3 main_v4 (broadcastInDim S4096x50x1 ![0, 1, 2] bcast_S1x1x1_S4096x50x1_0_1_2 : (⟨S1x1x1, .f32⟩ : BufTy).Contents (Elt F) → (⟨S4096x50x1, .f32⟩ : BufTy).Contents (Elt F)),
    binary main_v2 main_v4 main_v5 (addf : (⟨S4096x50x1, .f32⟩ : BufTy).Contents (Elt F) → (⟨S4096x50x1, .f32⟩ : BufTy).Contents (Elt F) → (⟨S4096x50x1, .f32⟩ : BufTy).Contents (Elt F)),
    TRef.nullary main_call1.cst (constant S_ .f32 0xFF800000#32),
    TRef.binary (TRef.of main_v5 : TRef sig ⟨S4096x50x1, .f32⟩) main_call1.cst main_call1.v0 (fun x v => Host.reduce FloatOps.maximumf x v reducesTo_S4096x50x1_S4096x50_d2 h_S_),
    TRef.nullary main_call1.cst_0 (constant S_ .f32 0xFF800000#32),
    TRef.unary main_call1.cst_0 main_call1.v1 (broadcastInDim S4096x50 ![] bcast_S_S4096x50),
    TRef.binary main_call1.v1 main_call1.v0 main_call1.v2 maximumf,
    TRef.unary main_call1.v2 main_call1.v3 (broadcastInDim S4096x50x1 ![0, 1] bcast_S4096x50_S4096x50x1_0_1),
    TRef.binary (TRef.of main_v5 : TRef sig ⟨S4096x50x1, .f32⟩) main_call1.v3 main_call1.v4 subf,
    TRef.unary main_call1.v4 main_call1.v5 Host.exp,
    TRef.nullary main_call1.cst_1 (constant S_ .f32 0x00000000#32),
    TRef.binary main_call1.v5 main_call1.cst_1 main_call1.v6 (fun x v => Host.reduceAdd x v reducesTo_S4096x50x1_S4096x50_d2 h_S_),
    TRef.unary main_call1.v6 main_call1.v7 (broadcastInDim S4096x50x1 ![0, 1] bcast_S4096x50_S4096x50x1_0_1),
    TRef.unary main_call1.v7 main_call1.v8 Host.log,
    TRef.binary main_call1.v4 main_call1.v8 main_call1.v9 subf ]

set_option maxRecDepth 4096 in
/-- The program is that straight line: the outlined functions unfolded at their calls, sequencing reassociated. -/
theorem main_eq (c : Dev nD) : main (F := F) c = seq ops := by
  simp only [main, fn_take.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    binary_bufs_sub .., unary_bufs_sub .., nullary_bufs_sub .., binary_bufs_sub .., unary_bufs_sub .., unary_bufs_sub ..,
    binary_bufs_sub ..⟩

/-- Every weakly fair execution of the reference terminates, and each buffer ends at the fold of the operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Contents moved to a buffer's own type and back are the contents. -/
theorem ofBuf_toBuf {T : BufTy} (x : TRef sig T) (v : T.Contents (Elt F)) : x.ofBuf (x.toBuf v) = v := by
  simp only [TRef.ofBuf, TRef.toBuf, cast_cast, cast_eq]

attribute [local irreducible] Host.reduce Host.reduceAdd Host.gather in
set_option maxHeartbeats 400000 in
/-- After the line the result buffer holds the composed term of the four argument arrays: each operation's result
    read at its own buffer, the moves between a value's type and its buffer's type cancelled, what is left is the
    composition by definition. -/
theorem result_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) := by
  after_results_simp
  simp only [ofBuf_toBuf]
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- Every weakly fair execution of the reference terminates with the result buffer at the composed term of the launch
    contents of the four argument buffers, and those four as they were. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (result_eq _), (h c main_arg0).trans (arg0_eq _),
      (h c main_arg1).trans (arg1_eq _), (h c main_arg2).trans (arg2_eq _), (h c main_arg3).trans (arg3_eq _)⟩)
    (run_fold m ρ)

end Cert.Proof.RefOps

end
-- ==== Proof.RefValue.lean ====
/-
  The reference's result is the zero array.

  Under the input-domain precondition every index word lies in 0 … 99999 and every entry of the table, of the weight
  row and of the bias is a real number. Then:

  * no index word is negative, so wrapping leaves it as it is; the range bit of every position is one, so the select
    keeps the gathered row and never the undefined fill; a gathered entry is an entry of the table, hence real;
  * a logit is a finite sum of products of real numbers plus a real number, hence real;
  * the last axis has extent one, so the maximum along it, started from minus infinity, is the logit itself, and so is
    its maximum with minus infinity; a real number minus itself is 0; exp 0 = 1; the sum along the axis, started
    from 0, is 1; log 1 = 0; and 0 - 0 = 0.

  Only the fact that a logit is REAL is used, never its value.
-/
import proofs.«206204_g77489799954452_cont_sun_c4_640_31_alg».proof.Proof.RefTerm
import proofs.«206204_g77489799954452_cont_sun_c4_640_31_alg».proof.Proof.LibExtReal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ReduceAll
import Mathlib.Data.Finset.Fold

namespace Cert.Proof.RefValue

open Cert.ReferenceIdeal Cert.ReferenceIdeal.Gen Idealize.ShloMosaic Idealize.ShloMosaic.ValueIdx Cert.LibExtReal
  Cert.Proof.RefOps

/-! ## Words and extended reals -/

/-- The word `0xFF800000` (sign 1, exponent all ones, fraction 0) denotes minus infinity. -/
theorem neg_inf_word : Ideal.ofBits .f32 0xFF800000#32 = (⊥ : EReal) := by
  simp [Ideal.ofBits, Ideal.ieee]

theorem exp_zero : Ideal.exp 0 = 1 := by
  rw [← EReal.coe_zero, Ideal.exp_coe, Real.exp_zero, EReal.coe_one]

theorem log_one : Ideal.log 1 = 0 := by
  rw [← EReal.coe_one, Ideal.log_coe, if_neg (by norm_num), Real.log_one, EReal.coe_zero]

/-- A real number minus itself is zero (at an infinity the difference is minus infinity instead). -/
theorem sub_self_of_isReal {x : EReal} (h : IsReal x) : x - x = 0 := by
  obtain ⟨r, rfl⟩ := h
  rw [← EReal.coe_sub, sub_self, EReal.coe_zero]

/-- A maximum over an index set of one element, from an initial value. -/
theorem fold_max_one (f : Fin 1 → EReal) (init : EReal) :
    (Finset.univ : Finset (Fin 1)).fold max init f = max (f 0) init := by
  rw [show (Finset.univ : Finset (Fin 1)) = {0} from rfl, Finset.fold_singleton]

/-- A left fold by "and" from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by "and", from 1, of an array of ones is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

/-! ## Layout operations only move entries -/

/-- Every entry of a broadcast is an entry of its operand. -/
theorem bcast_mem {s t : Shape} {α : Type} (dims : Fin s.rank → Fin t.rank) (h : s.BroadcastsInDim t dims)
    (x : s.Idx → α) (j : t.Idx) : ∃ k, broadcastInDim t dims h x j = x k := by
  unfold broadcastInDim; exact ⟨_, rfl⟩

/-- Every entry of a transpose is an entry of its operand. -/
theorem transpose_mem {s t : Shape} {α : Type} (perm : List (Fin s.rank)) (x : s.Idx → α) (h : s.Transposes perm t)
    (j : t.Idx) : ∃ k, transpose t perm x h j = x k := by
  unfold transpose; exact ⟨_, rfl⟩

/-- Every entry of a gather is an entry of its operand (start indices are clamped into the operand). -/
theorem gather_mem {s si t : Shape} {α : Type} {w : Nat} (d : GatherDims s si t) (x : s.Idx → α) (idx : IVec si w)
    (j : t.Idx) : ∃ k, Host.gather d x idx j = x k := by
  unfold Host.gather; exact ⟨_, rfl⟩

/-! ## The gathered rows are real -/

/-- A nonnegative index word is not wrapped. -/
theorem wrapped_eq (x : IVec S4096x50 32) (hx : ∀ i, (x i).toNat < 100000 ∧ 0 ≤ (x i).toInt) (k : S4096x50.Idx) :
    wrapped x k = x k := by
  have h0 : ¬ IntOp.cmpi .slt (x k) (0#32) = 1#1 := fun h => by
    have h1 := IntOp.cmpi_slt.1 h
    rw [show (0#32 : BitVec 32).toInt = 0 from by decide] at h1
    have h2 := (hx k).2
    omega
  show Scalar.select (IntOp.cmpi .slt (x k) (0#32)) _ (x k) = x k
  exact if_neg h0

/-- A word in 0 … 99999, read signed, is at least the word 0 and at most the word 99999. -/
theorem word_bounds (v : BitVec 32) (h : v.toNat < 100000 ∧ 0 ≤ v.toInt) :
    (0#32 : BitVec 32).toInt ≤ v.toInt ∧ v.toInt ≤ (99999#32 : BitVec 32).toInt := by
  rw [show (0#32 : BitVec 32).toInt = 0 from by decide, show (99999#32 : BitVec 32).toInt = 99999 from by decide]
  refine ⟨h.2, ?_⟩
  have h1 := h.1
  rw [BitVec.toInt_eq_toNat_cond]
  split <;> omega

/-- Every range bit is one. -/
theorem inRange_one (x : IVec S4096x50 32) (hx : ∀ i, (x i).toNat < 100000 ∧ 0 ≤ (x i).toInt) (k : S4096x50.Idx) :
    inRange x k = 1#1 := by
  unfold inRange
  refine reduce_andi_one _ _ _ _ (fun i => ?_) (fun _ => rfl) k
  obtain ⟨k', hk'⟩ := bcast_mem _ bcast_S4096x50_S4096x50x1_0_1 (wrapped x) i
  have hb := word_bounds (x k') (hx k')
  show IntOp.andi (IntOp.cmpi .sge (startIdx x i) (0#32)) (IntOp.cmpi .sle (startIdx x i) (99999#32)) = 1#1
  unfold startIdx
  rw [hk', wrapped_eq x hx k']
  exact IntOp.andi_eq_one.2 ⟨IntOp.cmpi_sge.2 hb.1, IntOp.cmpi_sle.2 hb.2⟩

/-- Every gathered entry is an entry of the table, hence real when the table is. -/
theorem taken_real (x : IVec S4096x50 32) (hx : ∀ i, (x i).toNat < 100000 ∧ 0 ≤ (x i).toInt)
    (tb : FVec Ideal S100000x512 .f32) (htb : ∀ i, IsReal (tb i)) (j : S4096x50x512.Idx) :
    IsReal (taken x tb j) := by
  obtain ⟨k, hk⟩ := bcast_mem _ bcast_S4096x50_S4096x50x512_0_1 (inRange x) j
  obtain ⟨k', hk'⟩ := gather_mem gather_S100000x512_S4096x50x1_S4096x50x512_2_0_n_n_0_2_1512 tb (startIdx x) j
  have e : taken x tb j = tb k' := by
    unfold taken
    rw [select_apply, hk, inRange_one x hx k, hk']
    exact if_pos rfl
  rw [e]
  exact htb k'

/-- Every logit is real: a finite sum of products of real numbers, plus a real number. -/
theorem logits_real (x : IVec S4096x50 32) (hx : ∀ i, (x i).toNat < 100000 ∧ 0 ≤ (x i).toInt)
    (tb : FVec Ideal S100000x512 .f32) (w : FVec Ideal S1x512 .f32) (b : FVec Ideal S1 .f32)
    (htb : ∀ i, IsReal (tb i)) (hw : ∀ i, IsReal (w i)) (hb : ∀ i, IsReal (b i)) (i : S4096x50x1.Idx) :
    IsReal (logits x tb w b i) := by
  show IsReal (FloatOps.dotGeneral dot_S4096x50x512_S512x1_S4096x50x1_2_0_01_1_n_n none .single (taken x tb) (transpose S512x1 [1, 0] w transposes_S1x512_S512x1_1_0) i
    + broadcastInDim S4096x50x1 ![0, 1, 2] bcast_S1x1x1_S4096x50x1_0_1_2 (broadcastInDim S1x1x1 ![2] bcast_S1_S1x1x1_2 b) i)
  refine IsReal.add ?_ ?_
  · rw [Ideal.dotGeneral_apply]
    refine IsReal.sum _ _ fun k _ => (taken_real x hx tb htb _).mul ?_
    obtain ⟨k', hk'⟩ := transpose_mem [1, 0] w transposes_S1x512_S512x1_1_0 (dot_S4096x50x512_S512x1_S4096x50x1_2_0_01_1_n_n.rhsIdx i k)
    rw [hk']
    exact hw k'
  · obtain ⟨k, hk⟩ := bcast_mem _ bcast_S1x1x1_S4096x50x1_0_1_2 (broadcastInDim S1x1x1 ![2] bcast_S1_S1x1x1_2 b) i
    obtain ⟨k', hk'⟩ := bcast_mem _ bcast_S1_S1x1x1_2 b k
    rw [hk, hk']
    exact hb k'

/-! ## The log-softmax over an axis of extent one -/

/-- The last axis of a [4096, 50, 1] array reduces away to [4096, 50]. -/
theorem red2 : Shape.Reduces S4096x50x1 [2] S4096x50 := by decide

/-- Position (a, b) with the last coordinate put back is (a, b, k). -/
theorem lift_ix (a : Fin 4096) (b : Fin 50) (k : Fin 1) : red2.lift (ix2 a b) k = ix3 a b k := by
  funext ax
  match ax with
  | ⟨0, _⟩ => exact Fin.ext rfl
  | ⟨1, _⟩ => exact Fin.ext rfl
  | ⟨2, _⟩ => exact Fin.ext rfl

/-- The maximum along the last axis is the one entry there. -/
theorem rowMax_apply (l : FVec Ideal S4096x50x1 .f32) (a : Fin 4096) (b : Fin 50) :
    rowMax l (ix2 a b) = l (ix3 a b (0 : Fin 1)) := by
  show max (Ideal.ofBits .f32 0xFF800000#32)
    (Host.reduce FloatOps.maximumf l (constant (F := Ideal) S_ .f32 0xFF800000#32) reducesTo_S4096x50x1_S4096x50_d2 h_S_ (ix2 a b)) = _
  rw [neg_inf_word, max_eq_right bot_le,
    Host.reduce_eq_fold_single FloatOps.maximumf l _ reducesTo_S4096x50x1_S4096x50_d2 red2 h_S_ (ix2 a b)]
  refine (fold_max_one _ _).trans ?_
  show max (l (red2.lift (ix2 a b) (0 : Fin 1))) (Ideal.ofBits .f32 0xFF800000#32) = _
  rw [neg_inf_word, max_eq_left bot_le, lift_ix]

/-- A real logit minus the maximum along its axis of extent one is zero. -/
theorem shifted_zero (l : FVec Ideal S4096x50x1 .f32) (hl : ∀ i, IsReal (l i)) (i : S4096x50x1.Idx) :
    shifted l i = 0 := by
  obtain ⟨a, b, c, rfl⟩ : ∃ (a : Fin 4096) (b : Fin 50) (c : Fin 1), i = ix3 a b c := ⟨i 0, i 1, i 2, eq_ix3 i⟩
  obtain rfl : c = 0 := Subsingleton.elim _ _
  show l (ix3 a b 0) - broadcastInDim S4096x50x1 ![0, 1] bcast_S4096x50_S4096x50x1_0_1 (rowMax l) (ix3 a b 0) = 0
  rw [broadcastInDim_apply _ bcast_S4096x50_S4096x50x1_0_1 (rowMax l) (ix3 a b 0) (ix2 a b) (fun ax => by
    match ax with
    | ⟨0, _⟩ => rfl
    | ⟨1, _⟩ => rfl), rowMax_apply]
  exact sub_self_of_isReal (hl _)

/-- From shifted logits that are all zero: each exponential is one, each sum along the axis is one, its logarithm is
    zero, and the result is zero. -/
theorem tail_zero (v : FVec Ideal S4096x50x1 .f32) (hv : ∀ i, v i = 0) (i : S4096x50x1.Idx) :
    subf v (Host.log (broadcastInDim S4096x50x1 ![0, 1] bcast_S4096x50_S4096x50x1_0_1
      (Host.reduceAdd (Host.exp v) (constant (F := Ideal) S_ .f32 0x00000000#32) reducesTo_S4096x50x1_S4096x50_d2 h_S_))) i = 0 := by
  have hsum : ∀ j : S4096x50.Idx,
      Host.reduceAdd (Host.exp v) (constant (F := Ideal) S_ .f32 0x00000000#32) reducesTo_S4096x50x1_S4096x50_d2 h_S_ j = 1 := by
    intro j
    rw [hostReduceAdd_apply, Ideal.hostReduceAdd_single reducesTo_S4096x50x1_S4096x50_d2 red2]
    show Ideal.ofBits .f32 0x00000000#32 + ∑ k : Fin 1, Ideal.exp (v (red2.lift j k)) = 1
    rw [Ideal.ofBits_zero_f32, zero_add, Fin.sum_univ_one, hv, exp_zero]
  obtain ⟨k, hk⟩ := bcast_mem _ bcast_S4096x50_S4096x50x1_0_1
    (Host.reduceAdd (Host.exp v) (constant (F := Ideal) S_ .f32 0x00000000#32) reducesTo_S4096x50x1_S4096x50_d2 h_S_) i
  show v i - Ideal.log (broadcastInDim S4096x50x1 ![0, 1] bcast_S4096x50_S4096x50x1_0_1
    (Host.reduceAdd (Host.exp v) (constant (F := Ideal) S_ .f32 0x00000000#32) reducesTo_S4096x50x1_S4096x50_d2 h_S_) i) = 0
  rw [hk, hsum k, hv i, log_one]
  exact sub_self_of_isReal isReal_zero

/-- The log-softmax of real logits along an axis of extent one is the zero array. -/
theorem logSoftmax_zero (l : FVec Ideal S4096x50x1 .f32) (hl : ∀ i, IsReal (l i)) :
    logSoftmax l = fun _ => (0 : EReal) :=
  funext fun i => tail_zero (shifted l) (shifted_zero l hl) i

/-! ## The result -/

/-- With index words in 0 … 99999 and real table, weight and bias entries, the reference's result is identically 0. -/
theorem refTerm_zero (x : IVec S4096x50 32) (tb : FVec Ideal S100000x512 .f32) (w : FVec Ideal S1x512 .f32)
    (b : FVec Ideal S1 .f32) (hx : ∀ i, (x i).toNat < 100000 ∧ 0 ≤ (x i).toInt)
    (htb : ∀ i, ∃ r : ℝ, tb i = (r : EReal)) (hw : ∀ i, ∃ r : ℝ, w i = (r : EReal))
    (hb : ∀ i, ∃ r : ℝ, b i = (r : EReal)) :
    refTerm x tb w b = fun _ => (0 : EReal) :=
  logSoftmax_zero _ (logits_real x hx tb w b htb hw hb)

end Cert.Proof.RefValue
-- ==== Proof.RefRun.lean ====
/-
  The reference's run under the input-domain precondition.

  Every weakly fair execution of the reference terminates with its result buffer at the composition of its operations
  applied to the launch contents of the four argument buffers, and those four unchanged. The precondition says the
  index words lie in 0 … 99999 and the table, weight and bias entries are real numbers; for such arguments that
  composition is the zero array (a log-softmax along an axis of extent one). So the result buffer ends identically 0.
-/
import proofs.«206204_g77489799954452_cont_sun_c4_640_31_alg».proof.Defs
import proofs.«206204_g77489799954452_cont_sun_c4_640_31_alg».proof.Proof.Gen.ReferenceIdeal
import proofs.«206204_g77489799954452_cont_sun_c4_640_31_alg».proof.Proof.Gen.Pre_input_domain
import proofs.«206204_g77489799954452_cont_sun_c4_640_31_alg».proof.Proof.PreFacts
import proofs.«206204_g77489799954452_cont_sun_c4_640_31_alg».proof.Proof.RefOps
import proofs.«206204_g77489799954452_cont_sun_c4_640_31_alg».proof.Proof.RefValue

noncomputable section

namespace Cert.Proof.RefRun

open Idealize.ShloMosaic Idealize.SL.Sem

/-- Under the precondition the reference runs, its result is the zero array on every device, and its four argument
    arrays end as they began. -/
theorem run (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, g'⟩
      (fun r => ∀ c : Dev Cert.ReferenceIdeal.nD,
        r.2.mem ((c.tc : Thread Cert.ReferenceIdeal.nD Cert.ReferenceIdeal.τ).loc Cert.ReferenceIdeal.main_v6) = (fun _ => (0 : EReal))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono (fun r h c => by
      obtain ⟨h6, h0, h1, h2, h3⟩ := h c
      have hp := hpre c
      obtain ⟨htb, hw, hb⟩ := Cert.Proof.PreFacts.real_inputs _ _ _ _ hp
      exact ⟨h6.trans (Cert.Proof.RefValue.refTerm_zero _ _ _ _ (Cert.Proof.PreFacts.idx_lt _ _ _ _ hp) htb hw hb),
        h0, h1, h2, h3⟩)
    (Cert.Proof.RefOps.run_term (F := Ideal) m' g')

end Cert.Proof.RefRun

end
-- ==== Proof.lean ====
/-
  The claim. The kernel projects every row of the table onto the weight row and adds the bias (a TensorCore pipeline over
  23 blocks of 4352 rows, the last overhanging the table), then, on the 32 vector subcores, gathers the projected entry
  each index names and stores its difference with itself; the reference gathers the rows, projects them, adds the bias and
  takes the log-softmax over a last axis of extent one. Under the precondition — every float input a real number, every
  index between 0 and 99999 — each gathered projected entry is a real number, so the kernel's result is zero everywhere;
  and each reference logit l is a real number, so max l = l, l - l = 0, exp 0 = 1, log 1 = 0 and the reference's result is
  zero everywhere too. The three frames are the three runs with the values dropped; the idealization rewrote nothing.
-/
import proofs.«206204_g77489799954452_cont_sun_c4_640_31_alg».proof.Defs
import proofs.«206204_g77489799954452_cont_sun_c4_640_31_alg».proof.Proof.Gen.Kernel
import proofs.«206204_g77489799954452_cont_sun_c4_640_31_alg».proof.Proof.Gen.KernelIdeal
import proofs.«206204_g77489799954452_cont_sun_c4_640_31_alg».proof.Proof.Gen.ReferenceIdeal
import proofs.«206204_g77489799954452_cont_sun_c4_640_31_alg».proof.Proof.Gen.Pre_input_domain
import proofs.«206204_g77489799954452_cont_sun_c4_640_31_alg».proof.Proof.MainKI
import proofs.«206204_g77489799954452_cont_sun_c4_640_31_alg».proof.Proof.MainKB
import proofs.«206204_g77489799954452_cont_sun_c4_640_31_alg».proof.Proof.TcValueKI
import proofs.«206204_g77489799954452_cont_sun_c4_640_31_alg».proof.Proof.AlgKI
import proofs.«206204_g77489799954452_cont_sun_c4_640_31_alg».proof.Proof.PreFacts
import proofs.«206204_g77489799954452_cont_sun_c4_640_31_alg».proof.Proof.PreXfer
import proofs.«206204_g77489799954452_cont_sun_c4_640_31_alg».proof.Proof.RefRun

noncomputable section

namespace Cert.Proof

open Idealize.ShloMosaic Idealize.SL.Sem

/-- The word-level kernel runs and keeps its arguments: its indices are in range by the precondition. -/
theorem frame_k : Cert.frame_Kernel := by
  intro m ρ hpre
  have hx : ∀ d i, (m ((KB.TT d).loc Cert.Kernel.main_arg0) i).toNat < 100000 := fun d i => (PreFacts.idx_lt _ _ _ _ (hpre d) i).1
  exact (θ_run Cert.Kernel.defs _ _).mono (fun _ h c => ⟨(h c).1, (h c).2.1, (h c).2.2.1, (h c).2.2.2.1⟩)
    (KB.run_main (F := Bits) (fun _ => True) m ρ hx (fun _ _ _ => trivial))

/-- So does the idealized kernel. -/
theorem frame_ki : Cert.frame_KernelIdeal := by
  intro m ρ hpre
  have hx : ∀ d i, (m ((KI.TT d).loc Cert.KernelIdeal.main_arg0) i).toNat < 100000 := fun d i => (PreFacts.idx_lt _ _ _ _ (hpre d) i).1
  exact (θ_run Cert.KernelIdeal.defs _ _).mono (fun _ h c => ⟨(h c).1, (h c).2.1, (h c).2.2.1, (h c).2.2.2.1⟩)
    (KI.run_main (F := Ideal) (fun _ => True) m ρ hx (fun _ _ _ => trivial))

/-- The reference runs and keeps its arguments. -/
theorem frame_ri : Cert.frame_ReferenceIdeal := fun m ρ h =>
  (θ_run Cert.ReferenceIdeal.defs _ _).mono (fun _ h c => (h c).2) (RefRun.run m ρ h)

/-- A projected table is good when its first 100000 entries are real numbers. -/
def Good (sv : Cert.KernelIdeal.S100096.Idx → Elt Ideal .f32) : Prop :=
  ∀ r : Cert.KernelIdeal.S100096.Idx, (r 0).val < 100000 → ∃ x : ℝ, sv r = (x : EReal)

/-- Both idealized programs end with the zero array. -/
theorem algebraic : Cert.algebraic_KernelIdeal_ReferenceIdeal := by
  intro m ρ m' ρ' hpre hagree
  have hx : ∀ d i, (m ((KI.TT d).loc Cert.KernelIdeal.main_arg0) i).toNat < 100000 := fun d i => (PreFacts.idx_lt _ _ _ _ (hpre d) i).1
  have hreal := fun d => PreFacts.real_inputs _ _ _ _ (hpre d)
  have hGd : ∀ d o', KI.Proj d (m ((KI.TT d).loc Cert.KernelIdeal.main_arg1)) (m ((KI.TT d).loc Cert.KernelIdeal.main_arg2)) (KI.b0Of m d)
      (m ((KI.TT d).loc Cert.KernelIdeal.main_v1)) o' → Good (KI.sOf d o') := fun d o' h =>
    KI.good_of_real o' (KI.proj_real d _ _ _ _ o' h (hreal d).1 (hreal d).2.1 (KI.b0_real _ (hreal d).2.2))
  refine ⟨fun _ => fun _ => (0 : EReal), ?_, ?_⟩
  · refine (θ_run Cert.KernelIdeal.defs _ _).mono (fun r h c => ?_) (KI.run_main (F := Ideal) Good m ρ hx hGd)
    obtain ⟨h0, h1, h2, h3, g, hg, h5⟩ := h c
    refine ⟨?_, h0, h1, h2, h3⟩
    refine h5.trans ?_
    exact KI.rcast_zero g (fun j => by obtain ⟨sv, hsv, hd⟩ := hg j; exact KI.selfDiff_zero sv hsv _ hd)
  · exact (θ_run Cert.ReferenceIdeal.defs _ _).mono (fun r h c => h c)
      (RefRun.run m' ρ' (PreXfer.pre_ref_of_pre_kernel m m' hpre hagree))

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
